-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6144x32 : Shape := ⟨2, ![6144, 32]⟩
abbrev S12288x16 : Shape := ⟨2, ![12288, 16]⟩
abbrev S6144x6144 : Shape := ⟨2, ![6144, 6144]⟩
abbrev S12288x12288 : Shape := ⟨2, ![12288, 12288]⟩
abbrev S6144x12288 : Shape := ⟨2, ![6144, 12288]⟩
abbrev S32x32 : Shape := ⟨2, ![32, 32]⟩
abbrev S32 : Shape := ⟨1, ![32]⟩
abbrev S16x16 : Shape := ⟨2, ![16, 16]⟩
abbrev S16 : Shape := ⟨1, ![16]⟩
abbrev S16x1 : Shape := ⟨2, ![16, 1]⟩
abbrev S12288x34 : Shape := ⟨2, ![12288, 34]⟩
abbrev S12288 : Shape := ⟨1, ![12288]⟩
abbrev S1x12288 : Shape := ⟨2, ![1, 12288]⟩
abbrev S1 : Shape := ⟨1, ![1]⟩
abbrev S_ : Shape := ⟨0, ![]⟩

class Facts : Prop where
  bcast_S_S6144x32 : S_.BroadcastsInDim S6144x32 (![] : Fin 0 → Fin S6144x32.rank)
  reducesTo_S6144x32_S_d0_1 : S6144x32.ReducesTo [0, 1] S_
  h_S_ : 0 < S_.numel
  bcast_S_S12288x16 : S_.BroadcastsInDim S12288x16 (![] : Fin 0 → Fin S12288x16.rank)
  reducesTo_S12288x16_S_d0_1 : S12288x16.ReducesTo [0, 1] S_
  bcast_S_S6144x6144 : S_.BroadcastsInDim S6144x6144 (![] : Fin 0 → Fin S6144x6144.rank)
  reducesTo_S6144x6144_S_d0_1 : S6144x6144.ReducesTo [0, 1] S_
  bcast_S_S12288x12288 : S_.BroadcastsInDim S12288x12288 (![] : Fin 0 → Fin S12288x12288.rank)
  reducesTo_S12288x12288_S_d0_1 : S12288x12288.ReducesTo [0, 1] S_
  bcast_S_S6144x12288 : S_.BroadcastsInDim S6144x12288 (![] : Fin 0 → Fin S6144x12288.rank)
  reducesTo_S6144x12288_S_d0_1 : S6144x12288.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S12288x34 : S_.BroadcastsInDim S12288x34 (![] : Fin 0 → Fin S12288x34.rank)
  reducesTo_S12288x34_S_d0_1 : S12288x34.ReducesTo [0, 1] S_
  bcast_S_S12288 : S_.BroadcastsInDim S12288 (![] : Fin 0 → Fin S12288.rank)
  reducesTo_S12288_S_d0 : S12288.ReducesTo [0] S_
  bcast_S_S1x12288 : S_.BroadcastsInDim S1x12288 (![] : Fin 0 → Fin S1x12288.rank)
  reducesTo_S1x12288_S_d0_1 : S1x12288.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg18 : FVec F S12288 .f32) (main_arg19 : FVec F S1x12288 .f32) (main_arg20 : FVec F S1 .f32) (main_v83 : IVec S_ 1) (main_v84 : FVec F S12288x34 .f32) (main_cst_32 : FVec F S_ .f32) : IVec S_ 1 :=
  let main_v85 : FVec F S12288x34 .f32 := broadcastInDim S12288x34 ![] bcast_S_S12288x34 main_cst_32
  let main_v86 : IVec S12288x34 1 := cmpf .olt main_v84 main_v85
  let main_c_33 : IVec S_ 1 := constantI S_ 1 1#1
  let main_v87 : IVec S_ 1 := (fun x v => Host.reduce IntOp.andi x v reducesTo_S12288x34_S_d0_1 h_S_) main_v86 main_c_33
  let main_v88 : IVec S_ 1 := andi main_v83 main_v87
  let main_v89 : FVec F S12288 .f32 := Host.absf main_arg18
  let main_cst_34 : FVec F S_ .f32 := constant S_ .f32 0x7F800000#32
  let main_v90 : FVec F S12288 .f32 := broadcastInDim S12288 ![] bcast_S_S12288 main_cst_34
  let main_v91 : IVec S12288 1 := cmpf .olt main_v89 main_v90
  let main_c_35 : IVec S_ 1 := constantI S_ 1 1#1
  let main_v92 : IVec S_ 1 := (fun x v => Host.reduce IntOp.andi x v reducesTo_S12288_S_d0 h_S_) main_v91 main_c_35
  let main_v93 : IVec S_ 1 := andi main_v88 main_v92
  let main_v94 : FVec F S1x12288 .f32 := Host.absf main_arg19
  let main_cst_36 : FVec F S_ .f32 := constant S_ .f32 0x7F800000#32
  let main_v95 : FVec F S1x12288 .f32 := broadcastInDim S1x12288 ![] bcast_S_S1x12288 main_cst_36
  let main_v96 : IVec S1x12288 1 := cmpf .olt main_v94 main_v95
  let main_c_37 : IVec S_ 1 := constantI S_ 1 1#1
  let main_v97 : IVec S_ 1 := (fun x v => Host.reduce IntOp.andi x v reducesTo_S1x12288_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg14 : FVec F S16 .f32) (main_arg15 : FVec F S16 .f32) (main_arg16 : FVec F S16 .f32) (main_arg17 : FVec F S12288x34 .f32) (main_arg18 : FVec F S12288 .f32) (main_arg19 : FVec F S1x12288 .f32) (main_arg20 : FVec F S1 .f32) (main_v63 : IVec S_ 1) (main_v67 : IVec S_ 1) : IVec S_ 1 :=
  let main_v68 : IVec S_ 1 := andi main_v63 main_v67
  let main_v69 : FVec F S16 .f32 := Host.absf main_arg14
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S12288x34 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S16 .f32) (main_arg12 : FVec F S16 .f32) (main_arg13 : FVec F S16x1 .f32) (main_arg14 : FVec F S16 .f32) (main_arg15 : FVec F S16 .f32) (main_arg16 : FVec F S16 .f32) (main_arg17 : FVec F S12288x34 .f32) (main_arg18 : FVec F S12288 .f32) (main_arg19 : FVec F S1x12288 .f32) (main_arg20 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x1 .f32 := Host.absf main_arg13
  let main_cst_24 : FVec F S_ .f32 := constant S_ .f32 0x7F800000#32
  let main_v65 : FVec F S16x1 .f32 := broadcastInDim S16x1 ![] bcast_S_S16x1 main_cst_24
  let main_v66 : IVec S16x1 1 := cmpf .olt main_v64 main_v65
  let main_c_25 : IVec S_ 1 := constantI S_ 1 1#1
  let main_v67 : IVec S_ 1 := (fun x v => Host.reduce IntOp.andi x v reducesTo_S16x1_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S32x32 .f32) (main_arg8 : FVec F S32 .f32) (main_arg9 : FVec F S16x16 .f32) (main_arg10 : FVec F S16 .f32) (main_arg11 : FVec F S16 .f32) (main_arg12 : FVec F S16 .f32) (main_arg13 : FVec F S16x1 .f32) (main_arg14 : FVec F S16 .f32) (main_arg15 : FVec F S16 .f32) (main_arg16 : FVec F S16 .f32) (main_arg17 : FVec F S12288x34 .f32) (main_arg18 : FVec F S12288 .f32) (main_arg19 : FVec F S1x12288 .f32) (main_arg20 : FVec F S1 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S16x16 .f32 := Host.absf main_arg9
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S6144x12288 .f32) (main_arg5 : FVec F S32x32 .f32) (main_arg6 : FVec F S32 .f32) (main_arg7 : FVec F S32x32 .f32) (main_arg8 : FVec F S32 .f32) (main_arg9 : FVec F S16x16 .f32) (main_arg10 : FVec F S16 .f32) (main_arg11 : FVec F S16 .f32) (main_arg12 : FVec F S16 .f32) (main_arg13 : FVec F S16x1 .f32) (main_arg14 : FVec F S16 .f32) (main_arg15 : FVec F S16 .f32) (main_arg16 : FVec F S16 .f32) (main_arg17 : FVec F S12288x34 .f32) (main_arg18 : FVec F S12288 .f32) (main_arg19 : FVec F S1x12288 .f32) (main_arg20 : FVec F S1 .f32) (main_v13 : IVec S_ 1) (main_v16 : IVec S12288x12288 1) : IVec S_ 1 :=
  let main_c_5 : IVec S_ 1 := constantI S_ 1 1#1
  let main_v17 : IVec S_ 1 := (fun x v => Host.reduce IntOp.andi x v reducesTo_S12288x12288_S_d0_1 h_S_) main_v16 main_c_5
  let main_v18 : IVec S_ 1 := andi main_v13 main_v17
  let main_v19 : FVec F S6144x12288 .f32 := Host.absf main_arg4
  let main_cst_6 : FVec F S_ .f32 := constant S_ .f32 0x7F800000#32
  let main_v20 : FVec F S6144x12288 .f32 := broadcastInDim S6144x12288 ![] bcast_S_S6144x12288 main_cst_6
  let main_v21 : IVec S6144x12288 1 := cmpf .olt main_v19 main_v20
  let main_c_7 : IVec S_ 1 := constantI S_ 1 1#1
  let main_v22 : IVec S_ 1 := (fun x v => Host.reduce IntOp.andi x v reducesTo_S6144x12288_S_d0_1 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S6144x32 .f32) (main_arg1 : FVec F S12288x16 .f32) (main_arg2 : FVec F S6144x6144 .f32) (main_arg3 : FVec F S12288x12288 .f32) (main_arg4 : FVec F S6144x12288 .f32) (main_arg5 : FVec F S32x32 .f32) (main_arg6 : FVec F S32 .f32) (main_arg7 : FVec F S32x32 .f32) (main_arg8 : FVec F S32 .f32) (main_arg9 : FVec F S16x16 .f32) (main_arg10 : FVec F S16 .f32) (main_arg11 : FVec F S16 .f32) (main_arg12 : FVec F S16 .f32) (main_arg13 : FVec F S16x1 .f32) (main_arg14 : FVec F S16 .f32) (main_arg15 : FVec F S16 .f32) (main_arg16 : FVec F S16 .f32) (main_arg17 : FVec F S12288x34 .f32) (main_arg18 : FVec F S12288 .f32) (main_arg19 : FVec F S1x12288 .f32) (main_arg20 : FVec F S1 .f32) : IVec S_ 1 :=
  let main_v0 : FVec F S6144x32 .f32 := Host.absf main_arg0
  let main_cst : FVec F S_ .f32 := constant S_ .f32 0x7F800000#32
  let main_v1 : FVec F S6144x32 .f32 := broadcastInDim S6144x32 ![] bcast_S_S6144x32 main_cst
  let main_v2 : IVec S6144x32 1 := cmpf .olt main_v0 main_v1
  let main_c : IVec S_ 1 := constantI S_ 1 1#1
  let main_v3 : IVec S_ 1 := (fun x v => Host.reduce IntOp.andi x v reducesTo_S6144x32_S_d0_1 h_S_) main_v2 main_c
  let main_v4 : FVec F S12288x16 .f32 := Host.absf main_arg1
  let main_cst_0 : FVec F S_ .f32 := constant S_ .f32 0x7F800000#32
  let main_v5 : FVec F S12288x16 .f32 := broadcastInDim S12288x16 ![] bcast_S_S12288x16 main_cst_0
  let main_v6 : IVec S12288x16 1 := cmpf .olt main_v4 main_v5
  let main_c_1 : IVec S_ 1 := constantI S_ 1 1#1
  let main_v7 : IVec S_ 1 := (fun x v => Host.reduce IntOp.andi x v reducesTo_S12288x16_S_d0_1 h_S_) main_v6 main_c_1
  let main_v8 : IVec S_ 1 := andi main_v3 main_v7
  let main_v9 : FVec F S6144x6144 .f32 := Host.absf main_arg2
  let main_cst_2 : FVec F S_ .f32 := constant S_ .f32 0x7F800000#32
  let main_v10 : FVec F S6144x6144 .f32 := broadcastInDim S6144x6144 ![] bcast_S_S6144x6144 main_cst_2
  let main_v11 : IVec S6144x6144 1 := cmpf .olt main_v9 main_v10
  let main_c_3 : IVec S_ 1 := constantI S_ 1 1#1
  let main_v12 : IVec S_ 1 := (fun x v => Host.reduce IntOp.andi x v reducesTo_S6144x6144_S_d0_1 h_S_) main_v11 main_c_3
  let main_v13 : IVec S_ 1 := andi main_v8 main_v12
  let main_v14 : FVec F S12288x12288 .f32 := Host.absf main_arg3
  let main_cst_4 : FVec F S_ .f32 := constant S_ .f32 0x7F800000#32
  let main_v15 : FVec F S12288x12288 .f32 := broadcastInDim S12288x12288 ![] bcast_S_S12288x12288 main_cst_4
  let main_v16 : IVec S12288x12288 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S6144x32 : Shape := ⟨2, ![6144, 32]⟩
abbrev S12288x16 : Shape := ⟨2, ![12288, 16]⟩
abbrev S6144x6144 : Shape := ⟨2, ![6144, 6144]⟩
abbrev S12288x12288 : Shape := ⟨2, ![12288, 12288]⟩
abbrev S6144x12288 : Shape := ⟨2, ![6144, 12288]⟩
abbrev S32x32 : Shape := ⟨2, ![32, 32]⟩
abbrev S32 : Shape := ⟨1, ![32]⟩
abbrev S16x16 : Shape := ⟨2, ![16, 16]⟩
abbrev S16 : Shape := ⟨1, ![16]⟩
abbrev S16x1 : Shape := ⟨2, ![16, 1]⟩
abbrev S12288x34 : Shape := ⟨2, ![12288, 34]⟩
abbrev S12288 : Shape := ⟨1, ![12288]⟩
abbrev S1x12288 : Shape := ⟨2, ![1, 12288]⟩
abbrev S1 : Shape := ⟨1, ![1]⟩
abbrev S768x6144 : Shape := ⟨2, ![768, 6144]⟩
abbrev S768x32 : Shape := ⟨2, ![768, 32]⟩
abbrev S1x32 : Shape := ⟨2, ![1, 32]⟩
abbrev S1x16 : Shape := ⟨2, ![1, 16]⟩
abbrev S384x12288 : Shape := ⟨2, ![384, 12288]⟩
abbrev S384x16 : Shape := ⟨2, ![384, 16]⟩
abbrev S_ : Shape := ⟨0, ![]⟩
abbrev S12288x1 : Shape := ⟨2, ![12288, 1]⟩
abbrev S12288x2 : Shape := ⟨2, ![12288, 2]⟩
abbrev S34x12288 : Shape := ⟨2, ![34, 12288]⟩
abbrev S6144x1 : Shape := ⟨2, ![6144, 1]⟩
abbrev S256x12288 : Shape := ⟨2, ![256, 12288]⟩
abbrev S256x32 : Shape := ⟨2, ![256, 32]⟩
abbrev S256x1 : Shape := ⟨2, ![256, 1]⟩
abbrev S256x2 : Shape := ⟨2, ![256, 2]⟩
abbrev S256x34 : Shape := ⟨2, ![256, 34]⟩
abbrev S1x1 : Shape := ⟨2, ![1, 1]⟩
abbrev S6144 : Shape := ⟨1, ![6144]⟩

abbrev nBuf : Space → Nat
  | .hbm => 142
  | .vmem => 35
  | .smem => 0
  | _ => 0

abbrev hbmTy0_0 (i : Nat) : BufTy := match i % 128 with
  | 0 => ⟨S6144x32, .f32⟩
  | 1 => ⟨S12288x16, .f32⟩
  | 2 => ⟨S6144x6144, .f32⟩
  | 3 => ⟨S12288x12288, .f32⟩
  | 4 => ⟨S6144x12288, .f32⟩
  | 5 => ⟨S32x32, .f32⟩
  | 6 => ⟨S32, .f32⟩
  | 7 => ⟨S32x32, .f32⟩
  | 8 => ⟨S32, .f32⟩
  | 9 => ⟨S16x16, .f32⟩
  | 10 => ⟨S16, .f32⟩
  | 11 => ⟨S16, .f32⟩
  | 12 => ⟨S16, .f32⟩
  | 13 => ⟨S16x1, .f32⟩
  | 14 => ⟨S16, .f32⟩
  | 15 => ⟨S16, .f32⟩
  | 16 => ⟨S16, .f32⟩
  | 17 => ⟨S12288x34, .f32⟩
  | 18 => ⟨S12288, .f32⟩
  | 19 => ⟨S1x12288, .f32⟩
  | 20 => ⟨S1, .f32⟩
  | 21 => ⟨S32x32, .f32⟩
  | 22 => ⟨S6144x32, .f32⟩
  | 23 => ⟨S32x32, .f32⟩
  | 24 => ⟨S6144x32, .f32⟩
  | 25 => ⟨S16x16, .f32⟩
  | 26 => ⟨S12288x16, .f32⟩
  | 27 => ⟨S1x16, .f32⟩
  | 28 => ⟨S12288x16, .f32⟩
  | 29 => ⟨S12288x16, .f32⟩
  | 30 => ⟨S12288x16, .f32⟩
  | 31 => ⟨S_, .f32⟩
  | 32 => ⟨S16, .f32⟩
  | 33 => ⟨S_, .f32⟩
  | 34 => ⟨S16, .f32⟩
  | 35 => ⟨S16, .f32⟩
  | 36 => ⟨S_, .i32⟩
  | 37 => ⟨S_, .f32⟩
  | 38 => ⟨S16, .f32⟩
  | 39 => ⟨S1x16, .f32⟩
  | 40 => ⟨S_, .f32⟩
  | 41 => ⟨S1x16, .f32⟩
  | 42 => ⟨S1x16, .f32⟩
  | 43 => ⟨S12288x16, .f32⟩
  | 44 => ⟨S12288x16, .f32⟩
  | 45 => ⟨S12288x16, .f32⟩
  | 46 => ⟨S_, .f32⟩
  | 47 => ⟨S_, .f32⟩
  | 48 => ⟨S_, .f32⟩
  | 49 => ⟨S_, .f32⟩
  | 50 => ⟨S16, .f32⟩
  | 51 => ⟨S16, .f32⟩
  | 52 => ⟨S16, .f32⟩
  | 53 => ⟨S_, .f32⟩
  | 54 => ⟨S_, .i1⟩
  | 55 => ⟨S_, .f32⟩
  | 56 => ⟨S_, .f32⟩
  | 57 => ⟨S16, .f32⟩
  | 58 => ⟨S16, .f32⟩
  | 59 => ⟨S1x16, .f32⟩
  | 60 => ⟨S12288x16, .f32⟩
  | 61 => ⟨S12288x16, .f32⟩
  | 62 => ⟨S1x16, .f32⟩
  | 63 => ⟨S12288x16, .f32⟩
  | 64 => ⟨S12288x16, .f32⟩
  | 65 => ⟨S_, .f32⟩
  | 66 => ⟨S16, .f32⟩
  | 67 => ⟨S16, .f32⟩
  | 68 => ⟨S16, .f32⟩
  | 69 => ⟨S1x16, .f32⟩
  | 70 => ⟨S12288x16, .f32⟩
  | 71 => ⟨S12288x16, .f32⟩
  | 72 => ⟨S1x16, .f32⟩
  | 73 => ⟨S12288x16, .f32⟩
  | 74 => ⟨S12288x16, .f32⟩
  | 75 => ⟨S_, .f32⟩
  | 76 => ⟨S12288x16, .f32⟩
  | 77 => ⟨S12288x16, .f32⟩
  | 78 => ⟨S_, .f32⟩
  | 79 => ⟨S12288, .f32⟩
  | 80 => ⟨S12288x1, .f32⟩
  | 81 => ⟨S1x16, .f32⟩
  | 82 => ⟨S12288x16, .f32⟩
  | 83 => ⟨S1x16, .f32⟩
  | 84 => ⟨S12288x16, .f32⟩
  | 85 => ⟨S12288x16, .f32⟩
  | 86 => ⟨S12288x16, .f32⟩
  | 87 => ⟨S_, .f32⟩
  | 88 => ⟨S16, .f32⟩
  | 89 => ⟨S_, .f32⟩
  | 90 => ⟨S16, .f32⟩
  | 91 => ⟨S16, .f32⟩
  | 92 => ⟨S_, .i32⟩
  | 93 => ⟨S_, .f32⟩
  | 94 => ⟨S16, .f32⟩
  | 95 => ⟨S1x16, .f32⟩
  | 96 => ⟨S_, .f32⟩
  | 97 => ⟨S1x16, .f32⟩
  | 98 => ⟨S1x16, .f32⟩
  | 99 => ⟨S12288x16, .f32⟩
  | 100 => ⟨S12288x16, .f32⟩
  | 101 => ⟨S12288x16, .f32⟩
  | 102 => ⟨S_, .f32⟩
  | 103 => ⟨S_, .f32⟩
  | 104 => ⟨S_, .f32⟩
  | 105 => ⟨S_, .f32⟩
  | 106 => ⟨S16, .f32⟩
  | 107 => ⟨S16, .f32⟩
  | 108 => ⟨S16, .f32⟩
  | 109 => ⟨S_, .f32⟩
  | 110 => ⟨S_, .i1⟩
  | 111 => ⟨S_, .f32⟩
  | 112 => ⟨S_, .f32⟩
  | 113 => ⟨S16, .f32⟩
  | 114 => ⟨S16, .f32⟩
  | 115 => ⟨S1x16, .f32⟩
  | 116 => ⟨S12288x16, .f32⟩
  | 117 => ⟨S12288x16, .f32⟩
  | 118 => ⟨S1x16, .f32⟩
  | 119 => ⟨S12288x16, .f32⟩
  | 120 => ⟨S12288x16, .f32⟩
  | 121 => ⟨S_, .f32⟩
  | 122 => ⟨S16, .f32⟩
  | 123 => ⟨S16, .f32⟩
  | 124 => ⟨S16, .f32⟩
  | 125 => ⟨S1x16, .f32⟩
  | 126 => ⟨S12288x16, .f32⟩
  | 127 => ⟨S12288x16, .f32⟩
  | _ => ⟨S6144x32, .f32⟩

abbrev hbmTy0_1 (i : Nat) : BufTy := match i % 128 with
  | 0 => ⟨S1x16, .f32⟩
  | 1 => ⟨S12288x16, .f32⟩
  | 2 => ⟨S12288x16, .f32⟩
  | 3 => ⟨S_, .f32⟩
  | 4 => ⟨S12288x16, .f32⟩
  | 5 => ⟨S12288x16, .f32⟩
  | 6 => ⟨S_, .f32⟩
  | 7 => ⟨S12288, .f32⟩
  | 8 => ⟨S12288x1, .f32⟩
  | 9 => ⟨S12288x2, .f32⟩
  | 10 => ⟨S34x12288, .f32⟩
  | 11 => ⟨S12288x1, .f32⟩
  | 12 => ⟨S6144x1, .f32⟩
  | 13 => ⟨S6144, .f32⟩
  | _ => ⟨S6144x32, .f32⟩

abbrev hbmTy (i : Nat) : BufTy := match i / 128 with
  | 0 => hbmTy0_0 i
  | 1 => hbmTy0_1 i
  | _ => ⟨S6144x32, .f32⟩

abbrev bufTy : (tb : Table) → Fin (tcTables nBuf tb) → BufTy
  | .hbm, ⟨i, _⟩ => hbmTy i
  | .local _ .vmem, ⟨0, _⟩ => ⟨S768x6144, .f32⟩
  | .local _ .vmem, ⟨1, _⟩ => ⟨S768x6144, .f32⟩
  | .local _ .vmem, ⟨2, _⟩ => ⟨S6144x32, .f32⟩
  | .local _ .vmem, ⟨3, _⟩ => ⟨S32x32, .f32⟩
  | .local _ .vmem, ⟨4, _⟩ => ⟨S32, .f32⟩
  | .local _ .vmem, ⟨5, _⟩ => ⟨S768x32, .f32⟩
  | .local _ .vmem, ⟨6, _⟩ => ⟨S768x32, .f32⟩
  | .local _ .vmem, ⟨7, _⟩ => ⟨S768x6144, .f32⟩
  | .local _ .vmem, ⟨8, _⟩ => ⟨S768x6144, .f32⟩
  | .local _ .vmem, ⟨9, _⟩ => ⟨S6144x32, .f32⟩
  | .local _ .vmem, ⟨10, _⟩ => ⟨S32x32, .f32⟩
  | .local _ .vmem, ⟨11, _⟩ => ⟨S32, .f32⟩
  | .local _ .vmem, ⟨12, _⟩ => ⟨S768x32, .f32⟩
  | .local _ .vmem, ⟨13, _⟩ => ⟨S768x32, .f32⟩
  | .local _ .vmem, ⟨14, _⟩ => ⟨S384x12288, .f32⟩
  | .local _ .vmem, ⟨15, _⟩ => ⟨S384x12288, .f32⟩
  | .local _ .vmem, ⟨16, _⟩ => ⟨S12288x16, .f32⟩
  | .local _ .vmem, ⟨17, _⟩ => ⟨S384x16, .f32⟩
  | .local _ .vmem, ⟨18, _⟩ => ⟨S384x16, .f32⟩
  | .local _ .vmem, ⟨19, _⟩ => ⟨S384x12288, .f32⟩
  | .local _ .vmem, ⟨20, _⟩ => ⟨S384x12288, .f32⟩
  | .local _ .vmem, ⟨21, _⟩ => ⟨S12288x16, .f32⟩
  | .local _ .vmem, ⟨22, _⟩ => ⟨S384x16, .f32⟩
  | .local _ .vmem, ⟨23, _⟩ => ⟨S384x16, .f32⟩
  | .local _ .vmem, ⟨24, _⟩ => ⟨S256x12288, .f32⟩
  | .local _ .vmem, ⟨25, _⟩ => ⟨S256x12288, .f32⟩
  | .local _ .vmem, ⟨26, _⟩ => ⟨S12288x2, .f32⟩
  | .local _ .vmem, ⟨27, _⟩ => ⟨S256x32, .f32⟩
  | .local _ .vmem, ⟨28, _⟩ => ⟨S256x32, .f32⟩
  | .local _ .vmem, ⟨29, _⟩ => ⟨S34x12288, .f32⟩
  | .local _ .vmem, ⟨30, _⟩ => ⟨S12288, .f32⟩
  | .local _ .vmem, ⟨31, _⟩ => ⟨S12288x1, .f32⟩
  | .local _ .vmem, ⟨32, _⟩ => ⟨S1, .f32⟩
  | .local _ .vmem, ⟨33, _⟩ => ⟨S256x1, .f32⟩
  | .local _ .vmem, ⟨34, _⟩ => ⟨S256x1, .f32⟩
  | _, _ => ⟨S6144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_cst_0 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_cst_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_cst_1 : Ref sig .tc := ⟨.hbm, 47, rfl⟩
abbrev main_call0_v8 : Ref sig .tc := ⟨.hbm, 48, rfl⟩
abbrev main_call0_cst_2 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_cst_3 : Ref sig .tc := ⟨.hbm, 53, rfl⟩
abbrev main_call0_v12 : Ref sig .tc := ⟨.hbm, 54, rfl⟩
abbrev main_call0_cst_4 : Ref sig .tc := ⟨.hbm, 55, rfl⟩
abbrev main_call0_call0_v0 : Ref sig .tc := ⟨.hbm, 56, rfl⟩
abbrev main_call0_call0_v1 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_cst_1 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_call1_cst : Ref sig .tc := ⟨.hbm, 75, rfl⟩
abbrev main_call1_v0 : Ref sig .tc := ⟨.hbm, 76, rfl⟩
abbrev main_v29 : Ref sig .tc := ⟨.hbm, 77, rfl⟩
abbrev main_cst_2 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_cst_3 : Ref sig .tc := ⟨.hbm, 87, rfl⟩
abbrev main_v38 : Ref sig .tc := ⟨.hbm, 88, rfl⟩
abbrev main_cst_4 : Ref sig .tc := ⟨.hbm, 89, rfl⟩
abbrev main_v39 : Ref sig .tc := ⟨.hbm, 90, rfl⟩
abbrev main_v40 : Ref sig .tc := ⟨.hbm, 91, rfl⟩
abbrev main_c_5 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_cst_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_cst_1 : Ref sig .tc := ⟨.hbm, 103, rfl⟩
abbrev main_call2_v8 : Ref sig .tc := ⟨.hbm, 104, rfl⟩
abbrev main_call2_cst_2 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_cst_3 : Ref sig .tc := ⟨.hbm, 109, rfl⟩
abbrev main_call2_v12 : Ref sig .tc := ⟨.hbm, 110, rfl⟩
abbrev main_call2_cst_4 : Ref sig .tc := ⟨.hbm, 111, rfl⟩
abbrev main_call2_call0_v0 : Ref sig .tc := ⟨.hbm, 112, rfl⟩
abbrev main_call2_call0_v1 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_cst_6 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_call3_cst : Ref sig .tc := ⟨.hbm, 131, rfl⟩
abbrev main_call3_v0 : Ref sig .tc := ⟨.hbm, 132, rfl⟩
abbrev main_v57 : Ref sig .tc := ⟨.hbm, 133, rfl⟩
abbrev main_cst_7 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc4_stg7_0 : Ref sig .tc := ⟨.vmem, 33, rfl⟩
abbrev cc4_stg7_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem7_0 : DmaSem sig := 33
abbrev cc4_sem7_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S768x6144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6144x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S768x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S384x12288 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S12288x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S384x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S384x12288 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S12288x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S384x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![24], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x12288 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S12288x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S34x12288 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S12288 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S12288x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S256x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  transposes_S32x32_S32x32_1_0 : S32x32.Transposes [1, 0] S32x32
  inb_S768x6144_S768x6144_0_0 : ∀ a, (![0, 0] : Fin 2 → Nat) a + S768x6144.size a ≤ S768x6144.size a
  h_S768x6144 : 0 < S768x6144.numel
  inb_S6144x32_S6144x32_0_0 : ∀ a, (![0, 0] : Fin 2 → Nat) a + S6144x32.size a ≤ S6144x32.size a
  h_S6144x32 : 0 < S6144x32.numel
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32_S32_0 : ∀ a, (![0] : Fin 1 → Nat) a + S32.size a ≤ S32.size a
  h_S32 : 0 < S32.numel
  shapeCasts_S32_S1x32 : S32.ShapeCasts S1x32
  broadcasts_S1x32_S768x32 : S1x32.Broadcasts S768x32
  inb_S768x32_S768x32_0_0 : ∀ a, (![0, 0] : Fin 2 → Nat) a + S768x32.size a ≤ S768x32.size a
  h_S768x32 : 0 < S768x32.numel
  shapeCasts_S6144x32_S6144x32 : S6144x32.ShapeCasts S6144x32
  transposes_S16x16_S16x16_1_0 : S16x16.Transposes [1, 0] S16x16
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  inb_S384x12288_S384x12288_0_0 : ∀ a, (![0, 0] : Fin 2 → Nat) a + S384x12288.size a ≤ S384x12288.size a
  h_S384x12288 : 0 < S384x12288.numel
  inb_S12288x16_S12288x16_0_0 : ∀ a, (![0, 0] : Fin 2 → Nat) a + S12288x16.size a ≤ S12288x16.size a
  h_S12288x16 : 0 < S12288x16.numel
  shapeCasts_S12288x16_S12288x16 : S12288x16.ShapeCasts S12288x16
  inb_S384x16_S384x16_0_0 : ∀ a, (![0, 0] : Fin 2 → Nat) a + S384x16.size a ≤ S384x16.size a
  h_S384x16 : 0 < S384x16.numel
  reducesTo_S12288x16_S16_d0 : S12288x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S_S12288x16 : S_.BroadcastsInDim S12288x16 (![] : Fin 0 → Fin S12288x16.rank)
  reducesTo_S12288x16_S12288_d1 : S12288x16.ReducesTo [1] S12288
  bcast_S12288_S12288x1_0 : S12288.BroadcastsInDim S12288x1 (![0] : Fin 1 → Fin S12288x1.rank)
  transposes_S16x1_S1x16_1_0 : S16x1.Transposes [1, 0] S1x16
  concatenates_S12288x1_S12288x1_S12288x2_d1 : Shape.Concatenates [S12288x1, S12288x1] S12288x2 1
  transposes_S12288x34_S34x12288_1_0 : S12288x34.Transposes [1, 0] S34x12288
  transposes_S1x12288_S12288x1_1_0 : S1x12288.Transposes [1, 0] S12288x1
  inb_S256x12288_S256x12288_0_0 : ∀ a, (![0, 0] : Fin 2 → Nat) a + S256x12288.size a ≤ S256x12288.size a
  h_S256x12288 : 0 < S256x12288.numel
  inb_S12288x2_S12288x2_0_0 : ∀ a, (![0, 0] : Fin 2 → Nat) a + S12288x2.size a ≤ S12288x2.size a
  h_S12288x2 : 0 < S12288x2.numel
  shapeCasts_S12288x2_S12288x2 : S12288x2.ShapeCasts S12288x2
  inb_S256x32_S256x32_0_0 : ∀ a, (![0, 0] : Fin 2 → Nat) a + S256x32.size a ≤ S256x32.size a
  h_S256x32 : 0 < S256x32.numel
  shapeCasts_S256x32_S256x32 : S256x32.ShapeCasts S256x32
  concatenates_S256x32_S256x2_S256x34_d1 : Shape.Concatenates [S256x32, S256x2] S256x34 1
  inb_S34x12288_S34x12288_0_0 : ∀ a, (![0, 0] : Fin 2 → Nat) a + S34x12288.size a ≤ S34x12288.size a
  h_S34x12288 : 0 < S34x12288.numel
  shapeCasts_S34x12288_S34x12288 : S34x12288.ShapeCasts S34x12288
  inb_S12288_S12288_0 : ∀ a, (![0] : Fin 1 → Nat) a + S12288.size a ≤ S12288.size a
  h_S12288 : 0 < S12288.numel
  shapeCasts_S12288_S1x12288 : S12288.ShapeCasts S1x12288
  broadcasts_S1x12288_S256x12288 : S1x12288.Broadcasts S256x12288
  inb_S12288x1_S12288x1_0_0 : ∀ a, (![0, 0] : Fin 2 → Nat) a + S12288x1.size a ≤ S12288x1.size a
  h_S12288x1 : 0 < S12288x1.numel
  shapeCasts_S12288x1_S12288x1 : S12288x1.ShapeCasts S12288x1
  inb_S1_S1_0 : ∀ a, (![0] : Fin 1 → Nat) a + S1.size a ≤ S1.size a
  h_S1 : 0 < S1.numel
  shapeCasts_S1_S1x1 : S1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  shapeCasts_S6144x1_S6144 : S6144x1.ShapeCasts S6144
  dot_S768x6144_S6144x32_S768x32_1_0_0_1_n_n_wf : DotDims.WF S768x6144 S6144x32 S768x32 [1] [0] [0] [1] [] []
  dot_S768x32_S32x32_S768x32_1_0_0_1_n_n_wf : DotDims.WF S768x32 S32x32 S768x32 [1] [0] [0] [1] [] []
  dot_S12288x16_S16x16_S12288x16_1_0_0_1_n_n_wf : DotDims.WF S12288x16 S16x16 S12288x16 [1] [0] [0] [1] [] []
  dot_S384x12288_S12288x16_S384x16_1_0_0_1_n_n_wf : DotDims.WF S384x12288 S12288x16 S384x16 [1] [0] [0] [1] [] []
  dot_S12288x1_S1x16_S12288x16_1_0_0_1_n_n_wf : DotDims.WF S12288x1 S1x16 S12288x16 [1] [0] [0] [1] [] []
  dot_S256x12288_S12288x2_S256x2_1_0_0_1_n_n_wf : DotDims.WF S256x12288 S12288x2 S256x2 [1] [0] [0] [1] [] []
  dot_S256x34_S34x12288_S256x12288_1_0_0_1_n_n_wf : DotDims.WF S256x34 S34x12288 S256x12288 [1] [0] [0] [1] [] []
  dot_S256x12288_S12288x1_S256x1_1_0_0_1_n_n_wf : DotDims.WF S256x12288 S12288x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S768x6144.size a ≤ S6144x6144.size a
  hwx0_0 : ∀ i : grid0.Coords, EltTy.bits .f32 = 32 ∨ (Rect.block (s := S6144x6144) S768x6144.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6144x32.size a ≤ S6144x32.size a
  hwx0_1 : ∀ i : grid0.Coords, EltTy.bits .f32 = 32 ∨ (Rect.block (s := S6144x32) S6144x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S768x32.size a ≤ S6144x32.size a
  hwx0_4 : ∀ i : grid0.Coords, EltTy.bits .f32 = 32 ∨ (Rect.block (s := S6144x32) S768x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S768x6144.size a ≤ S6144x6144.size a
  hwx1_0 : ∀ i : grid1.Coords, EltTy.bits .f32 = 32 ∨ (Rect.block (s := S6144x6144) S768x6144.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6144x32.size a ≤ S6144x32.size a
  hwx1_1 : ∀ i : grid1.Coords, EltTy.bits .f32 = 32 ∨ (Rect.block (s := S6144x32) S6144x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S768x32.size a ≤ S6144x32.size a
  hwx1_4 : ∀ i : grid1.Coords, EltTy.bits .f32 = 32 ∨ (Rect.block (s := S6144x32) S768x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S384x12288.size a ≤ S12288x12288.size a
  hwx2_0 : ∀ i : grid2.Coords, EltTy.bits .f32 = 32 ∨ (Rect.block (s := S12288x12288) S384x12288.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S12288x16.size a ≤ S12288x16.size a
  hwx2_1 : ∀ i : grid2.Coords, EltTy.bits .f32 = 32 ∨ (Rect.block (s := S12288x16) S12288x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S384x16.size a ≤ S12288x16.size a
  hwx2_2 : ∀ i : grid2.Coords, EltTy.bits .f32 = 32 ∨ (Rect.block (s := S12288x16) S384x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S384x12288.size a ≤ S12288x12288.size a
  hwx3_0 : ∀ i : grid3.Coords, EltTy.bits .f32 = 32 ∨ (Rect.block (s := S12288x12288) S384x12288.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S12288x16.size a ≤ S12288x16.size a
  hwx3_1 : ∀ i : grid3.Coords, EltTy.bits .f32 = 32 ∨ (Rect.block (s := S12288x16) S12288x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S384x16.size a ≤ S12288x16.size a
  hwx3_2 : ∀ i : grid3.Coords, EltTy.bits .f32 = 32 ∨ (Rect.block (s := S12288x16) S384x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x12288.size a ≤ S6144x12288.size a
  hwx4_0 : ∀ i : grid4.Coords, EltTy.bits .f32 = 32 ∨ (Rect.block (s := S6144x12288) S256x12288.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S12288x2.size a ≤ S12288x2.size a
  hwx4_1 : ∀ i : grid4.Coords, EltTy.bits .f32 = 32 ∨ (Rect.block (s := S12288x2) S12288x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x32.size a ≤ S6144x32.size a
  hwx4_2 : ∀ i : grid4.Coords, EltTy.bits .f32 = 32 ∨ (Rect.block (s := S6144x32) S256x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S34x12288.size a ≤ S34x12288.size a
  hwx4_3 : ∀ i : grid4.Coords, EltTy.bits .f32 = 32 ∨ (Rect.block (s := S34x12288) S34x12288.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S12288.size a ≤ S12288.size a
  hwx4_4 : ∀ i : grid4.Coords, EltTy.bits .f32 = 32 ∨ (Rect.block (s := S12288) S12288.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S12288x1.size a ≤ S12288x1.size a
  hwx4_5 : ∀ i : grid4.Coords, EltTy.bits .f32 = 32 ∨ (Rect.block (s := S12288x1) S12288x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1.size a ≤ S1.size a
  hwx4_6 : ∀ i : grid4.Coords, EltTy.bits .f32 = 32 ∨ (Rect.block (s := S1) S1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S256x1.size a ≤ S6144x1.size a
  hwx4_7 : ∀ i : grid4.Coords, EltTy.bits .f32 = 32 ∨ (Rect.block (s := S6144x1) S256x1.size (cc4_transform_7 i) (hinb4_7 i)).WholeWords (EltTy.packing .f32)

variable [Facts₀]

def dot_S768x6144_S6144x32_S768x32_1_0_0_1_n_n : DotDims S768x6144 S6144x32 S768x32 where
  lhsContracting := [1]
  rhsContracting := [0]
  lhsNonContracting := [0]
  rhsNonContracting := [1]
  lhsBatch := []
  rhsBatch := []
  wf := dot_S768x6144_S6144x32_S768x32_1_0_0_1_n_n_wf
def dot_S768x32_S32x32_S768x32_1_0_0_1_n_n : DotDims S768x32 S32x32 S768x32 where
  lhsContracting := [1]
  rhsContracting := [0]
  lhsNonContracting := [0]
  rhsNonContracting := [1]
  lhsBatch := []
  rhsBatch := []
  wf := dot_S768x32_S32x32_S768x32_1_0_0_1_n_n_wf
def dot_S12288x16_S16x16_S12288x16_1_0_0_1_n_n : DotDims S12288x16 S16x16 S12288x16 where
  lhsContracting := [1]
  rhsContracting := [0]
  lhsNonContracting := [0]
  rhsNonContracting := [1]
  lhsBatch := []
  rhsBatch := []
  wf := dot_S12288x16_S16x16_S12288x16_1_0_0_1_n_n_wf
def dot_S384x12288_S12288x16_S384x16_1_0_0_1_n_n : DotDims S384x12288 S12288x16 S384x16 where
  lhsContracting := [1]
  rhsContracting := [0]
  lhsNonContracting := [0]
  rhsNonContracting := [1]
  lhsBatch := []
  rhsBatch := []
  wf := dot_S384x12288_S12288x16_S384x16_1_0_0_1_n_n_wf
def dot_S12288x1_S1x16_S12288x16_1_0_0_1_n_n : DotDims S12288x1 S1x16 S12288x16 where
  lhsContracting := [1]
  rhsContracting := [0]
  lhsNonContracting := [0]
  rhsNonContracting := [1]
  lhsBatch := []
  rhsBatch := []
  wf := dot_S12288x1_S1x16_S12288x16_1_0_0_1_n_n_wf
def dot_S256x12288_S12288x2_S256x2_1_0_0_1_n_n : DotDims S256x12288 S12288x2 S256x2 where
  lhsContracting := [1]
  rhsContracting := [0]
  lhsNonContracting := [0]
  rhsNonContracting := [1]
  lhsBatch := []
  rhsBatch := []
  wf := dot_S256x12288_S12288x2_S256x2_1_0_0_1_n_n_wf
def dot_S256x34_S34x12288_S256x12288_1_0_0_1_n_n : DotDims S256x34 S34x12288 S256x12288 where
  lhsContracting := [1]
  rhsContracting := [0]
  lhsNonContracting := [0]
  rhsNonContracting := [1]
  lhsBatch := []
  rhsBatch := []
  wf := dot_S256x34_S34x12288_S256x12288_1_0_0_1_n_n_wf
def dot_S256x12288_S12288x1_S256x1_1_0_0_1_n_n : DotDims S256x12288 S12288x1 S256x1 where
  lhsContracting := [1]
  rhsContracting := [0]
  lhsNonContracting := [0]
  rhsNonContracting := [1]
  lhsBatch := []
  rhsBatch := []
  wf := dot_S256x12288_S12288x1_S256x1_1_0_0_1_n_n_wf

abbrev win0_0 : Pipeline.Window sig grid0 :=
  Pipeline.Window.ofSpec (Memref.whole main_arg2) S768x6144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S6144x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S768x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg2) S768x6144.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S6144x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S768x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg3) S384x12288.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S12288x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S384x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg3) S384x12288.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S12288x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37) S384x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg4) S256x12288.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S12288x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v3) S256x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v61) S34x12288.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg18) S12288.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v62) S12288x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg20) S1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v63) S256x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S6144x32 : Shape := ⟨2, ![6144, 32]⟩
abbrev S12288x16 : Shape := ⟨2, ![12288, 16]⟩
abbrev S6144x6144 : Shape := ⟨2, ![6144, 6144]⟩
abbrev S12288x12288 : Shape := ⟨2, ![12288, 12288]⟩
abbrev S6144x12288 : Shape := ⟨2, ![6144, 12288]⟩
abbrev S32x32 : Shape := ⟨2, ![32, 32]⟩
abbrev S32 : Shape := ⟨1, ![32]⟩
abbrev S16x16 : Shape := ⟨2, ![16, 16]⟩
abbrev S16 : Shape := ⟨1, ![16]⟩
abbrev S16x1 : Shape := ⟨2, ![16, 1]⟩
abbrev S12288x34 : Shape := ⟨2, ![12288, 34]⟩
abbrev S12288 : Shape := ⟨1, ![12288]⟩
abbrev S1x12288 : Shape := ⟨2, ![1, 12288]⟩
abbrev S1 : Shape := ⟨1, ![1]⟩
abbrev S1x32 : Shape := ⟨2, ![1, 32]⟩
abbrev S_ : Shape := ⟨0, ![]⟩
abbrev S1x16 : Shape := ⟨2, ![1, 16]⟩
abbrev S12288x1 : Shape := ⟨2, ![12288, 1]⟩
abbrev S12288x2 : Shape := ⟨2, ![12288, 2]⟩
abbrev S6144x2 : Shape := ⟨2, ![6144, 2]⟩
abbrev S6144x34 : Shape := ⟨2, ![6144, 34]⟩
abbrev S34x12288 : Shape := ⟨2, ![34, 12288]⟩
abbrev S6144x1 : Shape := ⟨2, ![6144, 1]⟩
abbrev S1x1 : Shape := ⟨2, ![1, 1]⟩
abbrev S6144 : Shape := ⟨1, ![6144]⟩

abbrev nBuf : Space → Nat
  | .hbm => 176
  | .vmem => 0
  | .smem => 0
  | _ => 0

abbrev hbmTy0_0 (i : Nat) : BufTy := match i % 128 with
  | 0 => ⟨S6144x32, .f32⟩
  | 1 => ⟨S12288x16, .f32⟩
  | 2 => ⟨S6144x6144, .f32⟩
  | 3 => ⟨S12288x12288, .f32⟩
  | 4 => ⟨S6144x12288, .f32⟩
  | 5 => ⟨S32x32, .f32⟩
  | 6 => ⟨S32, .f32⟩
  | 7 => ⟨S32x32, .f32⟩
  | 8 => ⟨S32, .f32⟩
  | 9 => ⟨S16x16, .f32⟩
  | 10 => ⟨S16, .f32⟩
  | 11 => ⟨S16, .f32⟩
  | 12 => ⟨S16, .f32⟩
  | 13 => ⟨S16x1, .f32⟩
  | 14 => ⟨S16, .f32⟩
  | 15 => ⟨S16, .f32⟩
  | 16 => ⟨S16, .f32⟩
  | 17 => ⟨S12288x34, .f32⟩
  | 18 => ⟨S12288, .f32⟩
  | 19 => ⟨S1x12288, .f32⟩
  | 20 => ⟨S1, .f32⟩
  | 21 => ⟨S6144x32, .f32⟩
  | 22 => ⟨S32x32, .f32⟩
  | 23 => ⟨S6144x32, .f32⟩
  | 24 => ⟨S1x32, .f32⟩
  | 25 => ⟨S6144x32, .f32⟩
  | 26 => ⟨S6144x32, .f32⟩
  | 27 => ⟨S_, .f32⟩
  | 28 => ⟨S6144x32, .f32⟩
  | 29 => ⟨S6144x32, .f32⟩
  | 30 => ⟨S6144x32, .f32⟩
  | 31 => ⟨S32x32, .f32⟩
  | 32 => ⟨S6144x32, .f32⟩
  | 33 => ⟨S1x32, .f32⟩
  | 34 => ⟨S6144x32, .f32⟩
  | 35 => ⟨S6144x32, .f32⟩
  | 36 => ⟨S_, .f32⟩
  | 37 => ⟨S6144x32, .f32⟩
  | 38 => ⟨S6144x32, .f32⟩
  | 39 => ⟨S16x16, .f32⟩
  | 40 => ⟨S12288x16, .f32⟩
  | 41 => ⟨S1x16, .f32⟩
  | 42 => ⟨S12288x16, .f32⟩
  | 43 => ⟨S12288x16, .f32⟩
  | 44 => ⟨S12288x16, .f32⟩
  | 45 => ⟨S_, .f32⟩
  | 46 => ⟨S16, .f32⟩
  | 47 => ⟨S_, .f32⟩
  | 48 => ⟨S16, .f32⟩
  | 49 => ⟨S16, .f32⟩
  | 50 => ⟨S_, .i32⟩
  | 51 => ⟨S_, .f32⟩
  | 52 => ⟨S16, .f32⟩
  | 53 => ⟨S1x16, .f32⟩
  | 54 => ⟨S_, .f32⟩
  | 55 => ⟨S1x16, .f32⟩
  | 56 => ⟨S1x16, .f32⟩
  | 57 => ⟨S12288x16, .f32⟩
  | 58 => ⟨S12288x16, .f32⟩
  | 59 => ⟨S12288x16, .f32⟩
  | 60 => ⟨S_, .f32⟩
  | 61 => ⟨S_, .f32⟩
  | 62 => ⟨S_, .f32⟩
  | 63 => ⟨S_, .f32⟩
  | 64 => ⟨S16, .f32⟩
  | 65 => ⟨S16, .f32⟩
  | 66 => ⟨S16, .f32⟩
  | 67 => ⟨S_, .f32⟩
  | 68 => ⟨S_, .i1⟩
  | 69 => ⟨S_, .f32⟩
  | 70 => ⟨S_, .f32⟩
  | 71 => ⟨S16, .f32⟩
  | 72 => ⟨S16, .f32⟩
  | 73 => ⟨S1x16, .f32⟩
  | 74 => ⟨S12288x16, .f32⟩
  | 75 => ⟨S12288x16, .f32⟩
  | 76 => ⟨S1x16, .f32⟩
  | 77 => ⟨S12288x16, .f32⟩
  | 78 => ⟨S12288x16, .f32⟩
  | 79 => ⟨S_, .f32⟩
  | 80 => ⟨S16, .f32⟩
  | 81 => ⟨S16, .f32⟩
  | 82 => ⟨S16, .f32⟩
  | 83 => ⟨S1x16, .f32⟩
  | 84 => ⟨S12288x16, .f32⟩
  | 85 => ⟨S12288x16, .f32⟩
  | 86 => ⟨S1x16, .f32⟩
  | 87 => ⟨S12288x16, .f32⟩
  | 88 => ⟨S12288x16, .f32⟩
  | 89 => ⟨S_, .f32⟩
  | 90 => ⟨S12288x16, .f32⟩
  | 91 => ⟨S12288x16, .f32⟩
  | 92 => ⟨S_, .f32⟩
  | 93 => ⟨S12288, .f32⟩
  | 94 => ⟨S12288x1, .f32⟩
  | 95 => ⟨S1x16, .f32⟩
  | 96 => ⟨S12288x16, .f32⟩
  | 97 => ⟨S1x16, .f32⟩
  | 98 => ⟨S12288x16, .f32⟩
  | 99 => ⟨S12288x16, .f32⟩
  | 100 => ⟨S12288x16, .f32⟩
  | 101 => ⟨S_, .f32⟩
  | 102 => ⟨S16, .f32⟩
  | 103 => ⟨S_, .f32⟩
  | 104 => ⟨S16, .f32⟩
  | 105 => ⟨S16, .f32⟩
  | 106 => ⟨S_, .i32⟩
  | 107 => ⟨S_, .f32⟩
  | 108 => ⟨S16, .f32⟩
  | 109 => ⟨S1x16, .f32⟩
  | 110 => ⟨S_, .f32⟩
  | 111 => ⟨S1x16, .f32⟩
  | 112 => ⟨S1x16, .f32⟩
  | 113 => ⟨S12288x16, .f32⟩
  | 114 => ⟨S12288x16, .f32⟩
  | 115 => ⟨S12288x16, .f32⟩
  | 116 => ⟨S_, .f32⟩
  | 117 => ⟨S_, .f32⟩
  | 118 => ⟨S_, .f32⟩
  | 119 => ⟨S_, .f32⟩
  | 120 => ⟨S16, .f32⟩
  | 121 => ⟨S16, .f32⟩
  | 122 => ⟨S16, .f32⟩
  | 123 => ⟨S_, .f32⟩
  | 124 => ⟨S_, .i1⟩
  | 125 => ⟨S_, .f32⟩
  | 126 => ⟨S_, .f32⟩
  | 127 => ⟨S16, .f32⟩
  | _ => ⟨S6144x32, .f32⟩

abbrev hbmTy0_1 (i : Nat) : BufTy := match i % 128 with
  | 0 => ⟨S16, .f32⟩
  | 1 => ⟨S1x16, .f32⟩
  | 2 => ⟨S12288x16, .f32⟩
  | 3 => ⟨S12288x16, .f32⟩
  | 4 => ⟨S1x16, .f32⟩
  | 5 => ⟨S12288x16, .f32⟩
  | 6 => ⟨S12288x16, .f32⟩
  | 7 => ⟨S_, .f32⟩
  | 8 => ⟨S16, .f32⟩
  | 9 => ⟨S16, .f32⟩
  | 10 => ⟨S16, .f32⟩
  | 11 => ⟨S1x16, .f32⟩
  | 12 => ⟨S12288x16, .f32⟩
  | 13 => ⟨S12288x16, .f32⟩
  | 14 => ⟨S1x16, .f32⟩
  | 15 => ⟨S12288x16, .f32⟩
  | 16 => ⟨S12288x16, .f32⟩
  | 17 => ⟨S_, .f32⟩
  | 18 => ⟨S12288x16, .f32⟩
  | 19 => ⟨S12288x16, .f32⟩
  | 20 => ⟨S_, .f32⟩
  | 21 => ⟨S12288, .f32⟩
  | 22 => ⟨S12288x1, .f32⟩
  | 23 => ⟨S12288x2, .f32⟩
  | 24 => ⟨S6144x2, .f32⟩
  | 25 => ⟨S6144x34, .f32⟩
  | 26 => ⟨S34x12288, .f32⟩
  | 27 => ⟨S6144x12288, .f32⟩
  | 28 => ⟨S1x12288, .f32⟩
  | 29 => ⟨S6144x12288, .f32⟩
  | 30 => ⟨S6144x12288, .f32⟩
  | 31 => ⟨S_, .f32⟩
  | 32 => ⟨S6144x12288, .f32⟩
  | 33 => ⟨S6144x12288, .f32⟩
  | 34 => ⟨S12288x1, .f32⟩
  | 35 => ⟨S6144x1, .f32⟩
  | 36 => ⟨S1x1, .f32⟩
  | 37 => ⟨S6144x1, .f32⟩
  | 38 => ⟨S6144x1, .f32⟩
  | 39 => ⟨S6144x1, .f32⟩
  | 40 => ⟨S6144x1, .f32⟩
  | 41 => ⟨S_, .f32⟩
  | 42 => ⟨S6144x1, .f32⟩
  | 43 => ⟨S6144x1, .f32⟩
  | 44 => ⟨S_, .f32⟩
  | 45 => ⟨S6144x1, .f32⟩
  | 46 => ⟨S6144x1, .f32⟩
  | 47 => ⟨S6144, .f32⟩
  | _ => ⟨S6144x32, .f32⟩

abbrev hbmTy (i : Nat) : BufTy := match i / 128 with
  | 0 => hbmTy0_0 i
  | 1 => hbmTy0_1 i
  | _ => ⟨S6144x32, .f32⟩

abbrev bufTy : (tb : Table) → Fin (tcTables nBuf tb) → BufTy
  | .hbm, ⟨i, _⟩ => hbmTy i
  | _, _ => ⟨S6144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_call0_cst : Ref sig .tc := ⟨.hbm, 27, rfl⟩
abbrev main_call0_v0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_call1_cst : Ref sig .tc := ⟨.hbm, 36, rfl⟩
abbrev main_call1_v0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_cst_0 : Ref sig .tc := ⟨.hbm, 47, rfl⟩
abbrev main_v21 : Ref sig .tc := ⟨.hbm, 48, rfl⟩
abbrev main_v22 : Ref sig .tc := ⟨.hbm, 49, rfl⟩
abbrev main_c : Ref sig .tc := ⟨.hbm, 50, rfl⟩
abbrev main_call2_cst : Ref sig .tc := ⟨.hbm, 51, rfl⟩
abbrev main_call2_v0 : Ref sig .tc := ⟨.hbm, 52, rfl⟩
abbrev main_call2_v1 : Ref sig .tc := ⟨.hbm, 53, rfl⟩
abbrev main_call2_cst_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_cst_1 : Ref sig .tc := ⟨.hbm, 61, rfl⟩
abbrev main_call2_v8 : Ref sig .tc := ⟨.hbm, 62, rfl⟩
abbrev main_call2_cst_2 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_cst_3 : Ref sig .tc := ⟨.hbm, 67, rfl⟩
abbrev main_call2_v12 : Ref sig .tc := ⟨.hbm, 68, rfl⟩
abbrev main_call2_cst_4 : Ref sig .tc := ⟨.hbm, 69, rfl⟩
abbrev main_call2_call0_v0 : Ref sig .tc := ⟨.hbm, 70, rfl⟩
abbrev main_call2_call0_v1 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_cst_1 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_call3_cst : Ref sig .tc := ⟨.hbm, 89, rfl⟩
abbrev main_call3_v0 : Ref sig .tc := ⟨.hbm, 90, rfl⟩
abbrev main_v39 : Ref sig .tc := ⟨.hbm, 91, rfl⟩
abbrev main_cst_2 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_cst_3 : Ref sig .tc := ⟨.hbm, 101, rfl⟩
abbrev main_v48 : Ref sig .tc := ⟨.hbm, 102, rfl⟩
abbrev main_cst_4 : Ref sig .tc := ⟨.hbm, 103, rfl⟩
abbrev main_v49 : Ref sig .tc := ⟨.hbm, 104, rfl⟩
abbrev main_v50 : Ref sig .tc := ⟨.hbm, 105, rfl⟩
abbrev main_c_5 : Ref sig .tc := ⟨.hbm, 106, rfl⟩
abbrev main_call4_cst : Ref sig .tc := ⟨.hbm, 107, rfl⟩
abbrev main_call4_v0 : Ref sig .tc := ⟨.hbm, 108, rfl⟩
abbrev main_call4_v1 : Ref sig .tc := ⟨.hbm, 109, rfl⟩
abbrev main_call4_cst_0 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_v6 : Ref sig .tc := ⟨.hbm, 115, rfl⟩
abbrev main_call4_v7 : Ref sig .tc := ⟨.hbm, 116, rfl⟩
abbrev main_call4_cst_1 : Ref sig .tc := ⟨.hbm, 117, rfl⟩
abbrev main_call4_v8 : Ref sig .tc := ⟨.hbm, 118, rfl⟩
abbrev main_call4_cst_2 : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_cst_3 : Ref sig .tc := ⟨.hbm, 123, rfl⟩
abbrev main_call4_v12 : Ref sig .tc := ⟨.hbm, 124, rfl⟩
abbrev main_call4_cst_4 : Ref sig .tc := ⟨.hbm, 125, rfl⟩
abbrev main_call4_call0_v0 : Ref sig .tc := ⟨.hbm, 126, rfl⟩
abbrev main_call4_call0_v1 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_cst_6 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_call5_cst : Ref sig .tc := ⟨.hbm, 145, rfl⟩
abbrev main_call5_v0 : Ref sig .tc := ⟨.hbm, 146, rfl⟩
abbrev main_v67 : Ref sig .tc := ⟨.hbm, 147, rfl⟩
abbrev main_cst_7 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_call6_cst : Ref sig .tc := ⟨.hbm, 159, rfl⟩
abbrev main_call6_v0 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_cst_8 : Ref sig .tc := ⟨.hbm, 169, rfl⟩
abbrev main_v86 : Ref sig .tc := ⟨.hbm, 170, rfl⟩
abbrev main_v87 : Ref sig .tc := ⟨.hbm, 171, rfl⟩
abbrev main_cst_9 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩

abbrev nD : Nat := 1
abbrev τ : Topo := Topo.v7x

variable {F : FTy → Type} [FloatOps F]

class Facts₀ : Prop where
  transposes_S32x32_S32x32_1_0 : S32x32.Transposes [1, 0] S32x32
  bcast_S32_S1x32_1 : S32.BroadcastsInDim S1x32 (![1] : Fin 1 → Fin S1x32.rank)
  bcast_S1x32_S6144x32_0_1 : S1x32.BroadcastsInDim S6144x32 (![0, 1] : Fin 2 → Fin S6144x32.rank)
  bcast_S_S6144x32 : S_.BroadcastsInDim S6144x32 (![] : Fin 0 → Fin S6144x32.rank)
  transposes_S16x16_S16x16_1_0 : S16x16.Transposes [1, 0] S16x16
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  reducesTo_S12288x16_S16_d0 : S12288x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S_S12288x16 : S_.BroadcastsInDim S12288x16 (![] : Fin 0 → Fin S12288x16.rank)
  reducesTo_S12288x16_S12288_d1 : S12288x16.ReducesTo [1] S12288
  bcast_S12288_S12288x1_0 : S12288.BroadcastsInDim S12288x1 (![0] : Fin 1 → Fin S12288x1.rank)
  transposes_S16x1_S1x16_1_0 : S16x1.Transposes [1, 0] S1x16
  concatenates_S12288x1_S12288x1_S12288x2_d1 : Shape.Concatenates [S12288x1, S12288x1] S12288x2 1
  concatenates_S6144x32_S6144x2_S6144x34_d1 : Shape.Concatenates [S6144x32, S6144x2] S6144x34 1
  transposes_S12288x34_S34x12288_1_0 : S12288x34.Transposes [1, 0] S34x12288
  bcast_S12288_S1x12288_1 : S12288.BroadcastsInDim S1x12288 (![1] : Fin 1 → Fin S1x12288.rank)
  bcast_S1x12288_S6144x12288_0_1 : S1x12288.BroadcastsInDim S6144x12288 (![0, 1] : Fin 2 → Fin S6144x12288.rank)
  bcast_S_S6144x12288 : S_.BroadcastsInDim S6144x12288 (![] : Fin 0 → Fin S6144x12288.rank)
  transposes_S1x12288_S12288x1_1_0 : S1x12288.Transposes [1, 0] S12288x1
  bcast_S1_S1x1_1 : S1.BroadcastsInDim S1x1 (![1] : Fin 1 → Fin S1x1.rank)
  bcast_S1x1_S6144x1_0_1 : S1x1.BroadcastsInDim S6144x1 (![0, 1] : Fin 2 → Fin S6144x1.rank)
  bcast_S_S6144x1 : S_.BroadcastsInDim S6144x1 (![] : Fin 0 → Fin S6144x1.rank)
  shapeCasts_S6144x1_S6144 : S6144x1.ShapeCasts S6144
  dot_S6144x6144_S6144x32_S6144x32_1_0_0_1_n_n_wf : DotDims.WF S6144x6144 S6144x32 S6144x32 [1] [0] [0] [1] [] []
  dot_S6144x32_S32x32_S6144x32_1_0_0_1_n_n_wf : DotDims.WF S6144x32 S32x32 S6144x32 [1] [0] [0] [1] [] []
  dot_S12288x16_S16x16_S12288x16_1_0_0_1_n_n_wf : DotDims.WF S12288x16 S16x16 S12288x16 [1] [0] [0] [1] [] []
  dot_S12288x12288_S12288x16_S12288x16_1_0_0_1_n_n_wf : DotDims.WF S12288x12288 S12288x16 S12288x16 [1] [0] [0] [1] [] []
  dot_S12288x1_S1x16_S12288x16_1_0_0_1_n_n_wf : DotDims.WF S12288x1 S1x16 S12288x16 [1] [0] [0] [1] [] []
  dot_S6144x12288_S12288x2_S6144x2_1_0_0_1_n_n_wf : DotDims.WF S6144x12288 S12288x2 S6144x2 [1] [0] [0] [1] [] []
  dot_S6144x34_S34x12288_S6144x12288_1_0_0_1_n_n_wf : DotDims.WF S6144x34 S34x12288 S6144x12288 [1] [0] [0] [1] [] []
  dot_S6144x12288_S12288x1_S6144x1_1_0_0_1_n_n_wf : DotDims.WF S6144x12288 S12288x1 S6144x1 [1] [0] [0] [1] [] []

variable [Facts₀]

def dot_S6144x6144_S6144x32_S6144x32_1_0_0_1_n_n : DotDims S6144x6144 S6144x32 S6144x32 where
  lhsContracting := [1]
  rhsContracting := [0]
  lhsNonContracting := [0]
  rhsNonContracting := [1]
  lhsBatch := []
  rhsBatch := []
  wf := dot_S6144x6144_S6144x32_S6144x32_1_0_0_1_n_n_wf
def dot_S6144x32_S32x32_S6144x32_1_0_0_1_n_n : DotDims S6144x32 S32x32 S6144x32 where
  lhsContracting := [1]
  rhsContracting := [0]
  lhsNonContracting := [0]
  rhsNonContracting := [1]
  lhsBatch := []
  rhsBatch := []
  wf := dot_S6144x32_S32x32_S6144x32_1_0_0_1_n_n_wf
def dot_S12288x16_S16x16_S12288x16_1_0_0_1_n_n : DotDims S12288x16 S16x16 S12288x16 where
  lhsContracting := [1]
  rhsContracting := [0]
  lhsNonContracting := [0]
  rhsNonContracting := [1]
  lhsBatch := []
  rhsBatch := []
  wf := dot_S12288x16_S16x16_S12288x16_1_0_0_1_n_n_wf
def dot_S12288x12288_S12288x16_S12288x16_1_0_0_1_n_n : DotDims S12288x12288 S12288x16 S12288x16 where
  lhsContracting := [1]
  rhsContracting := [0]
  lhsNonContracting := [0]
  rhsNonContracting := [1]
  lhsBatch := []
  rhsBatch := []
  wf := dot_S12288x12288_S12288x16_S12288x16_1_0_0_1_n_n_wf
def dot_S12288x1_S1x16_S12288x16_1_0_0_1_n_n : DotDims S12288x1 S1x16 S12288x16 where
  lhsContracting := [1]
  rhsContracting := [0]
  lhsNonContracting := [0]
  rhsNonContracting := [1]
  lhsBatch := []
  rhsBatch := []
  wf := dot_S12288x1_S1x16_S12288x16_1_0_0_1_n_n_wf
def dot_S6144x12288_S12288x2_S6144x2_1_0_0_1_n_n : DotDims S6144x12288 S12288x2 S6144x2 where
  lhsContracting := [1]
  rhsContracting := [0]
  lhsNonContracting := [0]
  rhsNonContracting := [1]
  lhsBatch := []
  rhsBatch := []
  wf := dot_S6144x12288_S12288x2_S6144x2_1_0_0_1_n_n_wf
def dot_S6144x34_S34x12288_S6144x12288_1_0_0_1_n_n : DotDims S6144x34 S34x12288 S6144x12288 where
  lhsContracting := [1]
  rhsContracting := [0]
  lhsNonContracting := [0]
  rhsNonContracting := [1]
  lhsBatch := []
  rhsBatch := []
  wf := dot_S6144x34_S34x12288_S6144x12288_1_0_0_1_n_n_wf
def dot_S6144x12288_S12288x1_S6144x1_1_0_0_1_n_n : DotDims S6144x12288 S12288x1 S6144x1 where
  lhsContracting := [1]
  rhsContracting := [0]
  lhsNonContracting := [0]
  rhsNonContracting := [1]
  lhsBatch := []
  rhsBatch := []
  wf := dot_S6144x12288_S12288x1_S6144x1_1_0_0_1_n_n_wf

class Facts : Prop extends Facts₀ where

variable [Facts]
-- ==== Proof.Spec.lean ====
/-
  The network both programs compute, written once as pure functions of arrays.

  Two graph-convolution layers over the nodes, each relu((A·H)·Wᵀ + b); two edge layers, each a linear map
  followed by a product with the edge Laplacian, a batch normalisation over all edges (mean and biased variance
  down the columns, scale, shift), relu, and the maximum over the sixteen channels; the two edge columns side by
  side multiplied by the incidence matrix; and a two-layer head ending in 1 / (1 + exp(-x)).
  Every function below is the composition of host operations in which the reference spells that step.
-/
import proofs.«180717_j87385404604873_2_alg».proof.ReferenceIdeal
import Idealize.ShloMosaic.PureOps.Ideal

noncomputable section

namespace Cert.Spec

open Idealize.ShloMosaic Cert.ReferenceIdeal Cert.ReferenceIdeal.Facts₀ Cert.ReferenceIdeal.Facts

variable {F : FTy → Type} [FloatOps F] [Cert.ReferenceIdeal.Facts]

/-- The transposed weight of a node layer. -/
def wT32 (W : FVec F S32x32 .f32) : FVec F S32x32 .f32 := transpose S32x32 [1, 0] W transposes_S32x32_S32x32_1_0

/-- One node layer from the already transposed weight: relu((A·H)·Wt + b), the bias spread over the rows. -/
def gnnCore (A : FVec F S6144x6144 .f32) (H : FVec F S6144x32 .f32) (Wt : FVec F S32x32 .f32) (b : FVec F S32 .f32) :
    FVec F S6144x32 .f32 :=
  maximumf
    (addf
      (Host.dotGeneral dot_S6144x32_S32x32_S6144x32_1_0_0_1_n_n none
        (Host.dotGeneral dot_S6144x6144_S6144x32_S6144x32_1_0_0_1_n_n none A H) Wt)
      (broadcastInDim S6144x32 ![0, 1] bcast_S1x32_S6144x32_0_1 (broadcastInDim S1x32 ![1] bcast_S32_S1x32_1 b)))
    (broadcastInDim S6144x32 ![] bcast_S_S6144x32 (constant S_ .f32 0x00000000#32))

/-- The first edge layer's linear map X·Wᵀ + b. -/
def theta0 (X : FVec F S12288x16 .f32) (W : FVec F S16x16 .f32) (b : FVec F S16 .f32) : FVec F S12288x16 .f32 :=
  addf
    (Host.dotGeneral dot_S12288x16_S16x16_S12288x16_1_0_0_1_n_n none X
      (transpose S16x16 [1, 0] W transposes_S16x16_S16x16_1_0))
    (broadcastInDim S12288x16 ![0, 1] bcast_S1x16_S12288x16_0_1 (broadcastInDim S1x16 ![1] bcast_S16_S1x16_1 b))

/-- The second edge layer's linear map, from the single column the first layer left. -/
def theta1 (Z : FVec F S12288x1 .f32) (W : FVec F S16x1 .f32) (b : FVec F S16 .f32) : FVec F S12288x16 .f32 :=
  addf
    (Host.dotGeneral dot_S12288x1_S1x16_S12288x16_1_0_0_1_n_n none Z
      (transpose S1x16 [1, 0] W transposes_S16x1_S1x16_1_0))
    (broadcastInDim S12288x16 ![0, 1] bcast_S1x16_S12288x16_0_1 (broadcastInDim S1x16 ![1] bcast_S16_S1x16_1 b))

/-- The product with the edge Laplacian. -/
def lconv (L : FVec F S12288x12288 .f32) (Zt : FVec F S12288x16 .f32) : FVec F S12288x16 .f32 :=
  Host.dotGeneral dot_S12288x12288_S12288x16_S12288x16_1_0_0_1_n_n none L Zt

/-- The columns' mean, as the variance computes it: kept as a row [1,16]. -/
def meanRow (Zc : FVec F S12288x16 .f32) : FVec F S1x16 .f32 :=
  Host.divf
    (broadcastInDim S1x16 ![1] bcast_S16_S1x16_1
      (Host.reduceAdd Zc (constant S_ .f32 0x00000000#32) reducesTo_S12288x16_S16_d0 h_S_))
    (broadcastInDim S1x16 ![] bcast_S_S1x16 (constant S_ .f32 0x46400000#32))

/-- The entries' deviation from their column's mean. -/
def centred (Zc : FVec F S12288x16 .f32) : FVec F S12288x16 .f32 :=
  subf Zc (broadcastInDim S12288x16 ![0, 1] bcast_S1x16_S12288x16_0_1 (meanRow Zc))

/-- The number of rows less the degrees of freedom taken off (none). -/
def dof : FVec F S_ .f32 := subf (constant S_ .f32 0x46400000#32) (sitofp .f32 (constantI S_ 32 0#32))

/-- The columns' biased variance, guarded as jnp.var guards it (a NaN when there are no degrees of freedom left). -/
def var16 (Zc : FVec F S12288x16 .f32) : FVec F S16 .f32 :=
  select (broadcastInDim S16 ![] bcast_S_S16 (cmpf .ogt (dof (F := F)) (constant S_ .f32 0x00000000#32)))
    (Host.divf
      (Host.reduceAdd (mulf (centred Zc) (centred Zc)) (constant S_ .f32 0x00000000#32) reducesTo_S12288x16_S16_d0 h_S_)
      (broadcastInDim S16 ![] bcast_S_S16 (dof (F := F))))
    (broadcastInDim S16 ![] bcast_S_S16 (id (constant S_ .f32 0x7FC00000#32)))

/-- The columns' mean, as the normalisation computes it. -/
def mean16 (Zc : FVec F S12288x16 .f32) : FVec F S16 .f32 :=
  Host.divf (Host.reduceAdd Zc (constant S_ .f32 0x00000000#32) reducesTo_S12288x16_S16_d0 h_S_)
    (broadcastInDim S16 ![] bcast_S_S16 (constant S_ .f32 0x46400000#32))

/-- A vector of sixteen spread over all rows. -/
def rows16 (v : FVec F S16 .f32) : FVec F S12288x16 .f32 :=
  broadcastInDim S12288x16 ![0, 1] bcast_S1x16_S12288x16_0_1 (broadcastInDim S1x16 ![1] bcast_S16_S1x16_1 v)

/-- Batch normalisation, relu and the maximum over the channels: g·(Zc − mean)·rsqrt(var + ε) + β, clipped at
    zero, then each row's largest entry, as a column. -/
def bnTail (Zc : FVec F S12288x16 .f32) (g beta : FVec F S16 .f32) : FVec F S12288x1 .f32 :=
  broadcastInDim S12288x1 ![0] bcast_S12288_S12288x1_0
    (Host.reduce FloatOps.maximumf
      (maximumf
        (addf
          (mulf (mulf (rows16 g) (subf Zc (rows16 (mean16 Zc))))
            (rows16 (Host.rsqrt (addf (var16 Zc) (broadcastInDim S16 ![] bcast_S_S16 (constant S_ .f32 0x3727C5AC#32))))))
          (rows16 beta))
        (broadcastInDim S12288x16 ![] bcast_S_S12288x16 (constant S_ .f32 0x00000000#32)))
      (constant S_ .f32 0xFF800000#32) reducesTo_S12288x16_S12288_d1 h_S_)

/-- The two edge columns side by side. -/
def zcat (Z0 Z1 : FVec F S12288x1 .f32) : FVec F S12288x2 .f32 :=
  concatenate S12288x2 1 [⟨S12288x1, Z0⟩, ⟨S12288x1, Z1⟩] concatenates_S12288x1_S12288x1_S12288x2_d1

/-- The head's first weight transposed. -/
def w1T (W : FVec F S12288x34 .f32) : FVec F S34x12288 .f32 := transpose S34x12288 [1, 0] W transposes_S12288x34_S34x12288_1_0

/-- The head's second weight transposed. -/
def w2T (W : FVec F S1x12288 .f32) : FVec F S12288x1 .f32 := transpose S12288x1 [1, 0] W transposes_S1x12288_S12288x1_1_0

/-- The head before the last step: relu([Hn | B1·Zcat]·W1t + b1)·W2t + b2. -/
def headPre (B1 : FVec F S6144x12288 .f32) (Zcat : FVec F S12288x2 .f32) (Hn : FVec F S6144x32 .f32)
    (W1t : FVec F S34x12288 .f32) (b1 : FVec F S12288 .f32) (W2t : FVec F S12288x1 .f32) (b2 : FVec F S1 .f32) :
    FVec F S6144x1 .f32 :=
  addf
    (Host.dotGeneral dot_S6144x12288_S12288x1_S6144x1_1_0_0_1_n_n none
      (maximumf
        (addf
          (Host.dotGeneral dot_S6144x34_S34x12288_S6144x12288_1_0_0_1_n_n none
            (concatenate S6144x34 1
              [⟨S6144x32, Hn⟩, ⟨S6144x2, Host.dotGeneral dot_S6144x12288_S12288x2_S6144x2_1_0_0_1_n_n none B1 Zcat⟩]
              concatenates_S6144x32_S6144x2_S6144x34_d1)
            W1t)
          (broadcastInDim S6144x12288 ![0, 1] bcast_S1x12288_S6144x12288_0_1
            (broadcastInDim S1x12288 ![1] bcast_S12288_S1x12288_1 b1)))
        (broadcastInDim S6144x12288 ![] bcast_S_S6144x12288 (constant S_ .f32 0x00000000#32)))
      W2t)
    (broadcastInDim S6144x1 ![0, 1] bcast_S1x1_S6144x1_0_1 (broadcastInDim S1x1 ![1] bcast_S1_S1x1_1 b2))

/-- 1 / (1 + exp(-x)), entry by entry, in the host's operations. -/
def sigmoidHost (o : FVec F S6144x1 .f32) : FVec F S6144x1 .f32 :=
  Host.divf (broadcastInDim S6144x1 ![] bcast_S_S6144x1 (constant S_ .f32 0x3F800000#32))
    (addf (broadcastInDim S6144x1 ![] bcast_S_S6144x1 (constant S_ .f32 0x3F800000#32)) (Host.exp (Host.negf o)))

/-- The whole head. -/
def headCore (B1 : FVec F S6144x12288 .f32) (Zcat : FVec F S12288x2 .f32) (Hn : FVec F S6144x32 .f32)
    (W1t : FVec F S34x12288 .f32) (b1 : FVec F S12288 .f32) (W2t : FVec F S12288x1 .f32) (b2 : FVec F S1 .f32) :
    FVec F S6144x1 .f32 :=
  sigmoidHost (headPre B1 Zcat Hn W1t b1 W2t b2)

/-- The column [6144,1] read as a vector of 6144. -/
def flat (o : FVec F S6144x1 .f32) : FVec F S6144 .f32 := shapeCast S6144 o shapeCasts_S6144x1_S6144

/-- The second node layer's output, of the arguments. -/
def nodes (Xn : FVec F S6144x32 .f32) (A : FVec F S6144x6144 .f32) (W0 : FVec F S32x32 .f32) (b0 : FVec F S32 .f32)
    (W1 : FVec F S32x32 .f32) (b1 : FVec F S32 .f32) : FVec F S6144x32 .f32 :=
  gnnCore A (gnnCore A Xn (wT32 W0) b0) (wT32 W1) b1

/-- The first edge layer's column, of the arguments. -/
def edge0 (Xe : FVec F S12288x16 .f32) (L : FVec F S12288x12288 .f32) (W : FVec F S16x16 .f32) (b g beta : FVec F S16 .f32) :
    FVec F S12288x1 .f32 :=
  bnTail (lconv L (theta0 Xe W b)) g beta

/-- The second edge layer's column, of the first's. -/
def edge1 (Z0 : FVec F S12288x1 .f32) (L : FVec F S12288x12288 .f32) (W : FVec F S16x1 .f32) (b g beta : FVec F S16 .f32) :
    FVec F S12288x1 .f32 :=
  bnTail (lconv L (theta1 Z0 W b)) g beta

/-- The network's output as a function of its twenty-one arguments, in the programs' argument order. -/
def model (a0 : FVec F S6144x32 .f32) (a1 : FVec F S12288x16 .f32) (a2 : FVec F S6144x6144 .f32)
    (a3 : FVec F S12288x12288 .f32) (a4 : FVec F S6144x12288 .f32) (a5 : FVec F S32x32 .f32) (a6 : FVec F S32 .f32)
    (a7 : FVec F S32x32 .f32) (a8 : FVec F S32 .f32) (a9 : FVec F S16x16 .f32) (a10 a11 a12 : FVec F S16 .f32)
    (a13 : FVec F S16x1 .f32) (a14 a15 a16 : FVec F S16 .f32) (a17 : FVec F S12288x34 .f32) (a18 : FVec F S12288 .f32)
    (a19 : FVec F S1x12288 .f32) (a20 : FVec F S1 .f32) : FVec F S6144 .f32 :=
  flat (headCore a4
    (zcat (edge0 a1 a3 a9 a10 a11 a12) (edge1 (edge0 a1 a3 a9 a10 a11 a12) a3 a13 a14 a15 a16))
    (nodes a0 a2 a5 a6 a7 a8) (w1T a17) a18 (w2T a19) a20)

end Cert.Spec

end
-- ==== Proof.KRun.lean ====
/-
  The idealized kernel program's run with its result named.

  The program is five kernel regions among stretches of host operations. The buffer contents at the boundaries
  form a fold from the launch memory: a stretch applies its operations, a region replaces its output array by
  what its grid points wrote back and leaves every other buffer alone. Every weakly fair execution terminates
  with each unscoped buffer at the end of that fold; here the result buffer is kept in the conclusion next to
  the unchanged arguments.
-/
import proofs.«180717_j87385404604873_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c => h c)

/-- The run with the result buffer named: it ends at the last boundary's contents of the result buffer, and every
    argument array ends as launched. -/
theorem run_named : θ_run defs (onTc (τ := τ) (main (F := F))) ⟨m, fun _ => 0, ρ⟩ (fun r => ∀ c : Dev nD,
      r.2.mem ((c.tc : Thread nD τ).loc main_v64) = W19 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun s h c =>
    ⟨h c _ (mem_uc main_v64 (by decide)),
     (h c _ (mem_uc main_arg0 (by decide))).trans (W19_main_arg0 m ρ c),
     (h c _ (mem_uc main_arg1 (by decide))).trans (W19_main_arg1 m ρ c),
     (h c _ (mem_uc main_arg2 (by decide))).trans (W19_main_arg2 m ρ c),
     (h c _ (mem_uc main_arg3 (by decide))).trans (W19_main_arg3 m ρ c),
     (h c _ (mem_uc main_arg4 (by decide))).trans (W19_main_arg4 m ρ c),
     (h c _ (mem_uc main_arg5 (by decide))).trans (W19_main_arg5 m ρ c),
     (h c _ (mem_uc main_arg6 (by decide))).trans (W19_main_arg6 m ρ c),
     (h c _ (mem_uc main_arg7 (by decide))).trans (W19_main_arg7 m ρ c),
     (h c _ (mem_uc main_arg8 (by decide))).trans (W19_main_arg8 m ρ c),
     (h c _ (mem_uc main_arg9 (by decide))).trans (W19_main_arg9 m ρ c),
     (h c _ (mem_uc main_arg10 (by decide))).trans (W19_main_arg10 m ρ c),
     (h c _ (mem_uc main_arg11 (by decide))).trans (W19_main_arg11 m ρ c),
     (h c _ (mem_uc main_arg12 (by decide))).trans (W19_main_arg12 m ρ c),
     (h c _ (mem_uc main_arg13 (by decide))).trans (W19_main_arg13 m ρ c),
     (h c _ (mem_uc main_arg14 (by decide))).trans (W19_main_arg14 m ρ c),
     (h c _ (mem_uc main_arg15 (by decide))).trans (W19_main_arg15 m ρ c),
     (h c _ (mem_uc main_arg16 (by decide))).trans (W19_main_arg16 m ρ c),
     (h c _ (mem_uc main_arg17 (by decide))).trans (W19_main_arg17 m ρ c),
     (h c _ (mem_uc main_arg18 (by decide))).trans (W19_main_arg18 m ρ c),
     (h c _ (mem_uc main_arg19 (by decide))).trans (W19_main_arg19 m ρ c),
     (h c _ (mem_uc main_arg20 (by decide))).trans (W19_main_arg20 m ρ c)⟩)
    (run_all m ρ)

end Cert.KernelIdeal.KRun

end
-- ==== Proof.KKeep.lean ====
/-
  What the idealized kernel program leaves alone.

  The buffer contents at the program's boundaries form a fold from the launch memory. A host stretch changes only
  the buffers its operations write; a kernel region changes only its output array (an input array is read through
  its window and ends as it was). Walking the fold backwards from a boundary, a buffer that nothing on the way writes
  has the contents it had at the earlier boundary — for an argument array, its launch contents.
-/
import proofs.«180717_j87385404604873_2_alg».proof.Proof.Gen.KernelIdeal.Frame

set_option maxRecDepth 16384

noncomputable section

namespace Cert.KernelIdeal.KKeep

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg) (c : Dev nD)

/-- A host stretch leaves alone a buffer none of its operations writes. -/
macro "host_keeps" : tactic => `(tactic|
  exact StableHlo.after_of_forall_not_mem (b := Proc.devRef .tc _) _ _ (List.forall_iff_forall_mem.mp (by
    simp only [hostOps0, hostOps1, hostOps2, hostOps3, hostOps3_1, hostOps3_2, hostOps3_3, hostOps3_4,
      hostOps4, hostOps4_1, hostOps4_2, hostOps4_3, hostOps4_4, hostOps5,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- Back through a host stretch. -/
macro "hb" : tactic => `(tactic| refine Eq.trans (by host_keeps) ?_)
/-- Back past a region that does not hold the buffer. -/
macro "rb18" : tactic => `(tactic| refine Eq.trans (W18_of_ne _ _ _ _ (by decide)) ?_)
macro "rb12" : tactic => `(tactic| refine Eq.trans (W12_of_ne _ _ _ _ (by decide)) ?_)
macro "rb6" : tactic => `(tactic| refine Eq.trans (W6_of_ne _ _ _ _ (by decide)) ?_)
macro "rb4" : tactic => `(tactic| refine Eq.trans (W4_of_ne _ _ _ _ (by decide)) ?_)
macro "rb2" : tactic => `(tactic| refine Eq.trans (W2_of_ne _ _ _ _ (by decide)) ?_)
/-- Back through a region that reads the buffer through its first window. -/
macro "ib6" : tactic => `(tactic| refine Eq.trans ((W6_arr _ _ _ 0).trans (((dat2 (V5 _ _) _).arrAt_in 0 rfl _).trans (A_eq2 (V5 _ _) _ 0))) ?_)
macro "ib2" : tactic => `(tactic| refine Eq.trans ((W2_arr _ _ _ 0).trans (((dat0 (V1 _ _) _).arrAt_in 0 rfl _).trans (A_eq0 (V1 _ _) _ 0))) ?_)
/-- From the boundary before the second region (the third, the fourth, the fifth) back to the launch, for a buffer
    nothing on the way touches. -/
macro "from2" : tactic => `(tactic| (rb2; hb))
macro "from4" : tactic => `(tactic| (rb4; hb; from2))
macro "from6" : tactic => `(tactic| (rb6; hb; from4))
macro "from11" : tactic => `(tactic| (hb; hb; hb; hb; hb; from6))
macro "from12" : tactic => `(tactic| (rb12; from11))
macro "from17" : tactic => `(tactic| (hb; hb; hb; hb; hb; from12))

/-! ## Argument arrays at the boundaries where a region or a stretch reads them -/

theorem a0_W1 : W1 m ρ c (Proc.devRef .tc main_arg0) = W0 m ρ c (Proc.devRef .tc main_arg0) := by hb; rfl
theorem a2_W1 : W1 m ρ c (Proc.devRef .tc main_arg2) = W0 m ρ c (Proc.devRef .tc main_arg2) := by hb; rfl
theorem a6_W1 : W1 m ρ c (Proc.devRef .tc main_arg6) = W0 m ρ c (Proc.devRef .tc main_arg6) := by hb; rfl
theorem a7_W2 : W2 m ρ c (Proc.devRef .tc main_arg7) = W0 m ρ c (Proc.devRef .tc main_arg7) := by from2; rfl
/-- The adjacency matrix is read by the first node layer and ends as it was. -/
theorem a2_W3 : W3 m ρ c (Proc.devRef .tc main_arg2) = W0 m ρ c (Proc.devRef .tc main_arg2) := by hb; ib2; hb; rfl
theorem a8_W3 : W3 m ρ c (Proc.devRef .tc main_arg8) = W0 m ρ c (Proc.devRef .tc main_arg8) := by hb; from2; rfl
theorem a1_W4 : W4 m ρ c (Proc.devRef .tc main_arg1) = W0 m ρ c (Proc.devRef .tc main_arg1) := by from4; rfl
theorem a9_W4 : W4 m ρ c (Proc.devRef .tc main_arg9) = W0 m ρ c (Proc.devRef .tc main_arg9) := by from4; rfl
theorem a10_W4 : W4 m ρ c (Proc.devRef .tc main_arg10) = W0 m ρ c (Proc.devRef .tc main_arg10) := by from4; rfl
theorem a3_W5 : W5 m ρ c (Proc.devRef .tc main_arg3) = W0 m ρ c (Proc.devRef .tc main_arg3) := by hb; from4; rfl
theorem a11_W6 : W6 m ρ c (Proc.devRef .tc main_arg11) = W0 m ρ c (Proc.devRef .tc main_arg11) := by from6; rfl
theorem a12_W6 : W6 m ρ c (Proc.devRef .tc main_arg12) = W0 m ρ c (Proc.devRef .tc main_arg12) := by from6; rfl
theorem a13_W6 : W6 m ρ c (Proc.devRef .tc main_arg13) = W0 m ρ c (Proc.devRef .tc main_arg13) := by from6; rfl
theorem a14_W6 : W6 m ρ c (Proc.devRef .tc main_arg14) = W0 m ρ c (Proc.devRef .tc main_arg14) := by from6; rfl
/-- The edge Laplacian is read by the first product and ends as it was. -/
theorem a3_W11 : W11 m ρ c (Proc.devRef .tc main_arg3) = W0 m ρ c (Proc.devRef .tc main_arg3) := by hb; hb; hb; hb; hb; ib6; hb; from4; rfl
theorem a15_W12 : W12 m ρ c (Proc.devRef .tc main_arg15) = W0 m ρ c (Proc.devRef .tc main_arg15) := by from12; rfl
theorem a16_W12 : W12 m ρ c (Proc.devRef .tc main_arg16) = W0 m ρ c (Proc.devRef .tc main_arg16) := by from12; rfl
theorem a17_W12 : W12 m ρ c (Proc.devRef .tc main_arg17) = W0 m ρ c (Proc.devRef .tc main_arg17) := by from12; rfl
theorem a19_W12 : W12 m ρ c (Proc.devRef .tc main_arg19) = W0 m ρ c (Proc.devRef .tc main_arg19) := by from12; rfl
theorem a4_W17 : W17 m ρ c (Proc.devRef .tc main_arg4) = W0 m ρ c (Proc.devRef .tc main_arg4) := by from17; rfl
theorem a18_W17 : W17 m ρ c (Proc.devRef .tc main_arg18) = W0 m ρ c (Proc.devRef .tc main_arg18) := by from17; rfl
theorem a20_W17 : W17 m ρ c (Proc.devRef .tc main_arg20) = W0 m ρ c (Proc.devRef .tc main_arg20) := by from17; rfl

/-! ## Intermediate arrays kept until a later region or stretch reads them -/

/-- The first node layer's output, across the transpose that follows it. -/
theorem v1_W3 : W3 m ρ c (Proc.devRef .tc main_v1) = W2 m ρ c (Proc.devRef .tc main_v1) := by hb; rfl
/-- The first edge column, across the second product with the edge Laplacian. -/
theorem v31_W12 : W12 m ρ c (Proc.devRef .tc main_v31) = W11 m ρ c (Proc.devRef .tc main_v31) := by rb12; rfl
/-- The second node layer's output, from its region to the head. -/
theorem v3_W17 : W17 m ρ c (Proc.devRef .tc main_v3) = W4 m ρ c (Proc.devRef .tc main_v3) := by hb; hb; hb; hb; hb; rb12; hb; hb; hb; hb; hb; rb6; hb; rfl

end Cert.KernelIdeal.KKeep

end
-- ==== Proof.KHost.lean ====
/-
  The host stretches of the idealized kernel program, read as functions.

  Between its kernel regions the program applies host operations: a weight's transpose before each node layer; the
  first edge layer's linear map; after each product with the edge Laplacian the batch normalisation, relu and
  channel maximum, followed (first time) by the second edge layer's linear map and (second time) by the two edge
  columns set side by side and the head's two weights transposed; and at the end the column read as a vector.
  Each stretch, from any contents X at its start, leaves in its last buffers the corresponding function of the
  shared specification applied to X at the stretch's inputs.
-/
import proofs.«180717_j87385404604873_2_alg».proof.Proof.Gen.KernelIdeal.Launch
import proofs.«180717_j87385404604873_2_alg».proof.Proof.Gen.ReferenceIdeal
import proofs.«180717_j87385404604873_2_alg».proof.Proof.Spec
import Idealize.ShloMosaic.Lib.StableHlo.Run

set_option maxRecDepth 16384

noncomputable section

namespace Cert.KernelIdeal.KHost

open Idealize.ShloMosaic Idealize.ShloMosaic.TcCoe Idealize.ShloMosaic.StableHlo
open Cert.KernelIdeal Cert.KernelIdeal.Gen

variable {F : FTy → Type} [FloatOps F]

attribute [local irreducible] Host.reduce Host.reduceAdd

/-- The transposed weight of the first node layer. -/
theorem wt0 (X : Valuation τ sig (Elt F)) :
    after hostOps0 X (Proc.devRef .tc main_v0) = Cert.Spec.wT32 (X (Proc.devRef .tc main_arg5)) := by
  simp only [hostOps0]
  after_results_simp
  rfl

/-- The transposed weight of the second node layer. -/
theorem wt1 (X : Valuation τ sig (Elt F)) :
    after hostOps1 X (Proc.devRef .tc main_v2) = Cert.Spec.wT32 (X (Proc.devRef .tc main_arg7)) := by
  simp only [hostOps1]
  after_results_simp
  rfl

/-- The first edge layer's linear map. -/
theorem th0 (X : Valuation τ sig (Elt F)) :
    after hostOps2 X (Proc.devRef .tc main_v8)
      = Cert.Spec.theta0 (X (Proc.devRef .tc main_arg1)) (X (Proc.devRef .tc main_arg9)) (X (Proc.devRef .tc main_arg10)) := by
  simp only [hostOps2]
  after_results_simp
  rfl

/-- The contents after the five stretches that follow the first product with the edge Laplacian. -/
abbrev afterBn0 (X : Valuation τ sig (Elt F)) : Valuation τ sig (Elt F) :=
  after hostOps3_4 (after hostOps3_3 (after hostOps3_2 (after hostOps3_1 (after hostOps3 X))))

/-- The first edge layer's column: normalisation, relu and channel maximum of the product it was given. -/
theorem col0 (X : Valuation τ sig (Elt F)) :
    afterBn0 X (Proc.devRef .tc main_v31)
      = Cert.Spec.bnTail (X (Proc.devRef .tc main_v9)) (X (Proc.devRef .tc main_arg11)) (X (Proc.devRef .tc main_arg12)) := by
  simp only [afterBn0, hostOps3, hostOps3_1, hostOps3_2, hostOps3_3, hostOps3_4]
  after_results_simp
  rfl

/-- The second edge layer's linear map of that column. -/
theorem th1 (X : Valuation τ sig (Elt F)) :
    afterBn0 X (Proc.devRef .tc main_v36)
      = Cert.Spec.theta1
          (Cert.Spec.bnTail (X (Proc.devRef .tc main_v9)) (X (Proc.devRef .tc main_arg11)) (X (Proc.devRef .tc main_arg12)))
          (X (Proc.devRef .tc main_arg13)) (X (Proc.devRef .tc main_arg14)) := by
  simp only [afterBn0, hostOps3, hostOps3_1, hostOps3_2, hostOps3_3, hostOps3_4]
  after_results_simp
  rfl

/-- The contents after the five stretches that follow the second product with the edge Laplacian. -/
abbrev afterBn1 (X : Valuation τ sig (Elt F)) : Valuation τ sig (Elt F) :=
  after hostOps4_4 (after hostOps4_3 (after hostOps4_2 (after hostOps4_1 (after hostOps4 X))))

/-- The two edge columns side by side: the first as it was kept, the second from the product it was given. -/
theorem cat (X : Valuation τ sig (Elt F)) :
    afterBn1 X (Proc.devRef .tc main_v60)
      = Cert.Spec.zcat (X (Proc.devRef .tc main_v31))
          (Cert.Spec.bnTail (X (Proc.devRef .tc main_v37)) (X (Proc.devRef .tc main_arg15)) (X (Proc.devRef .tc main_arg16))) := by
  simp only [afterBn1, hostOps4, hostOps4_1, hostOps4_2, hostOps4_3, hostOps4_4]
  after_results_simp
  rfl

/-- The head's first weight transposed. -/
theorem hw1 (X : Valuation τ sig (Elt F)) :
    afterBn1 X (Proc.devRef .tc main_v61) = Cert.Spec.w1T (X (Proc.devRef .tc main_arg17)) := by
  simp only [afterBn1, hostOps4, hostOps4_1, hostOps4_2, hostOps4_3, hostOps4_4]
  after_results_simp
  rfl

/-- The head's second weight transposed. -/
theorem hw2 (X : Valuation τ sig (Elt F)) :
    afterBn1 X (Proc.devRef .tc main_v62) = Cert.Spec.w2T (X (Proc.devRef .tc main_arg19)) := by
  simp only [afterBn1, hostOps4, hostOps4_1, hostOps4_2, hostOps4_3, hostOps4_4]
  after_results_simp
  rfl

/-- The result column read as a vector. -/
theorem fl (X : Valuation τ sig (Elt F)) :
    after hostOps5 X (Proc.devRef .tc main_v64) = Cert.Spec.flat (X (Proc.devRef .tc main_v63)) := by
  simp only [hostOps5]
  after_results_simp
  rfl

end Cert.KernelIdeal.KHost

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.RegGnn.lean ====
/-
  The two node layers. Each region takes the [6144,6144] adjacency 768 rows at a time and stores, for those rows,
  relu((tile·H)·Wt + b): the tile times the whole [6144,32] features, that times the whole [32,32] weight, plus the
  bias laid along every row, clipped below at zero. After the 8 grid points the output array is that same
  expression of the whole arrays the region found.

  Entry (p, q) of a tile's result is max(∑ j, (∑ k, tile (p, k)·H (k, j))·Wt (j, q) + b q, 0); row p of tile t is row
  768·t + p of the adjacency; so the stored rows are rows 768·t … 768·t + 767 of the whole expression, and the 8
  tiles cover all 6144 rows.
-/
import proofs.«180717_j87385404604873_2_alg».proof.Proof.Gen.KernelIdeal.Frame
import proofs.«180717_j87385404604873_2_alg».proof.Proof.Gen.ReferenceIdeal
import proofs.«180717_j87385404604873_2_alg».proof.Proof.Spec
import proofs.«180717_j87385404604873_2_alg».proof.Proof.LibDotRows
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Cert.Hand

/-! ## One tile's layer, entry by entry -/

/-- The body's arithmetic: relu((tile·H)·Wt + b), the weight through an identity cast, the bias as one row laid
    along every row, the clip as a maximum with a zero splat. -/
def gnnTile (x0 : FVec Ideal S768x6144 .f32) (x1 : FVec Ideal S6144x32 .f32) (x2 : FVec Ideal S32x32 .f32)
    (x3 : FVec Ideal S32 .f32) : FVec Ideal S768x32 .f32 :=
  maximumf
    (addf
      (matmul dot_S768x32_S32x32_S768x32_1_0_0_1_n_n none
        (matmul dot_S768x6144_S6144x32_S768x32_1_0_0_1_n_n none x0 x1 (constant S768x32 .f32 0x00000000#32))
        (shapeCast S32x32 x2 shapeCasts_S32x32_S32x32) (constant S768x32 .f32 0x00000000#32))
      (broadcastTo S768x32 (shapeCast S1x32 x3 shapeCasts_S32_S1x32) broadcasts_S1x32_S768x32))
    (broadcast S768x32 (Scalar.ofBits .f32 0x00000000#32))

theorem k0_pay1_eq (x0 : FVec Ideal S768x6144 .f32) (x1 : FVec Ideal S6144x32 .f32) (x2 : FVec Ideal S32x32 .f32)
    (x3 : FVec Ideal S32 .f32) : k0_pay1 x0 x1 x2 x3 = gnnTile x0 x1 x2 x3 := rfl

/-- The second layer's body casts the features through an identity cast first: the same arithmetic. -/
theorem k1_pay1_eq (x0 : FVec Ideal S768x6144 .f32) (x1 : FVec Ideal S6144x32 .f32) (x2 : FVec Ideal S32x32 .f32)
    (x3 : FVec Ideal S32 .f32) : k1_pay1 x0 x1 x2 x3 = gnnTile x0 x1 x2 x3 := by
  unfold k1_pay1 gnnTile
  rw [shapeCast_self x1]

/-- The contraction of a [768,6144] by a [6144,32] operand, re-indexed by the contracted coordinate. -/
theorem tileA_sum (l : FVec Ideal S768x6144 .f32) (r : FVec Ideal S6144x32 .f32) (p : Fin 768) (q : Fin 32) :
    ∑ c : dot_S768x6144_S6144x32_S768x32_1_0_0_1_n_n.contr.Idx,
        l (dot_S768x6144_S6144x32_S768x32_1_0_0_1_n_n.lhsIdx (ix2 p q) c)
          * r (dot_S768x6144_S6144x32_S768x32_1_0_0_1_n_n.rhsIdx (ix2 p q) c)
      = ∑ k : Fin 6144, l (ix2 p k) * r (ix2 k q) := by
  dot_rows dot_S768x6144_S6144x32_S768x32_1_0_0_1_n_n S768x6144 S6144x32 6144

/-- The contraction of a [768,32] by a [32,32] operand, re-indexed by the contracted coordinate. -/
theorem tileW_sum (l : FVec Ideal S768x32 .f32) (r : FVec Ideal S32x32 .f32) (p : Fin 768) (q : Fin 32) :
    ∑ c : dot_S768x32_S32x32_S768x32_1_0_0_1_n_n.contr.Idx,
        l (dot_S768x32_S32x32_S768x32_1_0_0_1_n_n.lhsIdx (ix2 p q) c)
          * r (dot_S768x32_S32x32_S768x32_1_0_0_1_n_n.rhsIdx (ix2 p q) c)
      = ∑ j : Fin 32, l (ix2 p j) * r (ix2 j q) := by
  dot_rows dot_S768x32_S32x32_S768x32_1_0_0_1_n_n S768x32 S32x32 32

/-- Entry (p, j) of the tile times the features. -/
theorem tileA_apply (x0 : FVec Ideal S768x6144 .f32) (x1 : FVec Ideal S6144x32 .f32) (p : Fin 768) (j : Fin 32) :
    matmul dot_S768x6144_S6144x32_S768x32_1_0_0_1_n_n none x0 x1 (constant S768x32 .f32 0x00000000#32) (ix2 p j)
      = ∑ k : Fin 6144, x0 (ix2 p k) * x1 (ix2 k j) :=
  (Ideal.matmul_constant_zero_apply dot_S768x6144_S6144x32_S768x32_1_0_0_1_n_n none x0 x1 (ix2 p j)).trans
    (tileA_sum x0 x1 p j)

/-- Entry (p, q) of a tile's layer. -/
theorem gnnTile_apply (x0 : FVec Ideal S768x6144 .f32) (x1 : FVec Ideal S6144x32 .f32) (x2 : FVec Ideal S32x32 .f32)
    (x3 : FVec Ideal S32 .f32) (p : Fin 768) (q : Fin 32) :
    gnnTile x0 x1 x2 x3 (ix2 p q)
      = max ((∑ j : Fin 32, (∑ k : Fin 6144, x0 (ix2 p k) * x1 (ix2 k j)) * x2 (ix2 j q)) + x3 (ix1 q))
          (Ideal.ofBits .f32 0x00000000#32) := by
  have hb : broadcastTo S768x32 (shapeCast S1x32 x3 shapeCasts_S32_S1x32) broadcasts_S1x32_S768x32 (ix2 p q) = x3 (ix1 q) :=
    (broadcastTo_1b_ab_apply (shapeCast S1x32 x3 shapeCasts_S32_S1x32) broadcasts_S1x32_S768x32 p q).trans
      (shapeCast_a_1a_apply x3 shapeCasts_S32_S1x32 (0 : Fin 1) q)
  have hm : matmul dot_S768x32_S32x32_S768x32_1_0_0_1_n_n none
        (matmul dot_S768x6144_S6144x32_S768x32_1_0_0_1_n_n none x0 x1 (constant S768x32 .f32 0x00000000#32))
        (shapeCast S32x32 x2 shapeCasts_S32x32_S32x32) (constant S768x32 .f32 0x00000000#32) (ix2 p q)
      = ∑ j : Fin 32, (∑ k : Fin 6144, x0 (ix2 p k) * x1 (ix2 k j)) * x2 (ix2 j q) := by
    refine (Ideal.matmul_constant_zero_apply dot_S768x32_S32x32_S768x32_1_0_0_1_n_n none _ _ (ix2 p q)).trans ?_
    rw [shapeCast_self x2]
    refine (tileW_sum _ x2 p q).trans ?_
    exact Finset.sum_congr rfl fun j _ => congrArg (· * x2 (ix2 j q)) (tileA_apply x0 x1 p j)
  unfold gnnTile
  rw [maximumf_apply, addf_apply, hm, hb]
  rfl

/-! ## The whole layer, entry by entry -/

/-- The contraction of a [6144,6144] by a [6144,32] operand, re-indexed by the contracted coordinate. -/
theorem wholeA_sum (l : FVec Ideal Cert.ReferenceIdeal.S6144x6144 .f32) (r : FVec Ideal Cert.ReferenceIdeal.S6144x32 .f32)
    (p : Fin 6144) (q : Fin 32) :
    ∑ c : Cert.ReferenceIdeal.dot_S6144x6144_S6144x32_S6144x32_1_0_0_1_n_n.contr.Idx,
        l (Cert.ReferenceIdeal.dot_S6144x6144_S6144x32_S6144x32_1_0_0_1_n_n.lhsIdx (ix2 p q) c)
          * r (Cert.ReferenceIdeal.dot_S6144x6144_S6144x32_S6144x32_1_0_0_1_n_n.rhsIdx (ix2 p q) c)
      = ∑ k : Fin 6144, l (ix2 p k) * r (ix2 k q) := by
  dot_rows Cert.ReferenceIdeal.dot_S6144x6144_S6144x32_S6144x32_1_0_0_1_n_n Cert.ReferenceIdeal.S6144x6144 Cert.ReferenceIdeal.S6144x32 6144

/-- The contraction of a [6144,32] by a [32,32] operand, re-indexed by the contracted coordinate. -/
theorem wholeW_sum (l : FVec Ideal Cert.ReferenceIdeal.S6144x32 .f32) (r : FVec Ideal Cert.ReferenceIdeal.S32x32 .f32)
    (p : Fin 6144) (q : Fin 32) :
    ∑ c : Cert.ReferenceIdeal.dot_S6144x32_S32x32_S6144x32_1_0_0_1_n_n.contr.Idx,
        l (Cert.ReferenceIdeal.dot_S6144x32_S32x32_S6144x32_1_0_0_1_n_n.lhsIdx (ix2 p q) c)
          * r (Cert.ReferenceIdeal.dot_S6144x32_S32x32_S6144x32_1_0_0_1_n_n.rhsIdx (ix2 p q) c)
      = ∑ j : Fin 32, l (ix2 p j) * r (ix2 j q) := by
  dot_rows Cert.ReferenceIdeal.dot_S6144x32_S32x32_S6144x32_1_0_0_1_n_n Cert.ReferenceIdeal.S6144x32 Cert.ReferenceIdeal.S32x32 32

/-- A vector of 32 made a row and the row laid along 6144 rows reads, at (i, q), entry q. -/
theorem rowBias_apply (b : FVec Ideal ⟨1, ![32]⟩ .f32)
    (h1 : (⟨1, ![32]⟩ : Shape).BroadcastsInDim ⟨2, ![1, 32]⟩ ![1])
    (h2 : (⟨2, ![1, 32]⟩ : Shape).BroadcastsInDim ⟨2, ![6144, 32]⟩ ![0, 1]) (i : Fin 6144) (q : Fin 32) :
    broadcastInDim ⟨2, ![6144, 32]⟩ ![0, 1] h2 (broadcastInDim ⟨2, ![1, 32]⟩ ![1] h1 b) (ix2 i q) = b (ix1 q) :=
  (broadcastInDim_oneRow_apply h2 (broadcastInDim ⟨2, ![1, 32]⟩ ![1] h1 b) i q).trans
    (broadcastInDim_apply ![1] h1 b (ix2 (0 : Fin 1) q) (ix1 q) fun a => by
      match a with
      | ⟨0, _⟩ => rfl)

/-- Entry (i, q) of the whole layer. -/
theorem gnnCore_apply (A : FVec Ideal Cert.ReferenceIdeal.S6144x6144 .f32) (H : FVec Ideal Cert.ReferenceIdeal.S6144x32 .f32)
    (Wt : FVec Ideal Cert.ReferenceIdeal.S32x32 .f32) (b : FVec Ideal Cert.ReferenceIdeal.S32 .f32) (i : Fin 6144) (q : Fin 32) :
    Cert.Spec.gnnCore A H Wt b (ix2 i q)
      = max ((∑ j : Fin 32, (∑ k : Fin 6144, A (ix2 i k) * H (ix2 k j)) * Wt (ix2 j q)) + b (ix1 q))
          (Ideal.ofBits .f32 0x00000000#32) := by
  have hm : Host.dotGeneral Cert.ReferenceIdeal.dot_S6144x32_S32x32_S6144x32_1_0_0_1_n_n none
        (Host.dotGeneral Cert.ReferenceIdeal.dot_S6144x6144_S6144x32_S6144x32_1_0_0_1_n_n none A H) Wt (ix2 i q)
      = ∑ j : Fin 32, (∑ k : Fin 6144, A (ix2 i k) * H (ix2 k j)) * Wt (ix2 j q) := by
    refine (Ideal.dotGeneral_apply Cert.ReferenceIdeal.dot_S6144x32_S32x32_S6144x32_1_0_0_1_n_n none .single _ Wt (ix2 i q)).trans ?_
    refine (wholeW_sum _ Wt i q).trans ?_
    exact Finset.sum_congr rfl fun j _ => congrArg (· * Wt (ix2 j q))
      ((Ideal.dotGeneral_apply Cert.ReferenceIdeal.dot_S6144x6144_S6144x32_S6144x32_1_0_0_1_n_n none .single A H (ix2 i j)).trans
        (wholeA_sum A H i j))
  unfold Cert.Spec.gnnCore
  rw [maximumf_apply, addf_apply, hm, rowBias_apply b _ _ i q]
  rfl

/-! ## From the 8 tiles to the array: the first layer -/

variable (V : (c : Dev nD) → (b : Ref sig .tc) → Buf (Elt Ideal) ((c : Thread nD τ).loc b))

/-- The rank-2 zero offsets are the constant zero function. -/
theorem zeroOffG : (![0, 0] : Fin 2 → ℕ) = fun _ => 0 := funext fun a => by fin_cases a <;> rfl
/-- The rank-1 zero offset likewise. -/
theorem zeroOffG1 : (![0] : Fin 1 → ℕ) = fun _ => 0 := funext fun a => by fin_cases a; rfl

/-- Tile t of the adjacency and of the output starts at block row t, column block 0; every other operand is one block. -/
theorem tiles0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- What point t writes back is rows 768·t … 768·t + 767 of the whole layer. -/
theorem flushed0_eq (c : Dev nD) (t : Fin cfg0.N) :
    (dat0 (F := Ideal) V c).flushed 4 t
      = ((cfg0.win 4).blk t).view.read (Elt Ideal)
          (Cert.Spec.gnnCore (F := Ideal) (V c main_arg2) (V c main_arg0) (V c main_v0) (V c main_arg6)) := by
  show (cfg0.win 4).cut (grid0.coords t) ((dat0 V c).after 4 t) = _
  rw [after0_4]
  unfold out0_4
  rw [View.canon_unit_zero zeroOffG]
  simp only [View.ld_unit_zero (S := S768x6144) zeroOffG, View.ld_unit_zero (S := S6144x32) zeroOffG,
    View.ld_unit_zero (S := S32x32) zeroOffG, View.ld_unit_zero (S := S32) zeroOffG1]
  rw [k0_pay1_eq]
  obtain ⟨e00, e01, e10, e11, e20, e21, e30, e40, e41⟩ := tiles0 t
  have ht : t.val < 8 := lt_of_lt_of_eq t.isLt N_0
  funext y
  obtain ⟨p, q, rfl⟩ : ∃ (p : Fin 768) (q : Fin 32), y = ix2 p q := ⟨y 0, y 1, eq_ix2 y⟩
  have hp : p.val < 768 := p.isLt
  have hq : q.val < 32 := q.isLt
  show gnnTile (iblk0 V c 0 t) (iblk0 V c 1 t) (iblk0 V c 2 t) (iblk0 V c 3 t) (ix2 p q)
    = Cert.Spec.gnnCore (F := Ideal) (V c main_arg2) (V c main_arg0) (V c main_v0) (V c main_arg6)
        (((cfg0.win 4).blk t).view.emb (ix2 p q))
  have hout : ((cfg0.win 4).blk t).view.emb (ix2 p q) = ix2 (⟨t.val * 768 + p.val, by omega⟩ : Fin 6144) q := by
    funext a; apply Fin.ext
    match a with
    | ⟨0, _⟩ => show win0_4.index t (0 : Fin 2) * 768 + 1 * p.val = t.val * 768 + p.val; omega
    | ⟨1, _⟩ => show win0_4.index t (1 : Fin 2) * 32 + 1 * q.val = q.val; omega
  rw [hout, gnnCore_apply]
  refine (gnnTile_apply (iblk0 V c 0 t) (iblk0 V c 1 t) (iblk0 V c 2 t) (iblk0 V c 3 t) p q).trans ?_
  have hb : iblk0 V c 3 t (ix1 q) = V c main_arg6 (ix1 q) := by
    show V c main_arg6 (((cfg0.win 3).blk t).view.emb (ix1 q)) = _
    refine congrArg (V c main_arg6) (funext fun a => Fin.ext ?_)
    match a with
    | ⟨0, _⟩ => show win0_3.index t (0 : Fin 1) * 32 + 1 * q.val = q.val; omega
  rw [hb]
  refine congrArg (fun s => max (s + V c main_arg6 (ix1 q)) (Ideal.ofBits .f32 0x00000000#32)) ?_
  refine Finset.sum_congr rfl fun j _ => ?_
  have hj : j.val < 32 := j.isLt
  have hw : iblk0 V c 2 t (ix2 j q) = V c main_v0 (ix2 j q) := by
    show V c main_v0 (((cfg0.win 2).blk t).view.emb (ix2 j q)) = _
    refine congrArg (V c main_v0) (funext fun a => Fin.ext ?_)
    match a with
    | ⟨0, _⟩ => show win0_2.index t (0 : Fin 2) * 32 + 1 * j.val = j.val; omega
    | ⟨1, _⟩ => show win0_2.index t (1 : Fin 2) * 32 + 1 * q.val = q.val; omega
  rw [hw]
  refine congrArg (· * V c main_v0 (ix2 j q)) ?_
  refine Finset.sum_congr rfl fun k _ => ?_
  have hk : k.val < 6144 := k.isLt
  have hl : iblk0 V c 0 t (ix2 p k) = V c main_arg2 (ix2 (⟨t.val * 768 + p.val, by omega⟩ : Fin 6144) k) := by
    show V c main_arg2 (((cfg0.win 0).blk t).view.emb (ix2 p k)) = _
    refine congrArg (V c main_arg2) (funext fun a => Fin.ext ?_)
    match a with
    | ⟨0, _⟩ => show win0_0.index t (0 : Fin 2) * 768 + 1 * p.val = t.val * 768 + p.val; omega
    | ⟨1, _⟩ => show win0_0.index t (1 : Fin 2) * 6144 + 1 * k.val = k.val; omega
  have hr : iblk0 V c 1 t (ix2 k j) = V c main_arg0 (ix2 k j) := by
    show V c main_arg0 (((cfg0.win 1).blk t).view.emb (ix2 k j)) = _
    refine congrArg (V c main_arg0) (funext fun a => Fin.ext ?_)
    match a with
    | ⟨0, _⟩ => show win0_1.index t (0 : Fin 2) * 6144 + 1 * k.val = k.val; omega
    | ⟨1, _⟩ => show win0_1.index t (1 : Fin 2) * 32 + 1 * j.val = j.val; omega
  rw [hl, hr]

/-- An index of the output array is in point t's block iff each coordinate is in the block's range on its axis. -/
theorem mem_blk0 (t : Fin cfg0.N) (i : S6144x32.Idx) :
    i ∈ ((cfg0.win 4).blk t).view.set
      ↔ ∀ a : Fin 2, win0_4.index t a * S768x32.size a ≤ (i a).val ∧ (i a).val < win0_4.index t a * S768x32.size a + S768x32.size a := by
  show i ∈ ((View.whole main_v1).slice (win0_4.rect t)).set ↔ _
  rw [View.set_slice_whole, Rect.mem_set_unit]
  exact Iff.rfl

/-- Row r of the output is in the block of point r / 768. -/
theorem cover0 (i : S6144x32.Idx) : ∃ t : Fin cfg0.N, (cfg0.win 4).flush t = true ∧ i ∈ ((cfg0.win 4).blk t).view.set := by
  have hi0 : (i 0).val < 6144 := (i 0).isLt
  have hi1 : (i 1).val < 32 := (i 1).isLt
  have hN : grid0.N = 8 := N_0
  let t : Fin cfg0.N := ⟨(i 0).val / 768, by show (i 0).val / 768 < grid0.N; omega⟩
  have htv : t.val = (i 0).val / 768 := rfl
  obtain ⟨e00, e01, e10, e11, e20, e21, e30, e40, e41⟩ := tiles0 t
  refine ⟨t, flush0_4 t, ?_⟩
  rw [mem_blk0]
  intro a
  match a with
  | ⟨0, _⟩ => show win0_4.index t (0 : Fin 2) * 768 ≤ (i 0).val ∧ (i 0).val < win0_4.index t (0 : Fin 2) * 768 + 768; omega
  | ⟨1, _⟩ => show win0_4.index t (1 : Fin 2) * 32 ≤ (i 1).val ∧ (i 1).val < win0_4.index t (1 : Fin 2) * 32 + 32; omega

/-- The output array after the 8 points: the layer of the four arrays the region found. -/
theorem final0 (c : Dev nD) :
    (dat0 (F := Ideal) V c).arrAt 4 cfg0.N
      = Cert.Spec.gnnCore (F := Ideal) (V c main_arg2) (V c main_arg0) (V c main_v0) (V c main_arg6) :=
  (dat0 (F := Ideal) V c).arrAt_eq_of_cover 4
    (Cert.Spec.gnnCore (F := Ideal) (V c main_arg2) (V c main_arg0) (V c main_v0) (V c main_arg6))
    (fun t _ => flushed0_eq V c t) cover0

/-! ## The second layer: the same tiles over the first layer's output -/

/-- Tile t of the adjacency and of the output starts at block row t, column block 0; every other operand is one block. -/
theorem tiles1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point t writes back is rows 768·t … 768·t + 767 of the whole layer. -/
theorem flushed1_eq (c : Dev nD) (t : Fin cfg1.N) :
    (dat1 (F := Ideal) V c).flushed 4 t
      = ((cfg1.win 4).blk t).view.read (Elt Ideal)
          (Cert.Spec.gnnCore (F := Ideal) (V c main_arg2) (V c main_v1) (V c main_v2) (V c main_arg8)) := by
  show (cfg1.win 4).cut (grid1.coords t) ((dat1 V c).after 4 t) = _
  rw [after1_4]
  unfold out1_4
  rw [View.canon_unit_zero zeroOffG]
  simp only [View.ld_unit_zero (S := S768x6144) zeroOffG, View.ld_unit_zero (S := S6144x32) zeroOffG,
    View.ld_unit_zero (S := S32x32) zeroOffG, View.ld_unit_zero (S := S32) zeroOffG1]
  rw [k1_pay1_eq]
  obtain ⟨e00, e01, e10, e11, e20, e21, e30, e40, e41⟩ := tiles1 t
  have ht : t.val < 8 := lt_of_lt_of_eq t.isLt N_1
  funext y
  obtain ⟨p, q, rfl⟩ : ∃ (p : Fin 768) (q : Fin 32), y = ix2 p q := ⟨y 0, y 1, eq_ix2 y⟩
  have hp : p.val < 768 := p.isLt
  have hq : q.val < 32 := q.isLt
  show gnnTile (iblk1 V c 0 t) (iblk1 V c 1 t) (iblk1 V c 2 t) (iblk1 V c 3 t) (ix2 p q)
    = Cert.Spec.gnnCore (F := Ideal) (V c main_arg2) (V c main_v1) (V c main_v2) (V c main_arg8)
        (((cfg1.win 4).blk t).view.emb (ix2 p q))
  have hout : ((cfg1.win 4).blk t).view.emb (ix2 p q) = ix2 (⟨t.val * 768 + p.val, by omega⟩ : Fin 6144) q := by
    funext a; apply Fin.ext
    match a with
    | ⟨0, _⟩ => show win1_4.index t (0 : Fin 2) * 768 + 1 * p.val = t.val * 768 + p.val; omega
    | ⟨1, _⟩ => show win1_4.index t (1 : Fin 2) * 32 + 1 * q.val = q.val; omega
  rw [hout, gnnCore_apply]
  refine (gnnTile_apply (iblk1 V c 0 t) (iblk1 V c 1 t) (iblk1 V c 2 t) (iblk1 V c 3 t) p q).trans ?_
  have hb : iblk1 V c 3 t (ix1 q) = V c main_arg8 (ix1 q) := by
    show V c main_arg8 (((cfg1.win 3).blk t).view.emb (ix1 q)) = _
    refine congrArg (V c main_arg8) (funext fun a => Fin.ext ?_)
    match a with
    | ⟨0, _⟩ => show win1_3.index t (0 : Fin 1) * 32 + 1 * q.val = q.val; omega
  rw [hb]
  refine congrArg (fun s => max (s + V c main_arg8 (ix1 q)) (Ideal.ofBits .f32 0x00000000#32)) ?_
  refine Finset.sum_congr rfl fun j _ => ?_
  have hj : j.val < 32 := j.isLt
  have hw : iblk1 V c 2 t (ix2 j q) = V c main_v2 (ix2 j q) := by
    show V c main_v2 (((cfg1.win 2).blk t).view.emb (ix2 j q)) = _
    refine congrArg (V c main_v2) (funext fun a => Fin.ext ?_)
    match a with
    | ⟨0, _⟩ => show win1_2.index t (0 : Fin 2) * 32 + 1 * j.val = j.val; omega
    | ⟨1, _⟩ => show win1_2.index t (1 : Fin 2) * 32 + 1 * q.val = q.val; omega
  rw [hw]
  refine congrArg (· * V c main_v2 (ix2 j q)) ?_
  refine Finset.sum_congr rfl fun k _ => ?_
  have hk : k.val < 6144 := k.isLt
  have hl : iblk1 V c 0 t (ix2 p k) = V c main_arg2 (ix2 (⟨t.val * 768 + p.val, by omega⟩ : Fin 6144) k) := by
    show V c main_arg2 (((cfg1.win 0).blk t).view.emb (ix2 p k)) = _
    refine congrArg (V c main_arg2) (funext fun a => Fin.ext ?_)
    match a with
    | ⟨0, _⟩ => show win1_0.index t (0 : Fin 2) * 768 + 1 * p.val = t.val * 768 + p.val; omega
    | ⟨1, _⟩ => show win1_0.index t (1 : Fin 2) * 6144 + 1 * k.val = k.val; omega
  have hr : iblk1 V c 1 t (ix2 k j) = V c main_v1 (ix2 k j) := by
    show V c main_v1 (((cfg1.win 1).blk t).view.emb (ix2 k j)) = _
    refine congrArg (V c main_v1) (funext fun a => Fin.ext ?_)
    match a with
    | ⟨0, _⟩ => show win1_1.index t (0 : Fin 2) * 6144 + 1 * k.val = k.val; omega
    | ⟨1, _⟩ => show win1_1.index t (1 : Fin 2) * 32 + 1 * j.val = j.val; omega
  rw [hl, hr]

/-- An index of the output array is in point t's block iff each coordinate is in the block's range on its axis. -/
theorem mem_blk1 (t : Fin cfg1.N) (i : S6144x32.Idx) :
    i ∈ ((cfg1.win 4).blk t).view.set
      ↔ ∀ a : Fin 2, win1_4.index t a * S768x32.size a ≤ (i a).val ∧ (i a).val < win1_4.index t a * S768x32.size a + S768x32.size a := by
  show i ∈ ((View.whole main_v3).slice (win1_4.rect t)).set ↔ _
  rw [View.set_slice_whole, Rect.mem_set_unit]
  exact Iff.rfl

/-- Row r of the output is in the block of point r / 768. -/
theorem cover1 (i : S6144x32.Idx) : ∃ t : Fin cfg1.N, (cfg1.win 4).flush t = true ∧ i ∈ ((cfg1.win 4).blk t).view.set := by
  have hi0 : (i 0).val < 6144 := (i 0).isLt
  have hi1 : (i 1).val < 32 := (i 1).isLt
  have hN : grid1.N = 8 := N_1
  let t : Fin cfg1.N := ⟨(i 0).val / 768, by show (i 0).val / 768 < grid1.N; omega⟩
  have htv : t.val = (i 0).val / 768 := rfl
  obtain ⟨e00, e01, e10, e11, e20, e21, e30, e40, e41⟩ := tiles1 t
  refine ⟨t, flush1_4 t, ?_⟩
  rw [mem_blk1]
  intro a
  match a with
  | ⟨0, _⟩ => show win1_4.index t (0 : Fin 2) * 768 ≤ (i 0).val ∧ (i 0).val < win1_4.index t (0 : Fin 2) * 768 + 768; omega
  | ⟨1, _⟩ => show win1_4.index t (1 : Fin 2) * 32 ≤ (i 1).val ∧ (i 1).val < win1_4.index t (1 : Fin 2) * 32 + 32; omega

/-- The output array after the 8 points: the layer of the four arrays the region found. -/
theorem final1 (c : Dev nD) :
    (dat1 (F := Ideal) V c).arrAt 4 cfg1.N
      = Cert.Spec.gnnCore (F := Ideal) (V c main_arg2) (V c main_v1) (V c main_v2) (V c main_arg8) :=
  (dat1 (F := Ideal) V c).arrAt_eq_of_cover 4
    (Cert.Spec.gnnCore (F := Ideal) (V c main_arg2) (V c main_v1) (V c main_v2) (V c main_arg8))
    (fun t _ => flushed1_eq V c t) cover1

end Cert.KernelIdeal.Reg

end
-- ==== Proof.RegMat.lean ====
/-
  The two edge-Laplacian products. Each region multiplies a [12288,12288] matrix, taken 384 rows at a time, by a
  whole [12288,16] matrix into a zero accumulator and stores the 384 rows of the result; after the 32 grid points
  the output array is the product of the two arrays the region found.

  Row p of a tile's product at column q is the sum over k of tile (p, k) times right (k, q); row p of tile t is row
  384·t + p of the left array; so the stored rows are rows 384·t … 384·t + 383 of the whole product, and the 32
  tiles cover all 12288 rows.
-/
import proofs.«180717_j87385404604873_2_alg».proof.Proof.Gen.KernelIdeal.Frame
import proofs.«180717_j87385404604873_2_alg».proof.Proof.Gen.ReferenceIdeal
import proofs.«180717_j87385404604873_2_alg».proof.Proof.Spec
import proofs.«180717_j87385404604873_2_alg».proof.Proof.LibDotRows
import Idealize.ShloMosaic.Lib.Pipeline.Value
import Idealize.ShloMosaic.Lib.ValueIdx
import Idealize.ShloMosaic.PureOps.Ideal.Laws

noncomputable section

namespace Cert.KernelIdeal.Reg

open Cert.KernelIdeal Cert.KernelIdeal.Gen
open Idealize.ShloMosaic Idealize.ShloMosaic.TcCoe Idealize.SL.Sem Idealize.ShloMosaic.ValueIdx
open Idealize.ShloMosaic.Pipeline (Dat)
open Cert.Hand

/-! ## One tile's product, entry by entry -/

/-- The body's arithmetic: the tile times the right operand (through an identity cast) into a zero accumulator. -/
def matTile (x0 : FVec Ideal S384x12288 .f32) (x1 : FVec Ideal S12288x16 .f32) : FVec Ideal S384x16 .f32 :=
  matmul dot_S384x12288_S12288x16_S384x16_1_0_0_1_n_n none x0
    (shapeCast S12288x16 x1 shapeCasts_S12288x16_S12288x16) (constant S384x16 .f32 0x00000000#32)

theorem k2_pay1_eq (x0 : FVec Ideal S384x12288 .f32) (x1 : FVec Ideal S12288x16 .f32) : k2_pay1 x0 x1 = matTile x0 x1 := rfl
theorem k3_pay1_eq (x0 : FVec Ideal S384x12288 .f32) (x1 : FVec Ideal S12288x16 .f32) : k3_pay1 x0 x1 = matTile x0 x1 := rfl

/-- The contraction of a [384,12288] by a [12288,16] operand, re-indexed by the contracted coordinate. -/
theorem tile_sum (l : FVec Ideal S384x12288 .f32) (r : FVec Ideal S12288x16 .f32) (p : Fin 384) (q : Fin 16) :
    ∑ c : dot_S384x12288_S12288x16_S384x16_1_0_0_1_n_n.contr.Idx,
        l (dot_S384x12288_S12288x16_S384x16_1_0_0_1_n_n.lhsIdx (ix2 p q) c)
          * r (dot_S384x12288_S12288x16_S384x16_1_0_0_1_n_n.rhsIdx (ix2 p q) c)
      = ∑ k : Fin 12288, l (ix2 p k) * r (ix2 k q) := by
  dot_rows dot_S384x12288_S12288x16_S384x16_1_0_0_1_n_n S384x12288 S12288x16 12288

/-- Entry (p, q) of a tile's product: the sum over k of tile (p, k) times right (k, q). -/
theorem matTile_apply (x0 : FVec Ideal S384x12288 .f32) (x1 : FVec Ideal S12288x16 .f32) (p : Fin 384) (q : Fin 16) :
    matTile x0 x1 (ix2 p q) = ∑ k : Fin 12288, x0 (ix2 p k) * x1 (ix2 k q) := by
  unfold matTile
  refine (Ideal.matmul_constant_zero_apply dot_S384x12288_S12288x16_S384x16_1_0_0_1_n_n none x0
    (shapeCast S12288x16 x1 shapeCasts_S12288x16_S12288x16) (ix2 p q)).trans ?_
  rw [shapeCast_self]
  exact tile_sum x0 x1 p q

/-! ## The whole product, entry by entry -/

/-- The contraction of a [12288,12288] by a [12288,16] operand, re-indexed by the contracted coordinate. -/
theorem whole_sum (l : FVec Ideal Cert.ReferenceIdeal.S12288x12288 .f32) (r : FVec Ideal Cert.ReferenceIdeal.S12288x16 .f32)
    (p : Fin 12288) (q : Fin 16) :
    ∑ c : Cert.ReferenceIdeal.dot_S12288x12288_S12288x16_S12288x16_1_0_0_1_n_n.contr.Idx,
        l (Cert.ReferenceIdeal.dot_S12288x12288_S12288x16_S12288x16_1_0_0_1_n_n.lhsIdx (ix2 p q) c)
          * r (Cert.ReferenceIdeal.dot_S12288x12288_S12288x16_S12288x16_1_0_0_1_n_n.rhsIdx (ix2 p q) c)
      = ∑ k : Fin 12288, l (ix2 p k) * r (ix2 k q) := by
  dot_rows Cert.ReferenceIdeal.dot_S12288x12288_S12288x16_S12288x16_1_0_0_1_n_n Cert.ReferenceIdeal.S12288x12288 Cert.ReferenceIdeal.S12288x16 12288

/-- Entry (i, q) of the whole product: the sum over k of left (i, k) times right (k, q). -/
theorem lconv_apply (L : FVec Ideal Cert.ReferenceIdeal.S12288x12288 .f32) (Z : FVec Ideal Cert.ReferenceIdeal.S12288x16 .f32)
    (i : Fin 12288) (q : Fin 16) :
    Cert.Spec.lconv L Z (ix2 i q) = ∑ k : Fin 12288, L (ix2 i k) * Z (ix2 k q) := by
  unfold Cert.Spec.lconv
  refine (Ideal.dotGeneral_apply Cert.ReferenceIdeal.dot_S12288x12288_S12288x16_S12288x16_1_0_0_1_n_n none .single L Z (ix2 i q)).trans ?_
  exact whole_sum L Z i q

/-! ## From the 32 tiles to the array: the first product -/

variable (V : (c : Dev nD) → (b : Ref sig .tc) → Buf (Elt Ideal) ((c : Thread nD τ).loc b))

/-- The rank-2 zero offsets are the constant zero function. -/
theorem zeroOff : (![0, 0] : Fin 2 → ℕ) = fun _ => 0 := funext fun a => by fin_cases a <;> rfl

/-- Tile t of the left array and of the output starts at block row t, column block 0; the right array is one block. -/
theorem tiles2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is rows 384·t … 384·t + 383 of the whole product. -/
theorem flushed2_eq (c : Dev nD) (t : Fin cfg2.N) :
    (dat2 (F := Ideal) V c).flushed 2 t
      = ((cfg2.win 2).blk t).view.read (Elt Ideal) (Cert.Spec.lconv (F := Ideal) (V c main_arg3) (V c main_v8)) := by
  show (cfg2.win 2).cut (grid2.coords t) ((dat2 V c).after 2 t) = _
  rw [after2_2]
  unfold out2_2
  rw [View.canon_unit_zero zeroOff]
  simp only [View.ld_unit_zero (S := S384x12288) zeroOff, View.ld_unit_zero (S := S12288x16) zeroOff]
  rw [k2_pay1_eq]
  obtain ⟨e00, e01, e10, e11, e20, e21⟩ := tiles2 t
  have ht : t.val < 32 := lt_of_lt_of_eq t.isLt N_2
  funext y
  obtain ⟨p, q, rfl⟩ : ∃ (p : Fin 384) (q : Fin 16), y = ix2 p q := ⟨y 0, y 1, eq_ix2 y⟩
  have hp : p.val < 384 := p.isLt
  have hq : q.val < 16 := q.isLt
  show matTile (iblk2 V c 0 t) (iblk2 V c 1 t) (ix2 p q)
    = Cert.Spec.lconv (F := Ideal) (V c main_arg3) (V c main_v8) (((cfg2.win 2).blk t).view.emb (ix2 p q))
  have hout : ((cfg2.win 2).blk t).view.emb (ix2 p q) = ix2 (⟨t.val * 384 + p.val, by omega⟩ : Fin 12288) q := by
    funext a; apply Fin.ext
    match a with
    | ⟨0, _⟩ => show win2_2.index t (0 : Fin 2) * 384 + 1 * p.val = t.val * 384 + p.val; omega
    | ⟨1, _⟩ => show win2_2.index t (1 : Fin 2) * 16 + 1 * q.val = q.val; omega
  rw [hout, lconv_apply]
  refine (matTile_apply (iblk2 V c 0 t) (iblk2 V c 1 t) p q).trans ?_
  refine Finset.sum_congr rfl fun k _ => ?_
  have hk : k.val < 12288 := k.isLt
  have hl : iblk2 V c 0 t (ix2 p k) = V c main_arg3 (ix2 (⟨t.val * 384 + p.val, by omega⟩ : Fin 12288) k) := by
    show V c main_arg3 (((cfg2.win 0).blk t).view.emb (ix2 p k)) = _
    refine congrArg (V c main_arg3) (funext fun a => Fin.ext ?_)
    match a with
    | ⟨0, _⟩ => show win2_0.index t (0 : Fin 2) * 384 + 1 * p.val = t.val * 384 + p.val; omega
    | ⟨1, _⟩ => show win2_0.index t (1 : Fin 2) * 12288 + 1 * k.val = k.val; omega
  have hr : iblk2 V c 1 t (ix2 k q) = V c main_v8 (ix2 k q) := by
    show V c main_v8 (((cfg2.win 1).blk t).view.emb (ix2 k q)) = _
    refine congrArg (V c main_v8) (funext fun a => Fin.ext ?_)
    match a with
    | ⟨0, _⟩ => show win2_1.index t (0 : Fin 2) * 12288 + 1 * k.val = k.val; omega
    | ⟨1, _⟩ => show win2_1.index t (1 : Fin 2) * 16 + 1 * q.val = q.val; omega
  rw [hl, hr]

/-- An index of the output array is in point t's block iff each coordinate is in the block's range on its axis. -/
theorem mem_blk2 (t : Fin cfg2.N) (i : S12288x16.Idx) :
    i ∈ ((cfg2.win 2).blk t).view.set
      ↔ ∀ a : Fin 2, win2_2.index t a * S384x16.size a ≤ (i a).val ∧ (i a).val < win2_2.index t a * S384x16.size a + S384x16.size a := by
  show i ∈ ((View.whole main_v9).slice (win2_2.rect t)).set ↔ _
  rw [View.set_slice_whole, Rect.mem_set_unit]
  exact Iff.rfl

/-- Row r of the output is in the block of point r / 384. -/
theorem cover2 (i : S12288x16.Idx) : ∃ t : Fin cfg2.N, (cfg2.win 2).flush t = true ∧ i ∈ ((cfg2.win 2).blk t).view.set := by
  have hi0 : (i 0).val < 12288 := (i 0).isLt
  have hi1 : (i 1).val < 16 := (i 1).isLt
  have hN : grid2.N = 32 := N_2
  let t : Fin cfg2.N := ⟨(i 0).val / 384, by show (i 0).val / 384 < grid2.N; omega⟩
  have htv : t.val = (i 0).val / 384 := rfl
  obtain ⟨e00, e01, e10, e11, e20, e21⟩ := tiles2 t
  refine ⟨t, flush2_2 t, ?_⟩
  rw [mem_blk2]
  intro a
  match a with
  | ⟨0, _⟩ => show win2_2.index t (0 : Fin 2) * 384 ≤ (i 0).val ∧ (i 0).val < win2_2.index t (0 : Fin 2) * 384 + 384; omega
  | ⟨1, _⟩ => show win2_2.index t (1 : Fin 2) * 16 ≤ (i 1).val ∧ (i 1).val < win2_2.index t (1 : Fin 2) * 16 + 16; omega

/-- The output array after the 32 points: the product of the two arrays the region found. -/
theorem final2 (c : Dev nD) :
    (dat2 (F := Ideal) V c).arrAt 2 cfg2.N = Cert.Spec.lconv (F := Ideal) (V c main_arg3) (V c main_v8) :=
  (dat2 (F := Ideal) V c).arrAt_eq_of_cover 2 (Cert.Spec.lconv (F := Ideal) (V c main_arg3) (V c main_v8))
    (fun t _ => flushed2_eq V c t) cover2

/-! ## The second product: the same tiles over the second edge layer's operand -/

/-- Tile t of the left array and of the output starts at block row t, column block 0; the right array is one block. -/
theorem tiles3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is rows 384·t … 384·t + 383 of the whole product. -/
theorem flushed3_eq (c : Dev nD) (t : Fin cfg3.N) :
    (dat3 (F := Ideal) V c).flushed 2 t
      = ((cfg3.win 2).blk t).view.read (Elt Ideal) (Cert.Spec.lconv (F := Ideal) (V c main_arg3) (V c main_v36)) := by
  show (cfg3.win 2).cut (grid3.coords t) ((dat3 V c).after 2 t) = _
  rw [after3_2]
  unfold out3_2
  rw [View.canon_unit_zero zeroOff]
  simp only [View.ld_unit_zero (S := S384x12288) zeroOff, View.ld_unit_zero (S := S12288x16) zeroOff]
  rw [k3_pay1_eq]
  obtain ⟨e00, e01, e10, e11, e20, e21⟩ := tiles3 t
  have ht : t.val < 32 := lt_of_lt_of_eq t.isLt N_3
  funext y
  obtain ⟨p, q, rfl⟩ : ∃ (p : Fin 384) (q : Fin 16), y = ix2 p q := ⟨y 0, y 1, eq_ix2 y⟩
  have hp : p.val < 384 := p.isLt
  have hq : q.val < 16 := q.isLt
  show matTile (iblk3 V c 0 t) (iblk3 V c 1 t) (ix2 p q)
    = Cert.Spec.lconv (F := Ideal) (V c main_arg3) (V c main_v36) (((cfg3.win 2).blk t).view.emb (ix2 p q))
  have hout : ((cfg3.win 2).blk t).view.emb (ix2 p q) = ix2 (⟨t.val * 384 + p.val, by omega⟩ : Fin 12288) q := by
    funext a; apply Fin.ext
    match a with
    | ⟨0, _⟩ => show win3_2.index t (0 : Fin 2) * 384 + 1 * p.val = t.val * 384 + p.val; omega
    | ⟨1, _⟩ => show win3_2.index t (1 : Fin 2) * 16 + 1 * q.val = q.val; omega
  rw [hout, lconv_apply]
  refine (matTile_apply (iblk3 V c 0 t) (iblk3 V c 1 t) p q).trans ?_
  refine Finset.sum_congr rfl fun k _ => ?_
  have hk : k.val < 12288 := k.isLt
  have hl : iblk3 V c 0 t (ix2 p k) = V c main_arg3 (ix2 (⟨t.val * 384 + p.val, by omega⟩ : Fin 12288) k) := by
    show V c main_arg3 (((cfg3.win 0).blk t).view.emb (ix2 p k)) = _
    refine congrArg (V c main_arg3) (funext fun a => Fin.ext ?_)
    match a with
    | ⟨0, _⟩ => show win3_0.index t (0 : Fin 2) * 384 + 1 * p.val = t.val * 384 + p.val; omega
    | ⟨1, _⟩ => show win3_0.index t (1 : Fin 2) * 12288 + 1 * k.val = k.val; omega
  have hr : iblk3 V c 1 t (ix2 k q) = V c main_v36 (ix2 k q) := by
    show V c main_v36 (((cfg3.win 1).blk t).view.emb (ix2 k q)) = _
    refine congrArg (V c main_v36) (funext fun a => Fin.ext ?_)
    match a with
    | ⟨0, _⟩ => show win3_1.index t (0 : Fin 2) * 12288 + 1 * k.val = k.val; omega
    | ⟨1, _⟩ => show win3_1.index t (1 : Fin 2) * 16 + 1 * q.val = q.val; omega
  rw [hl, hr]

/-- An index of the output array is in point t's block iff each coordinate is in the block's range on its axis. -/
theorem mem_blk3 (t : Fin cfg3.N) (i : S12288x16.Idx) :
    i ∈ ((cfg3.win 2).blk t).view.set
      ↔ ∀ a : Fin 2, win3_2.index t a * S384x16.size a ≤ (i a).val ∧ (i a).val < win3_2.index t a * S384x16.size a + S384x16.size a := by
  show i ∈ ((View.whole main_v37).slice (win3_2.rect t)).set ↔ _
  rw [View.set_slice_whole, Rect.mem_set_unit]
  exact Iff.rfl

/-- Row r of the output is in the block of point r / 384. -/
theorem cover3 (i : S12288x16.Idx) : ∃ t : Fin cfg3.N, (cfg3.win 2).flush t = true ∧ i ∈ ((cfg3.win 2).blk t).view.set := by
  have hi0 : (i 0).val < 12288 := (i 0).isLt
  have hi1 : (i 1).val < 16 := (i 1).isLt
  have hN : grid3.N = 32 := N_3
  let t : Fin cfg3.N := ⟨(i 0).val / 384, by show (i 0).val / 384 < grid3.N; omega⟩
  have htv : t.val = (i 0).val / 384 := rfl
  obtain ⟨e00, e01, e10, e11, e20, e21⟩ := tiles3 t
  refine ⟨t, flush3_2 t, ?_⟩
  rw [mem_blk3]
  intro a
  match a with
  | ⟨0, _⟩ => show win3_2.index t (0 : Fin 2) * 384 ≤ (i 0).val ∧ (i 0).val < win3_2.index t (0 : Fin 2) * 384 + 384; omega
  | ⟨1, _⟩ => show win3_2.index t (1 : Fin 2) * 16 ≤ (i 1).val ∧ (i 1).val < win3_2.index t (1 : Fin 2) * 16 + 16; omega

/-- The output array after the 32 points: the product of the two arrays the region found. -/
theorem final3 (c : Dev nD) :
    (dat3 (F := Ideal) V c).arrAt 2 cfg3.N = Cert.Spec.lconv (F := Ideal) (V c main_arg3) (V c main_v36) :=
  (dat3 (F := Ideal) V c).arrAt_eq_of_cover 2 (Cert.Spec.lconv (F := Ideal) (V c main_arg3) (V c main_v36))
    (fun t _ => flushed3_eq V c t) cover3

end Cert.KernelIdeal.Reg

end
-- ==== Proof.HeadMath.lean ====
/-
  The head of the network, read one row at a time.

  A row of the head's input is thirty-two node features followed by two edge features; the two edge features of a
  row are that row of the incidence matrix times the two edge columns. The head applies to the row a dense layer of
  12288 units with a bias, clips at zero, applies a second dense layer with a single unit and a bias, and ends with
  1 / (1 + exp(-x)). This file states that value as one formula of the row (sums over the contraction indices), and
  reads the layout operations the two programs use to build the row and to spread the biases: two pieces laid side
  by side along the second axis, a vector spread over the rows the kernel's way (a one-row cast broadcast down) and the
  host's way (two broadcasts along named axes), a scalar constant spread over an array, and the logistic written
  as the quotient the host computes.
-/
import Idealize.ShloMosaic.Lib.ValueLayout
import Idealize.ShloMosaic.Lib.ValueIdx
import Idealize.ShloMosaic.Lib.Pipeline.Value
import Idealize.ShloMosaic.Lib.KernelVsHost
import Idealize.ShloMosaic.PureOps.Ideal.Laws

noncomputable section

namespace Cert.Head

open Idealize.ShloMosaic Idealize.ShloMosaic.ValueIdx

/-! ## The value of one row -/

/-- A row of thirty-two entries followed by a row of two, as one row of thirty-four. -/
def joinRow (a : Fin 32 → EReal) (b : Fin 2 → EReal) (k : Fin 34) : EReal :=
  if h : k.val < 32 then a ⟨k.val, h⟩ else b ⟨k.val - 32, by have := k.isLt; omega⟩

/-- The two dense layers and the logistic, of one row `h` of thirty-four entries:
    logistic (∑ⱼ max (∑ₖ h k · W1 (k, j) + b1 j) 0 · W2 (j, u) + b2 0). -/
def headRow (h : Fin 34 → EReal) (W1 : (⟨2, ![34, 12288]⟩ : Shape).Idx → EReal) (b1 : (⟨1, ![12288]⟩ : Shape).Idx → EReal)
    (W2 : (⟨2, ![12288, 1]⟩ : Shape).Idx → EReal) (b2 : (⟨1, ![1]⟩ : Shape).Idx → EReal) (u : Fin 1) : EReal :=
  Ideal.logistic
    ((∑ j : Fin 12288, max ((∑ k : Fin 34, h k * W1 (ix2 k j)) + b1 (ix1 j)) 0 * W2 (ix2 j u)) + b2 (ix1 (0 : Fin 1)))

/-- The head's value of one row: the row's thirty-two node features `Hrow` joined with the row `Brow` of the incidence
    matrix times the two edge columns `Z`, through the two dense layers and the logistic. -/
def headAt (Brow : Fin 12288 → EReal) (Z : (⟨2, ![12288, 2]⟩ : Shape).Idx → EReal) (Hrow : Fin 32 → EReal)
    (W1 : (⟨2, ![34, 12288]⟩ : Shape).Idx → EReal) (b1 : (⟨1, ![12288]⟩ : Shape).Idx → EReal)
    (W2 : (⟨2, ![12288, 1]⟩ : Shape).Idx → EReal) (b2 : (⟨1, ![1]⟩ : Shape).Idx → EReal) (u : Fin 1) : EReal :=
  headRow (joinRow Hrow fun q => ∑ e : Fin 12288, Brow e * Z (ix2 e q)) W1 b1 W2 b2 u

/-! ## Two pieces side by side -/

/-- An `[a, 32]` array and an `[a, 2]` array laid side by side along the second axis read, in row `p`, the first
    array's row followed by the second's. -/
theorem concat_32_2_apply {a : ℕ} (x : (⟨2, ![a, 32]⟩ : Shape).Idx → EReal) (y : (⟨2, ![a, 2]⟩ : Shape).Idx → EReal)
    (h : Shape.Concatenates [(⟨2, ![a, 32]⟩ : Shape), ⟨2, ![a, 2]⟩] ⟨2, ![a, 34]⟩ 1) (p : Fin a) (k : Fin 34) :
    concatenate ⟨2, ![a, 34]⟩ 1 [⟨⟨2, ![a, 32]⟩, x⟩, ⟨⟨2, ![a, 2]⟩, y⟩] h (ix2 p k)
      = joinRow (fun k' => x (ix2 p k')) (fun q => y (ix2 p q)) k := by
  unfold joinRow
  by_cases hk : k.val < 32
  · rw [dif_pos hk]
    refine concatenate_pair_apply_left 1 x y h (ix2 p k) rfl (ix2 p (⟨k.val, hk⟩ : Fin 32)) ?_
    intro b
    match b with
    | ⟨0, _⟩ => rfl
    | ⟨1, _⟩ => rfl
  · rw [dif_neg hk]
    have hk2 : k.val - 32 < 2 := by have := k.isLt; omega
    refine concatenate_pair_apply_right 1 x y h (ix2 p k) rfl rfl (ix2 p (⟨k.val - 32, hk2⟩ : Fin 2)) ?_ ?_
    · intro b hb
      match b with
      | ⟨0, _⟩ => rfl
      | ⟨1, _⟩ => exact absurd rfl hb
    · show k.val - 32 + 32 = k.val
      omega

/-! ## A vector spread over the rows, and a constant spread over an array -/

/-- A vector of `b` entries cast to one row and broadcast down `a` rows reads, at `(p, c)`, its entry `c`. -/
theorem rowCast_broadcastTo_apply {α : Type} {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ x h1) h2 (ix2 p c) = x (ix1 c) :=
  (broadcastTo_1b_ab_apply _ h2 p c).trans (shapeCast_a_1a_apply x h1 0 c)

/-- A vector of `b` entries broadcast along the second axis to one row, and that row broadcast down `a` rows, reads,
    at `(p, c)`, its entry `c`. -/
theorem rowBcast_broadcastInDim_apply {α : Type} {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 x) (ix2 p c) = x (ix1 c) := by
  refine (broadcastInDim_oneRow_apply h2 _ p c).trans ?_
  refine broadcastInDim_apply ![1] h1 x (ix2 (0 : Fin 1) c) (ix1 c) ?_
  intro ax
  match ax with
  | ⟨0, _⟩ =>
    show c.val = if b = 1 then 0 else c.val
    split
    · have := c.isLt; omega
    · rfl

/-- A scalar constant broadcast to any shape reads, at every index, the extended real its word denotes. -/
theorem scalar_broadcastInDim_apply {t : Shape} (w : BitVec 32)
    (h : (⟨0, ![]⟩ : Shape).BroadcastsInDim t (![] : Fin 0 → Fin t.rank)) (j : t.Idx) :
    broadcastInDim t ![] h (constant (F := Ideal) (⟨0, ![]⟩ : Shape) .f32 w) j = Ideal.ofBits .f32 w := rfl

/-- A kernel's splat of a scalar constant reads, at every index, the extended real its word denotes. -/
theorem scalar_broadcast_apply {t : Shape} (w : BitVec 32) (j : t.Idx) :
    broadcast t (Scalar.ofBits (F := Ideal) .f32 w) j = Ideal.ofBits .f32 w := rfl

/-! ## The logistic -/

/-- The word of the float one denotes one. -/
theorem ofBits_one_f32 : Ideal.ofBits .f32 0x3F800000#32 = 1 := by
  simp [Ideal.ofBits, Ideal.ieee, -EReal.coe_mul]; norm_num

/-- The quotient the host computes, 1 / (1 + exp(-x)) with the ones spelt as float words, is the logistic. -/
theorem host_logistic (x : EReal) :
    Ideal.div (Ideal.ofBits .f32 0x3F800000#32) (Ideal.ofBits .f32 0x3F800000#32 + Ideal.exp (-x)) = Ideal.logistic x := by
  rw [ofBits_one_f32]; rfl

end Cert.Head

end
-- ==== Proof.HeadKernel.lean ====
/-
  The fused head's body, read at an entry of its output tile.

  The body loads a tile of 256 rows of the incidence matrix and of the node features and the whole of the other
  operands, multiplies the incidence rows by the two edge columns, lays the node features and that product side by
  side, applies a dense layer with a bias and clips at zero, applies a second dense layer with a bias, and applies the
  logistic. Each matrix product accumulates into zero, so at an entry it is the plain sum over the contraction index;
  the biases are spread over the rows. Entry (p, u) of the result is therefore the head's value of row p of the tile.
-/
import proofs.«180717_j87385404604873_2_alg».proof.Proof.Gen.KernelIdeal.Skeleton
import proofs.«180717_j87385404604873_2_alg».proof.Proof.HeadMath
import proofs.«180717_j87385404604873_2_alg».proof.Proof.LibDotRows

noncomputable section

namespace Cert.KernelIdeal.Reg

open Idealize.ShloMosaic Idealize.ShloMosaic.ValueIdx Cert.KernelIdeal Cert.Head Cert.Hand

/-! ## The three matrix products at an entry -/

/-- Incidence rows times the edge columns: entry (p, q) is the sum over the 12288 edges. -/
theorem mm_edge (l : FVec Ideal S256x12288 .f32) (r : FVec Ideal S12288x2 .f32) (p : Fin 256) (q : Fin 2) :
    matmul dot_S256x12288_S12288x2_S256x2_1_0_0_1_n_n none l r (constant (F := Ideal) S256x2 .f32 0x00000000#32) (ix2 p q)
      = ∑ k : Fin 12288, l (ix2 p k) * r (ix2 k q) := by
  refine (Ideal.matmul_constant_zero_apply dot_S256x12288_S12288x2_S256x2_1_0_0_1_n_n none l r (ix2 p q)).trans ?_
  dot_rows dot_S256x12288_S12288x2_S256x2_1_0_0_1_n_n S256x12288 S12288x2 12288

/-- The joined rows times the first weight: entry (p, q) is the sum over the 34 features. -/
theorem mm_dense1 (l : FVec Ideal S256x34 .f32) (r : FVec Ideal S34x12288 .f32) (p : Fin 256) (q : Fin 12288) :
    matmul dot_S256x34_S34x12288_S256x12288_1_0_0_1_n_n none l r (constant (F := Ideal) S256x12288 .f32 0x00000000#32) (ix2 p q)
      = ∑ k : Fin 34, l (ix2 p k) * r (ix2 k q) := by
  refine (Ideal.matmul_constant_zero_apply dot_S256x34_S34x12288_S256x12288_1_0_0_1_n_n none l r (ix2 p q)).trans ?_
  dot_rows dot_S256x34_S34x12288_S256x12288_1_0_0_1_n_n S256x34 S34x12288 34

/-- The hidden rows times the second weight: entry (p, q) is the sum over the 12288 hidden units. -/
theorem mm_dense2 (l : FVec Ideal S256x12288 .f32) (r : FVec Ideal S12288x1 .f32) (p : Fin 256) (q : Fin 1) :
    matmul dot_S256x12288_S12288x1_S256x1_1_0_0_1_n_n none l r (constant (F := Ideal) S256x1 .f32 0x00000000#32) (ix2 p q)
      = ∑ k : Fin 12288, l (ix2 p k) * r (ix2 k q) := by
  refine (Ideal.matmul_constant_zero_apply dot_S256x12288_S12288x1_S256x1_1_0_0_1_n_n none l r (ix2 p q)).trans ?_
  dot_rows dot_S256x12288_S12288x1_S256x1_1_0_0_1_n_n S256x12288 S12288x1 12288

/-! ## The two dense layers at an entry -/

/-- The logistic of a vector at an entry is the logistic of the entry. -/
theorem logistic_apply {s : Shape} {φ : FTy} (a : FVec Ideal s φ) (i : s.Idx) : logistic a i = Ideal.logistic (a i) := rfl

/-- The first dense layer, its bias spread over the rows, clipped at zero. -/
theorem dense1_apply (hc : FVec Ideal S256x34 .f32) (W : FVec Ideal S34x12288 .f32) (b : FVec Ideal S12288 .f32)
    (h1 : S12288.ShapeCasts S1x12288) (h2 : S1x12288.Broadcasts S256x12288) (p : Fin 256) (j : Fin 12288) :
    maximumf
        (addf (matmul dot_S256x34_S34x12288_S256x12288_1_0_0_1_n_n none hc W (constant (F := Ideal) S256x12288 .f32 0x00000000#32))
          (broadcastTo S256x12288 (shapeCast S1x12288 b h1) h2))
        (broadcast S256x12288 (Scalar.ofBits (F := Ideal) .f32 0x00000000#32)) (ix2 p j)
      = max ((∑ k : Fin 34, hc (ix2 p k) * W (ix2 k j)) + b (ix1 j)) 0 := by
  rw [maximumf_apply, addf_apply, mm_dense1, rowCast_broadcastTo_apply, scalar_broadcast_apply, Ideal.ofBits_zero_f32]

/-- The second dense layer, its bias spread over the rows, and the logistic. -/
theorem out_apply (f : FVec Ideal S256x12288 .f32) (W : FVec Ideal S12288x1 .f32) (b : FVec Ideal S1 .f32)
    (h1 : S1.ShapeCasts S1x1) (h2 : S1x1.Broadcasts S256x1) (p : Fin 256) (u : Fin 1) :
    logistic
        (addf (matmul dot_S256x12288_S12288x1_S256x1_1_0_0_1_n_n none f W (constant (F := Ideal) S256x1 .f32 0x00000000#32))
          (broadcastTo S256x1 (shapeCast S1x1 b h1) h2)) (ix2 p u)
      = Ideal.logistic ((∑ j : Fin 12288, f (ix2 p j) * W (ix2 j u)) + b (ix1 (0 : Fin 1))) := by
  rw [logistic_apply, addf_apply, mm_dense2, rowCast_broadcastTo_apply]
  have hu : u = 0 := Subsingleton.elim _ _
  rw [hu]

/-! ## The body's result at an entry -/

/-- Entry (p, u) of the body's result is the head's value of row p of the loaded tile. -/
theorem pay_apply (x0 : Vec Ideal S256x12288 .f32) (x1 : Vec Ideal S12288x2 .f32) (x2 : Vec Ideal S256x32 .f32)
    (x3 : Vec Ideal S34x12288 .f32) (x4 : Vec Ideal S12288 .f32) (x5 : Vec Ideal S12288x1 .f32) (x6 : Vec Ideal S1 .f32)
    (p : Fin 256) (u : Fin 1) :
    Gen.k4_pay1 (F := Ideal) x0 x1 x2 x3 x4 x5 x6 (ix2 p u)
      = headAt (fun e => x0 (ix2 p e)) x1 (fun k => x2 (ix2 p k)) x3 x4 x5 x6 u := by
  unfold Gen.k4_pay1
  simp only [shapeCast_self]
  refine (out_apply _ _ _ _ _ p u).trans ?_
  unfold headAt headRow
  refine congrArg Ideal.logistic (congrArg (· + x6 (ix1 (0 : Fin 1))) (Finset.sum_congr rfl fun j _ => ?_))
  refine congrArg (· * x5 (ix2 j u)) ?_
  refine (dense1_apply _ _ _ _ _ p j).trans ?_
  refine congrArg (fun s => max (s + x4 (ix1 j)) 0) (Finset.sum_congr rfl fun k _ => ?_)
  refine congrArg (· * x3 (ix2 k j)) ?_
  refine (concat_32_2_apply _ _ _ p k).trans ?_
  refine congrArg₂ (fun f g => joinRow f g k) (funext fun k' => congrFun (shapeCast_self x2 _) (ix2 p k'))
    (funext fun q => ?_)
  refine (mm_edge x0 _ p q).trans ?_
  exact Finset.sum_congr rfl fun e _ => congrArg (x0 (ix2 p e) * ·) (congrFun (shapeCast_self x1 _) (ix2 e q))

end Cert.KernelIdeal.Reg

end
-- ==== Proof.HeadSpec.lean ====
/-
  The head as the host's operations compute it, read at an entry.

  The same chain over all 6144 rows: the incidence matrix times the two edge columns, laid beside the node features,
  a dense layer with its bias spread over the rows and clipped at zero, a second dense layer with its bias, and the
  quotient 1 / (1 + exp(-x)). A host product has no accumulator, so at an entry it is the plain sum over the
  contraction index. Entry (i, u) of the result is therefore the head's value of row i.
-/
import proofs.«180717_j87385404604873_2_alg».proof.Proof.Spec
import proofs.«180717_j87385404604873_2_alg».proof.Proof.Gen.ReferenceIdeal
import proofs.«180717_j87385404604873_2_alg».proof.Proof.HeadMath
import proofs.«180717_j87385404604873_2_alg».proof.Proof.LibDotRows

noncomputable section

namespace Cert.Spec

open Idealize.ShloMosaic Idealize.ShloMosaic.ValueIdx Cert.ReferenceIdeal Cert.Head Cert.Hand

/-! ## The three matrix products at an entry -/

/-- The incidence matrix times the edge columns: entry (p, q) is the sum over the 12288 edges. -/
theorem dg_edge (l : FVec Ideal S6144x12288 .f32) (r : FVec Ideal S12288x2 .f32) (p : Fin 6144) (q : Fin 2) :
    Host.dotGeneral dot_S6144x12288_S12288x2_S6144x2_1_0_0_1_n_n none l r (ix2 p q)
      = ∑ k : Fin 12288, l (ix2 p k) * r (ix2 k q) := by
  refine (Ideal.dotGeneral_apply dot_S6144x12288_S12288x2_S6144x2_1_0_0_1_n_n none .single l r (ix2 p q)).trans ?_
  dot_rows dot_S6144x12288_S12288x2_S6144x2_1_0_0_1_n_n S6144x12288 S12288x2 12288

/-- The joined rows times the first weight: entry (p, q) is the sum over the 34 features. -/
theorem dg_dense1 (l : FVec Ideal S6144x34 .f32) (r : FVec Ideal S34x12288 .f32) (p : Fin 6144) (q : Fin 12288) :
    Host.dotGeneral dot_S6144x34_S34x12288_S6144x12288_1_0_0_1_n_n none l r (ix2 p q)
      = ∑ k : Fin 34, l (ix2 p k) * r (ix2 k q) := by
  refine (Ideal.dotGeneral_apply dot_S6144x34_S34x12288_S6144x12288_1_0_0_1_n_n none .single l r (ix2 p q)).trans ?_
  dot_rows dot_S6144x34_S34x12288_S6144x12288_1_0_0_1_n_n S6144x34 S34x12288 34

/-- The hidden rows times the second weight: entry (p, q) is the sum over the 12288 hidden units. -/
theorem dg_dense2 (l : FVec Ideal S6144x12288 .f32) (r : FVec Ideal S12288x1 .f32) (p : Fin 6144) (q : Fin 1) :
    Host.dotGeneral dot_S6144x12288_S12288x1_S6144x1_1_0_0_1_n_n none l r (ix2 p q)
      = ∑ k : Fin 12288, l (ix2 p k) * r (ix2 k q) := by
  refine (Ideal.dotGeneral_apply dot_S6144x12288_S12288x1_S6144x1_1_0_0_1_n_n none .single l r (ix2 p q)).trans ?_
  dot_rows dot_S6144x12288_S12288x1_S6144x1_1_0_0_1_n_n S6144x12288 S12288x1 12288

/-! ## The two dense layers and the last step at an entry -/

/-- The first dense layer, its bias spread over the rows, clipped at zero. -/
theorem dense1_apply (hc : FVec Ideal S6144x34 .f32) (W : FVec Ideal S34x12288 .f32) (b : FVec Ideal S12288 .f32)
    (h1 : S12288.BroadcastsInDim S1x12288 ![1]) (h2 : S1x12288.BroadcastsInDim S6144x12288 ![0, 1])
    (h0 : S_.BroadcastsInDim S6144x12288 ![]) (p : Fin 6144) (j : Fin 12288) :
    maximumf
        (addf (Host.dotGeneral dot_S6144x34_S34x12288_S6144x12288_1_0_0_1_n_n none hc W)
          (broadcastInDim S6144x12288 ![0, 1] h2 (broadcastInDim S1x12288 ![1] h1 b)))
        (broadcastInDim S6144x12288 ![] h0 (constant (F := Ideal) S_ .f32 0x00000000#32)) (ix2 p j)
      = max ((∑ k : Fin 34, hc (ix2 p k) * W (ix2 k j)) + b (ix1 j)) 0 := by
  rw [maximumf_apply, addf_apply, dg_dense1, rowBcast_broadcastInDim_apply, scalar_broadcastInDim_apply, Ideal.ofBits_zero_f32]

/-- The quotient 1 / (1 + exp(-x)) at an entry is the logistic of the entry. -/
theorem sigmoidHost_apply (o : FVec Ideal S6144x1 .f32) (i : S6144x1.Idx) :
    sigmoidHost o i = Ideal.logistic (o i) :=
  host_logistic (o i)

/-- The second dense layer with its bias spread over the rows, at an entry. -/
theorem dense2_apply (f : FVec Ideal S6144x12288 .f32) (W : FVec Ideal S12288x1 .f32) (b : FVec Ideal S1 .f32)
    (h1 : S1.BroadcastsInDim S1x1 ![1]) (h2 : S1x1.BroadcastsInDim S6144x1 ![0, 1]) (p : Fin 6144) (u : Fin 1) :
    addf (Host.dotGeneral dot_S6144x12288_S12288x1_S6144x1_1_0_0_1_n_n none f W)
        (broadcastInDim S6144x1 ![0, 1] h2 (broadcastInDim S1x1 ![1] h1 b)) (ix2 p u)
      = (∑ j : Fin 12288, f (ix2 p j) * W (ix2 j u)) + b (ix1 (0 : Fin 1)) := by
  rw [addf_apply, dg_dense2, rowBcast_broadcastInDim_apply]
  have hu : u = 0 := Subsingleton.elim _ _
  rw [hu]

/-! ## The head at an entry -/

/-- Entry (i, u) of the head is the head's value of row i of the arrays. -/
theorem headCore_apply (B1 : FVec Ideal S6144x12288 .f32) (Zcat : FVec Ideal S12288x2 .f32) (Hn : FVec Ideal S6144x32 .f32)
    (W1t : FVec Ideal S34x12288 .f32) (b1 : FVec Ideal S12288 .f32) (W2t : FVec Ideal S12288x1 .f32) (b2 : FVec Ideal S1 .f32)
    (i : Fin 6144) (u : Fin 1) :
    headCore B1 Zcat Hn W1t b1 W2t b2 (ix2 i u)
      = headAt (fun e => B1 (ix2 i e)) Zcat (fun k => Hn (ix2 i k)) W1t b1 W2t b2 u := by
  unfold headCore headPre
  refine (sigmoidHost_apply _ _).trans ?_
  unfold headAt headRow
  refine congrArg Ideal.logistic ?_
  refine (dense2_apply _ _ _ _ _ i u).trans ?_
  refine congrArg (· + b2 (ix1 (0 : Fin 1))) (Finset.sum_congr rfl fun j _ => ?_)
  refine congrArg (· * W2t (ix2 j u)) ?_
  refine (dense1_apply _ _ _ _ _ _ i j).trans ?_
  refine congrArg (fun s => max (s + b1 (ix1 j)) 0) (Finset.sum_congr rfl fun k _ => ?_)
  refine congrArg (· * W1t (ix2 k j)) ?_
  refine (concat_32_2_apply _ _ _ i k).trans ?_
  refine congrArg (fun g => joinRow (fun k' => Hn (ix2 i k')) g k) (funext fun q => ?_)
  exact dg_edge B1 Zcat i q

end Cert.Spec

end
-- ==== Proof.RegHead.lean ====
/-
  The fused head's region: the output array after all grid points.

  The grid has 24 points; point t loads rows 256·t … 256·t + 255 of the incidence matrix and of the node features and
  the whole of every other operand, and stores the body's result as rows 256·t … 256·t + 255 of the output column.
  Entry (p, u) of what point t stores is the head's value of row p of its tiles, which is the head's value of row
  256·t + p of the arrays, which is entry (256·t + p, u) of the head computed on the whole arrays. The 24 blocks of
  256 rows cover the 6144 rows (row r lies in block r / 256), so the output array ends as the head of the arrays the
  region found.
-/
import proofs.«180717_j87385404604873_2_alg».proof.Proof.Gen.KernelIdeal.Frame
import proofs.«180717_j87385404604873_2_alg».proof.Proof.Gen.ReferenceIdeal
import proofs.«180717_j87385404604873_2_alg».proof.Proof.Spec
import proofs.«180717_j87385404604873_2_alg».proof.Proof.HeadKernel
import proofs.«180717_j87385404604873_2_alg».proof.Proof.HeadSpec
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx Cert.Head

variable (V : (c : Dev nD) → (b : Ref sig .tc) → Buf (Elt Ideal) ((c : Thread nD τ).loc b))

/-! ## The index maps over the grid -/

theorem zeroOff1 : (![0] : Fin 1 → Nat) = fun _ => 0 := funext fun a => by fin_cases a; rfl

theorem zeroOff2' : (![0, 0] : Fin 2 → Nat) = fun _ => 0 := funext fun a => by fin_cases a <;> rfl

/-- The block indices at point t: the incidence rows, the node features and the output move with t along the rows;
    every other operand stays at its one block. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = t.val ∧ win4_7.index t (1 : Fin 2) = 0 :=
  (by decide +kernel : ∀ t : Fin grid4.N, _)

/-! ## The operands' blocks at a point, read off the arrays -/

/-- Row p of the incidence tile at point t is row 256·t + p of the incidence matrix. -/
theorem blk0_apply (c : Dev nD) (t : Fin cfg4.N) (p : Fin 256) (i : Fin 6144) (hi : i.val = 256 * t.val + p.val) (e : Fin 12288) :
    (iblk4 V c 0 t : Vec Ideal S256x12288 .f32) (ix2 p e) = (V c main_arg4 : Vec Ideal S6144x12288 .f32) (ix2 i e) := by
  obtain ⟨e0, e1, -⟩ := idx_facts4 t
  show V c main_arg4 (((cfg4.win 0).blk t).view.emb (ix2 p e)) = _
  refine congrArg (V c main_arg4) (funext fun a => Fin.ext ?_)
  match a with
  | ⟨0, _⟩ => show win4_0.index t (0 : Fin 2) * 256 + 1 * p.val = i.val; rw [e0]; omega
  | ⟨1, _⟩ => show win4_0.index t (1 : Fin 2) * 12288 + 1 * e.val = e.val; rw [e1]; omega

/-- Row p of the node-feature tile at point t is row 256·t + p of the node features. -/
theorem blk2_apply (c : Dev nD) (t : Fin cfg4.N) (p : Fin 256) (i : Fin 6144) (hi : i.val = 256 * t.val + p.val) (k : Fin 32) :
    (iblk4 V c 2 t : Vec Ideal S256x32 .f32) (ix2 p k) = (V c main_v3 : Vec Ideal S6144x32 .f32) (ix2 i k) := by
  obtain ⟨-, -, -, -, e0, e1, -⟩ := idx_facts4 t
  show V c main_v3 (((cfg4.win 2).blk t).view.emb (ix2 p k)) = _
  refine congrArg (V c main_v3) (funext fun a => Fin.ext ?_)
  match a with
  | ⟨0, _⟩ => show win4_2.index t (0 : Fin 2) * 256 + 1 * p.val = i.val; rw [e0]; omega
  | ⟨1, _⟩ => show win4_2.index t (1 : Fin 2) * 32 + 1 * k.val = k.val; rw [e1]; omega

/-- The edge columns' one block is the whole array. -/
theorem blk1_eq (c : Dev nD) (t : Fin cfg4.N) :
    (iblk4 V c 1 t : Vec Ideal S12288x2 .f32) = (V c main_v60 : Vec Ideal S12288x2 .f32) := by
  obtain ⟨-, -, e0, e1, -⟩ := idx_facts4 t
  funext j
  show V c main_v60 (((cfg4.win 1).blk t).view.emb j) = V c main_v60 j
  refine congrArg (V c main_v60) (funext fun a => Fin.ext ?_)
  match a with
  | ⟨0, _⟩ => show win4_1.index t (0 : Fin 2) * 12288 + 1 * (j 0).val = (j 0).val; rw [e0]; omega
  | ⟨1, _⟩ => show win4_1.index t (1 : Fin 2) * 2 + 1 * (j 1).val = (j 1).val; rw [e1]; omega

/-- The first weight's one block is the whole array. -/
theorem blk3_eq (c : Dev nD) (t : Fin cfg4.N) :
    (iblk4 V c 3 t : Vec Ideal S34x12288 .f32) = (V c main_v61 : Vec Ideal S34x12288 .f32) := by
  obtain ⟨-, -, -, -, -, -, e0, e1, -⟩ := idx_facts4 t
  funext j
  show V c main_v61 (((cfg4.win 3).blk t).view.emb j) = V c main_v61 j
  refine congrArg (V c main_v61) (funext fun a => Fin.ext ?_)
  match a with
  | ⟨0, _⟩ => show win4_3.index t (0 : Fin 2) * 34 + 1 * (j 0).val = (j 0).val; rw [e0]; omega
  | ⟨1, _⟩ => show win4_3.index t (1 : Fin 2) * 12288 + 1 * (j 1).val = (j 1).val; rw [e1]; omega

/-- The first bias's one block is the whole vector. -/
theorem blk4_eq (c : Dev nD) (t : Fin cfg4.N) :
    (iblk4 V c 4 t : Vec Ideal S12288 .f32) = (V c main_arg18 : Vec Ideal S12288 .f32) := by
  obtain ⟨-, -, -, -, -, -, -, -, e0, -⟩ := idx_facts4 t
  funext j
  show V c main_arg18 (((cfg4.win 4).blk t).view.emb j) = V c main_arg18 j
  refine congrArg (V c main_arg18) (funext fun a => Fin.ext ?_)
  match a with
  | ⟨0, _⟩ => show win4_4.index t (0 : Fin 1) * 12288 + 1 * (j 0).val = (j 0).val; rw [e0]; omega

/-- The second weight's one block is the whole array. -/
theorem blk5_eq (c : Dev nD) (t : Fin cfg4.N) :
    (iblk4 V c 5 t : Vec Ideal S12288x1 .f32) = (V c main_v62 : Vec Ideal S12288x1 .f32) := by
  obtain ⟨-, -, -, -, -, -, -, -, -, e0, e1, -⟩ := idx_facts4 t
  funext j
  show V c main_v62 (((cfg4.win 5).blk t).view.emb j) = V c main_v62 j
  refine congrArg (V c main_v62) (funext fun a => Fin.ext ?_)
  match a with
  | ⟨0, _⟩ => show win4_5.index t (0 : Fin 2) * 12288 + 1 * (j 0).val = (j 0).val; rw [e0]; omega
  | ⟨1, _⟩ => show win4_5.index t (1 : Fin 2) * 1 + 1 * (j 1).val = (j 1).val; rw [e1]; omega

/-- The second bias's one block is the whole vector. -/
theorem blk6_eq (c : Dev nD) (t : Fin cfg4.N) :
    (iblk4 V c 6 t : Vec Ideal S1 .f32) = (V c main_arg20 : Vec Ideal S1 .f32) := by
  obtain ⟨-, -, -, -, -, -, -, -, -, -, -, e0, -⟩ := idx_facts4 t
  funext j
  show V c main_arg20 (((cfg4.win 6).blk t).view.emb j) = V c main_arg20 j
  refine congrArg (V c main_arg20) (funext fun a => Fin.ext ?_)
  match a with
  | ⟨0, _⟩ => show win4_6.index t (0 : Fin 1) * 1 + 1 * (j 0).val = (j 0).val; rw [e0]; omega

/-! ## What a point stores -/

/-- The head's value of a row depends only on the row's entries and the other operands. -/
theorem headAt_congr {B B' : Fin 12288 → EReal} {Z Z' : (⟨2, ![12288, 2]⟩ : Shape).Idx → EReal} {H H' : Fin 32 → EReal}
    {W1 W1' : (⟨2, ![34, 12288]⟩ : Shape).Idx → EReal} {b1 b1' : (⟨1, ![12288]⟩ : Shape).Idx → EReal}
    {W2 W2' : (⟨2, ![12288, 1]⟩ : Shape).Idx → EReal} {b2 b2' : (⟨1, ![1]⟩ : Shape).Idx → EReal}
    (hB : B = B') (hZ : Z = Z') (hH : H = H') (hW1 : W1 = W1') (hb1 : b1 = b1') (hW2 : W2 = W2') (hb2 : b2 = b2') (u : Fin 1) :
    headAt B Z H W1 b1 W2 b2 u = headAt B' Z' H' W1' b1' W2' b2' u := by
  rw [hB, hZ, hH, hW1, hb1, hW2, hb2]

/-- The head of the arrays the region found. -/
abbrev headOf (c : Dev nD) : Vec Ideal S6144x1 .f32 :=
  Cert.Spec.headCore (F := Ideal) (V c main_arg4) (V c main_v60) (V c main_v3) (V c main_v61) (V c main_arg18) (V c main_v62) (V c main_arg20)

/-- What point t writes back is block t of the head of the arrays. -/
theorem flushed_eq (c : Dev nD) (t : Fin cfg4.N) :
    (dat4 (F := Ideal) V c).flushed 7 t = ((cfg4.win 7).blk t).view.read (Elt Ideal) (headOf V c) := by
  show (cfg4.win 7).cut (grid4.coords t) ((dat4 V c).after 7 t) = _
  rw [after4_7]
  unfold out4_7
  rw [View.canon_unit_zero zeroOff2']
  simp only [View.ld_unit_zero (S := S256x12288) zeroOff2', View.ld_unit_zero (S := S12288x2) zeroOff2',
    View.ld_unit_zero (S := S256x32) zeroOff2', View.ld_unit_zero (S := S34x12288) zeroOff2',
    View.ld_unit_zero (S := S12288) zeroOff1, View.ld_unit_zero (S := S12288x1) zeroOff2',
    View.ld_unit_zero (S := S1) zeroOff1]
  obtain ⟨-, -, -, -, -, -, -, -, -, -, -, -, e0, e1⟩ := idx_facts4 t
  funext y
  have hy0 : (y 0).val < 256 := (y 0).isLt
  have hy1 : (y 1).val < 1 := (y 1).isLt
  have ht : t.val < 24 := lt_of_lt_of_eq t.isLt N_4
  have hlhs : (cfg4.win 7).xinj (grid4.coords t) y = ix2 (⟨(y 0).val, hy0⟩ : Fin 256) (⟨(y 1).val, hy1⟩ : Fin 1) :=
    funext fun a => Fin.ext (by
      match a with
      | ⟨0, _⟩ => rfl
      | ⟨1, _⟩ => rfl)
  have hrhs : ((cfg4.win 7).blk t).view.emb y
      = ix2 (⟨256 * t.val + (y 0).val, by omega⟩ : Fin 6144) (⟨(y 1).val, hy1⟩ : Fin 1) :=
    funext fun a => Fin.ext (by
      match a with
      | ⟨0, _⟩ => show win4_7.index t (0 : Fin 2) * 256 + 1 * (y 0).val = 256 * t.val + (y 0).val; rw [e0]; omega
      | ⟨1, _⟩ => show win4_7.index t (1 : Fin 2) * 1 + 1 * (y 1).val = (y 1).val; rw [e1]; omega)
  show k4_pay1 (iblk4 V c 0 t) (iblk4 V c 1 t) (iblk4 V c 2 t) (iblk4 V c 3 t) (iblk4 V c 4 t) (iblk4 V c 5 t) (iblk4 V c 6 t)
      ((cfg4.win 7).xinj (grid4.coords t) y) = headOf V c (((cfg4.win 7).blk t).view.emb y)
  rw [hlhs, hrhs]
  refine (pay_apply (iblk4 V c 0 t) (iblk4 V c 1 t) (iblk4 V c 2 t) (iblk4 V c 3 t) (iblk4 V c 4 t) (iblk4 V c 5 t)
    (iblk4 V c 6 t) _ _).trans ?_
  refine Eq.trans ?_ (Cert.Spec.headCore_apply (V c main_arg4) (V c main_v60) (V c main_v3) (V c main_v61) (V c main_arg18)
    (V c main_v62) (V c main_arg20) _ _).symm
  exact headAt_congr (funext fun e => blk0_apply V c t _ _ rfl e) (blk1_eq V c t) (funext fun k => blk2_apply V c t _ _ rfl k)
    (blk3_eq V c t) (blk4_eq V c t) (blk5_eq V c t) (blk6_eq V c t) _

/-! ## The blocks cover the array -/

/-- A row index is in point t's block iff it lies in the block's 256 rows. -/
theorem mem_blk (t : Fin cfg4.N) (i : S6144x1.Idx) :
    i ∈ ((cfg4.win 7).blk t).view.set ↔ ∀ a : Fin 2, win4_7.index t a * S256x1.size a ≤ (i a).val
      ∧ (i a).val < win4_7.index t a * S256x1.size a + S256x1.size a := by
  show i ∈ ((View.whole main_v63).slice (win4_7.rect t)).set ↔ _
  rw [View.set_slice_whole, Rect.mem_set_unit]
  exact Iff.rfl

/-- Row r lies in the block of point r / 256. -/
theorem cover (i : S6144x1.Idx) : ∃ t : Fin cfg4.N, (cfg4.win 7).flush t = true ∧ i ∈ ((cfg4.win 7).blk t).view.set := by
  have hi0 : (i 0).val < 6144 := (i 0).isLt
  have hi1 : (i 1).val < 1 := (i 1).isLt
  obtain ⟨t, ht⟩ : ∃ t : Fin cfg4.N, t.val = (i 0).val / 256 :=
    ⟨⟨(i 0).val / 256, lt_of_lt_of_eq (show (i 0).val / 256 < 24 by omega) N_4.symm⟩, rfl⟩
  obtain ⟨-, -, -, -, -, -, -, -, -, -, -, -, e0, e1⟩ := idx_facts4 t
  refine ⟨t, flush4_7 t, ?_⟩
  rw [mem_blk]
  intro a
  match a with
  | ⟨0, _⟩ =>
    show win4_7.index t (0 : Fin 2) * 256 ≤ (i 0).val ∧ (i 0).val < win4_7.index t (0 : Fin 2) * 256 + 256
    rw [e0, ht]; omega
  | ⟨1, _⟩ =>
    show win4_7.index t (1 : Fin 2) * 1 ≤ (i 1).val ∧ (i 1).val < win4_7.index t (1 : Fin 2) * 1 + 1
    rw [e1]; omega

/-! ## The output array after the region -/

/-- After all 24 points the output column is the head of the arrays the region found. -/
theorem final4 (c : Dev nD) : (dat4 (F := Ideal) V c).arrAt 7 cfg4.N
    = Cert.Spec.headCore (F := Ideal) (V c main_arg4) (V c main_v60) (V c main_v3) (V c main_v61) (V c main_arg18) (V c main_v62) (V c main_arg20) :=
  (dat4 V c).arrAt_eq_of_cover 7 (headOf V c) (fun t _ => flushed_eq V c t) cover

end Cert.KernelIdeal.Reg

end
-- ==== Proof.KValue.lean ====
/-
  The value of the idealized kernel program's result.

  Following the boundaries of the program from the launch: each kernel region leaves in its output array the
  whole-array function its grid points compute block by block, each host stretch applies its operations, and what a
  later step reads has been left alone in between. Composing these, the result buffer ends holding the network's
  output as a function of the launch contents of the twenty-one arguments.
-/
import proofs.«180717_j87385404604873_2_alg».proof.Proof.Gen.KernelIdeal.Frame
import proofs.«180717_j87385404604873_2_alg».proof.Proof.Gen.ReferenceIdeal
import proofs.«180717_j87385404604873_2_alg».proof.Proof.Spec
import proofs.«180717_j87385404604873_2_alg».proof.Proof.KKeep
import proofs.«180717_j87385404604873_2_alg».proof.Proof.KHost
import proofs.«180717_j87385404604873_2_alg».proof.Proof.RegGnn
import proofs.«180717_j87385404604873_2_alg».proof.Proof.RegMat
import proofs.«180717_j87385404604873_2_alg».proof.Proof.RegHead

set_option maxRecDepth 16384

noncomputable section

namespace Cert.KernelIdeal.KValue

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg) (c : Dev nD)

/-- After the first node layer: relu((A·Xn)·W0ᵀ + b0). -/
theorem v1_W2 : W2 m ρ c (Proc.devRef .tc main_v1) = Cert.Spec.gnnCore (F := Ideal) (m ((c : Thread nD τ).loc main_arg2)) (m ((c : Thread nD τ).loc main_arg0)) (Cert.Spec.wT32 (m ((c : Thread nD τ).loc main_arg5))) (m ((c : Thread nD τ).loc main_arg6)) := by
  refine (W2_arr m ρ c 4).trans ((Reg.final0 (V1 m ρ) c).trans ?_)
  have e2 : V1 m ρ c main_arg2 = (m ((c : Thread nD τ).loc main_arg2)) := KKeep.a2_W1 m ρ c
  have e0 : V1 m ρ c main_arg0 = (m ((c : Thread nD τ).loc main_arg0)) := KKeep.a0_W1 m ρ c
  have e6 : V1 m ρ c main_arg6 = (m ((c : Thread nD τ).loc main_arg6)) := KKeep.a6_W1 m ρ c
  have ew : V1 m ρ c main_v0 = Cert.Spec.wT32 (F := Ideal) (m ((c : Thread nD τ).loc main_arg5)) := KHost.wt0 (W0 m ρ c)
  rw [e2, e0, e6, ew]

/-- After the second node layer. -/
theorem v3_W4 : W4 m ρ c (Proc.devRef .tc main_v3) = Cert.Spec.nodes (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) := by
  refine (W4_arr m ρ c 4).trans ((Reg.final1 (V3 m ρ) c).trans ?_)
  have e2 : V3 m ρ c main_arg2 = (m ((c : Thread nD τ).loc main_arg2)) := KKeep.a2_W3 m ρ c
  have e1 : V3 m ρ c main_v1 = Cert.Spec.gnnCore (F := Ideal) (m ((c : Thread nD τ).loc main_arg2)) (m ((c : Thread nD τ).loc main_arg0)) (Cert.Spec.wT32 (m ((c : Thread nD τ).loc main_arg5))) (m ((c : Thread nD τ).loc main_arg6)) :=
    (KKeep.v1_W3 m ρ c).trans (v1_W2 m ρ c)
  have e8 : V3 m ρ c main_arg8 = (m ((c : Thread nD τ).loc main_arg8)) := KKeep.a8_W3 m ρ c
  have ew : V3 m ρ c main_v2 = Cert.Spec.wT32 (F := Ideal) (m ((c : Thread nD τ).loc main_arg7)) :=
    (KHost.wt1 (W2 m ρ c)).trans (congrArg (Cert.Spec.wT32 (F := Ideal)) (KKeep.a7_W2 m ρ c))
  rw [e2, e1, e8, ew]
  rfl

/-- After the first product with the edge Laplacian. -/
theorem v9_W6 : W6 m ρ c (Proc.devRef .tc main_v9) = Cert.Spec.lconv (F := Ideal) (m ((c : Thread nD τ).loc main_arg3)) (Cert.Spec.theta0 (m ((c : Thread nD τ).loc main_arg1)) (m ((c : Thread nD τ).loc main_arg9)) (m ((c : Thread nD τ).loc main_arg10))) := by
  refine (W6_arr m ρ c 2).trans ((Reg.final2 (V5 m ρ) c).trans ?_)
  have e3 : V5 m ρ c main_arg3 = (m ((c : Thread nD τ).loc main_arg3)) := KKeep.a3_W5 m ρ c
  have e8 : V5 m ρ c main_v8 = Cert.Spec.theta0 (F := Ideal) (m ((c : Thread nD τ).loc main_arg1)) (m ((c : Thread nD τ).loc main_arg9)) (m ((c : Thread nD τ).loc main_arg10)) := by
    refine (KHost.th0 (W4 m ρ c)).trans ?_
    rw [KKeep.a1_W4 m ρ c, KKeep.a9_W4 m ρ c, KKeep.a10_W4 m ρ c]
  rw [e3, e8]

/-- The first edge layer's column. -/
theorem v31_W11 : W11 m ρ c (Proc.devRef .tc main_v31) = Cert.Spec.edge0 (F := Ideal) (m ((c : Thread nD τ).loc main_arg1)) (m ((c : Thread nD τ).loc main_arg3)) (m ((c : Thread nD τ).loc main_arg9)) (m ((c : Thread nD τ).loc main_arg10)) (m ((c : Thread nD τ).loc main_arg11)) (m ((c : Thread nD τ).loc main_arg12)) := by
  refine (KHost.col0 (W6 m ρ c)).trans ?_
  rw [v9_W6 m ρ c, KKeep.a11_W6 m ρ c, KKeep.a12_W6 m ρ c]
  rfl

/-- The second edge layer's linear map of it. -/
theorem v36_W11 : W11 m ρ c (Proc.devRef .tc main_v36)
    = Cert.Spec.theta1 (F := Ideal) (Cert.Spec.edge0 (m ((c : Thread nD τ).loc main_arg1)) (m ((c : Thread nD τ).loc main_arg3)) (m ((c : Thread nD τ).loc main_arg9)) (m ((c : Thread nD τ).loc main_arg10)) (m ((c : Thread nD τ).loc main_arg11)) (m ((c : Thread nD τ).loc main_arg12))) (m ((c : Thread nD τ).loc main_arg13)) (m ((c : Thread nD τ).loc main_arg14)) := by
  refine (KHost.th1 (W6 m ρ c)).trans ?_
  rw [v9_W6 m ρ c, KKeep.a11_W6 m ρ c, KKeep.a12_W6 m ρ c, KKeep.a13_W6 m ρ c, KKeep.a14_W6 m ρ c]
  rfl

/-- After the second product with the edge Laplacian. -/
theorem v37_W12 : W12 m ρ c (Proc.devRef .tc main_v37)
    = Cert.Spec.lconv (F := Ideal) (m ((c : Thread nD τ).loc main_arg3)) (Cert.Spec.theta1 (Cert.Spec.edge0 (m ((c : Thread nD τ).loc main_arg1)) (m ((c : Thread nD τ).loc main_arg3)) (m ((c : Thread nD τ).loc main_arg9)) (m ((c : Thread nD τ).loc main_arg10)) (m ((c : Thread nD τ).loc main_arg11)) (m ((c : Thread nD τ).loc main_arg12))) (m ((c : Thread nD τ).loc main_arg13)) (m ((c : Thread nD τ).loc main_arg14))) := by
  refine (W12_arr m ρ c 2).trans ((Reg.final3 (V11 m ρ) c).trans ?_)
  have e3 : V11 m ρ c main_arg3 = (m ((c : Thread nD τ).loc main_arg3)) := KKeep.a3_W11 m ρ c
  have e36 := v36_W11 m ρ c
  rw [e3, show V11 m ρ c main_v36 = _ from e36]

/-- The two edge columns side by side. -/
theorem v60_W17 : W17 m ρ c (Proc.devRef .tc main_v60)
    = Cert.Spec.zcat (F := Ideal) (Cert.Spec.edge0 (m ((c : Thread nD τ).loc main_arg1)) (m ((c : Thread nD τ).loc main_arg3)) (m ((c : Thread nD τ).loc main_arg9)) (m ((c : Thread nD τ).loc main_arg10)) (m ((c : Thread nD τ).loc main_arg11)) (m ((c : Thread nD τ).loc main_arg12)))
        (Cert.Spec.edge1 (Cert.Spec.edge0 (m ((c : Thread nD τ).loc main_arg1)) (m ((c : Thread nD τ).loc main_arg3)) (m ((c : Thread nD τ).loc main_arg9)) (m ((c : Thread nD τ).loc main_arg10)) (m ((c : Thread nD τ).loc main_arg11)) (m ((c : Thread nD τ).loc main_arg12))) (m ((c : Thread nD τ).loc main_arg3)) (m ((c : Thread nD τ).loc main_arg13)) (m ((c : Thread nD τ).loc main_arg14)) (m ((c : Thread nD τ).loc main_arg15)) (m ((c : Thread nD τ).loc main_arg16))) := by
  refine (KHost.cat (W12 m ρ c)).trans ?_
  rw [(KKeep.v31_W12 m ρ c).trans (v31_W11 m ρ c), v37_W12 m ρ c, KKeep.a15_W12 m ρ c, KKeep.a16_W12 m ρ c]
  rfl

/-- The head's output column. -/
theorem v63_W18 : W18 m ρ c (Proc.devRef .tc main_v63)
    = Cert.Spec.headCore (F := Ideal) (m ((c : Thread nD τ).loc main_arg4))
        (Cert.Spec.zcat (Cert.Spec.edge0 (m ((c : Thread nD τ).loc main_arg1)) (m ((c : Thread nD τ).loc main_arg3)) (m ((c : Thread nD τ).loc main_arg9)) (m ((c : Thread nD τ).loc main_arg10)) (m ((c : Thread nD τ).loc main_arg11)) (m ((c : Thread nD τ).loc main_arg12)))
          (Cert.Spec.edge1 (Cert.Spec.edge0 (m ((c : Thread nD τ).loc main_arg1)) (m ((c : Thread nD τ).loc main_arg3)) (m ((c : Thread nD τ).loc main_arg9)) (m ((c : Thread nD τ).loc main_arg10)) (m ((c : Thread nD τ).loc main_arg11)) (m ((c : Thread nD τ).loc main_arg12))) (m ((c : Thread nD τ).loc main_arg3)) (m ((c : Thread nD τ).loc main_arg13)) (m ((c : Thread nD τ).loc main_arg14)) (m ((c : Thread nD τ).loc main_arg15)) (m ((c : Thread nD τ).loc main_arg16))))
        (Cert.Spec.nodes (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)))
        (Cert.Spec.w1T (m ((c : Thread nD τ).loc main_arg17))) (m ((c : Thread nD τ).loc main_arg18)) (Cert.Spec.w2T (m ((c : Thread nD τ).loc main_arg19))) (m ((c : Thread nD τ).loc main_arg20)) := by
  refine (W18_arr m ρ c 7).trans ((Reg.final4 (V17 m ρ) c).trans ?_)
  have e4 : V17 m ρ c main_arg4 = (m ((c : Thread nD τ).loc main_arg4)) := KKeep.a4_W17 m ρ c
  have e60 := v60_W17 m ρ c
  have e3 : V17 m ρ c main_v3 = _ := (KKeep.v3_W17 m ρ c).trans (v3_W4 m ρ c)
  have e61 : V17 m ρ c main_v61 = Cert.Spec.w1T (F := Ideal) (m ((c : Thread nD τ).loc main_arg17)) :=
    (KHost.hw1 (W12 m ρ c)).trans (congrArg (Cert.Spec.w1T (F := Ideal)) (KKeep.a17_W12 m ρ c))
  have e18 : V17 m ρ c main_arg18 = (m ((c : Thread nD τ).loc main_arg18)) := KKeep.a18_W17 m ρ c
  have e62 : V17 m ρ c main_v62 = Cert.Spec.w2T (F := Ideal) (m ((c : Thread nD τ).loc main_arg19)) :=
    (KHost.hw2 (W12 m ρ c)).trans (congrArg (Cert.Spec.w2T (F := Ideal)) (KKeep.a19_W12 m ρ c))
  have e20 : V17 m ρ c main_arg20 = (m ((c : Thread nD τ).loc main_arg20)) := KKeep.a20_W17 m ρ c
  rw [e4, show V17 m ρ c main_v60 = _ from e60, e3, e61, e18, e62, e20]

/-- The program's result: the network's output of the launch contents of its arguments. -/
theorem out : W19 m ρ c (Proc.devRef .tc main_v64)
    = Cert.Spec.model (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (KHost.fl (W18 m ρ c)).trans ?_
  rw [v63_W18 m ρ c]
  rfl

end Cert.KernelIdeal.KValue

end
-- ==== Proof.RefOps.lean ====
/-
  The reference program's host operations, as tables: the operation of every statement of @main in program order,
  a call replaced by its callee's operations over that call's buffers. Once as the program's two windows, once cut
  into consecutive stretches, each with the references it writes. Tables only.
-/
import proofs.«180717_j87385404604873_2_alg».proof.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- The operations of @main's first window (108), in order. -/
abbrev ops0 : List (HloOp τ sig (Elt F)) :=
  [ StableHlo.binary main_arg2 main_arg0 main_v0 ((fun l r => Host.dotGeneral dot_S6144x6144_S6144x32_S6144x32_1_0_0_1_n_n none l r) : (⟨S6144x6144, .f32⟩ : BufTy).Contents (Elt F) → (⟨S6144x32, .f32⟩ : BufTy).Contents (Elt F) → (⟨S6144x32, .f32⟩ : BufTy).Contents (Elt F)),
    StableHlo.unary main_arg5 main_v1 ((transpose S32x32 [1, 0] · transposes_S32x32_S32x32_1_0) : (⟨S32x32, .f32⟩ : BufTy).Contents (Elt F) → (⟨S32x32, .f32⟩ : BufTy).Contents (Elt F)),
    StableHlo.binary main_v0 main_v1 main_v2 ((fun l r => Host.dotGeneral dot_S6144x32_S32x32_S6144x32_1_0_0_1_n_n none l r) : (⟨S6144x32, .f32⟩ : BufTy).Contents (Elt F) → (⟨S32x32, .f32⟩ : BufTy).Contents (Elt F) → (⟨S6144x32, .f32⟩ : BufTy).Contents (Elt F)),
    StableHlo.unary main_arg6 main_v3 (broadcastInDim S1x32 ![1] bcast_S32_S1x32_1 : (⟨S32, .f32⟩ : BufTy).Contents (Elt F) → (⟨S1x32, .f32⟩ : BufTy).Contents (Elt F)),
    StableHlo.unary main_v3 main_v4 (broadcastInDim S6144x32 ![0, 1] bcast_S1x32_S6144x32_0_1 : (⟨S1x32, .f32⟩ : BufTy).Contents (Elt F) → (⟨S6144x32, .f32⟩ : BufTy).Contents (Elt F)),
    StableHlo.binary main_v2 main_v4 main_v5 (addf : (⟨S6144x32, .f32⟩ : BufTy).Contents (Elt F) → (⟨S6144x32, .f32⟩ : BufTy).Contents (Elt F) → (⟨S6144x32, .f32⟩ : BufTy).Contents (Elt F)),
    StableHlo.TRef.nullary main_call0.cst (constant S_ .f32 0x00000000#32),
    StableHlo.TRef.unary main_call0.cst main_call0.v0 (broadcastInDim S6144x32 ![] bcast_S_S6144x32),
    StableHlo.TRef.binary (.of main_v5 : StableHlo.TRef sig ⟨S6144x32, .f32⟩) main_call0.v0 main_call0.v1 maximumf,
    StableHlo.binary main_arg2 main_v6 main_v7 ((fun l r => Host.dotGeneral dot_S6144x6144_S6144x32_S6144x32_1_0_0_1_n_n none l r) : (⟨S6144x6144, .f32⟩ : BufTy).Contents (Elt F) → (⟨S6144x32, .f32⟩ : BufTy).Contents (Elt F) → (⟨S6144x32, .f32⟩ : BufTy).Contents (Elt F)),
    StableHlo.unary main_arg7 main_v8 ((transpose S32x32 [1, 0] · transposes_S32x32_S32x32_1_0) : (⟨S32x32, .f32⟩ : BufTy).Contents (Elt F) → (⟨S32x32, .f32⟩ : BufTy).Contents (Elt F)),
    StableHlo.binary main_v7 main_v8 main_v9 ((fun l r => Host.dotGeneral dot_S6144x32_S32x32_S6144x32_1_0_0_1_n_n none l r) : (⟨S6144x32, .f32⟩ : BufTy).Contents (Elt F) → (⟨S32x32, .f32⟩ : BufTy).Contents (Elt F) → (⟨S6144x32, .f32⟩ : BufTy).Contents (Elt F)),
    StableHlo.unary main_arg8 main_v10 (broadcastInDim S1x32 ![1] bcast_S32_S1x32_1 : (⟨S32, .f32⟩ : BufTy).Contents (Elt F) → (⟨S1x32, .f32⟩ : BufTy).Contents (Elt F)),
    StableHlo.unary main_v10 main_v11 (broadcastInDim S6144x32 ![0, 1] bcast_S1x32_S6144x32_0_1 : (⟨S1x32, .f32⟩ : BufTy).Contents (Elt F) → (⟨S6144x32, .f32⟩ : BufTy).Contents (Elt F)),
    StableHlo.binary main_v9 main_v11 main_v12 (addf : (⟨S6144x32, .f32⟩ : BufTy).Contents (Elt F) → (⟨S6144x32, .f32⟩ : BufTy).Contents (Elt F) → (⟨S6144x32, .f32⟩ : BufTy).Contents (Elt F)),
    StableHlo.TRef.nullary main_call1.cst (constant S_ .f32 0x00000000#32),
    StableHlo.TRef.unary main_call1.cst main_call1.v0 (broadcastInDim S6144x32 ![] bcast_S_S6144x32),
    StableHlo.TRef.binary (.of main_v12 : StableHlo.TRef sig ⟨S6144x32, .f32⟩) main_call1.v0 main_call1.v1 maximumf,
    StableHlo.unary main_arg9 main_v14 ((transpose S16x16 [1, 0] · transposes_S16x16_S16x16_1_0) : (⟨S16x16, .f32⟩ : BufTy).Contents (Elt F) → (⟨S16x16, .f32⟩ : BufTy).Contents (Elt F)),
    StableHlo.binary main_arg1 main_v14 main_v15 ((fun l r => Host.dotGeneral dot_S12288x16_S16x16_S12288x16_1_0_0_1_n_n none l r) : (⟨S12288x16, .f32⟩ : BufTy).Contents (Elt F) → (⟨S16x16, .f32⟩ : BufTy).Contents (Elt F) → (⟨S12288x16, .f32⟩ : BufTy).Contents (Elt F)),
    StableHlo.unary main_arg10 main_v16 (broadcastInDim S1x16 ![1] bcast_S16_S1x16_1 : (⟨S16, .f32⟩ : BufTy).Contents (Elt F) → (⟨S1x16, .f32⟩ : BufTy).Contents (Elt F)),
    StableHlo.unary main_v16 main_v17 (broadcastInDim S12288x16 ![0, 1] bcast_S1x16_S12288x16_0_1 : (⟨S1x16, .f32⟩ : BufTy).Contents (Elt F) → (⟨S12288x16, .f32⟩ : BufTy).Contents (Elt F)),
    StableHlo.binary main_v15 main_v17 main_v18 (addf : (⟨S12288x16, .f32⟩ : BufTy).Contents (Elt F) → (⟨S12288x16, .f32⟩ : BufTy).Contents (Elt F) → (⟨S12288x16, .f32⟩ : BufTy).Contents (Elt F)),
    StableHlo.binary main_arg3 main_v18 main_v19 ((fun l r => Host.dotGeneral dot_S12288x12288_S12288x16_S12288x16_1_0_0_1_n_n none l r) : (⟨S12288x12288, .f32⟩ : BufTy).Contents (Elt F) → (⟨S12288x16, .f32⟩ : BufTy).Contents (Elt F) → (⟨S12288x16, .f32⟩ : BufTy).Contents (Elt F)),
    StableHlo.nullary main_cst (constant S_ .f32 0x00000000#32),
    StableHlo.binary main_v19 main_cst main_v20 ((fun x v => Host.reduceAdd x v reducesTo_S12288x16_S16_d0 h_S_) : (⟨S12288x16, .f32⟩ : BufTy).Contents (Elt F) → (⟨S_, .f32⟩ : BufTy).Contents (Elt F) → (⟨S16, .f32⟩ : BufTy).Contents (Elt F)),
    StableHlo.nullary main_cst_0 (constant S_ .f32 0x46400000#32),
    StableHlo.unary main_cst_0 main_v21 (broadcastInDim S16 ![] bcast_S_S16 : (⟨S_, .f32⟩ : BufTy).Contents (Elt F) → (⟨S16, .f32⟩ : BufTy).Contents (Elt F)),
    StableHlo.binary main_v20 main_v21 main_v22 (Host.divf : (⟨S16, .f32⟩ : BufTy).Contents (Elt F) → (⟨S16, .f32⟩ : BufTy).Contents (Elt F) → (⟨S16, .f32⟩ : BufTy).Contents (Elt F)),
    StableHlo.nullary main_c (constantI S_ 32 0#32),
    StableHlo.TRef.nullary main_call2.cst (constant S_ .f32 0x00000000#32),
    StableHlo.TRef.binary (.of main_v19 : StableHlo.TRef sig ⟨S12288x16, .f32⟩) main_call2.cst main_call2.v0 (fun x v => Host.reduceAdd x v reducesTo_S12288x16_S16_d0 h_S_),
    StableHlo.TRef.unary main_call2.v0 main_call2.v1 (broadcastInDim S1x16 ![1] bcast_S16_S1x16_1),
    StableHlo.TRef.nullary main_call2.cst_0 (constant S_ .f32 0x46400000#32),
    StableHlo.TRef.unary main_call2.cst_0 main_call2.v2 (broadcastInDim S1x16 ![] bcast_S_S1x16),
    StableHlo.TRef.binary main_call2.v1 main_call2.v2 main_call2.v3 Host.divf,
    StableHlo.TRef.unary main_call2.v3 main_call2.v4 (broadcastInDim S12288x16 ![0, 1] bcast_S1x16_S12288x16_0_1),
    StableHlo.TRef.binary (.of main_v19 : StableHlo.TRef sig ⟨S12288x16, .f32⟩) main_call2.v4 main_call2.v5 subf,
    StableHlo.TRef.binary main_call2.v5 main_call2.v5 main_call2.v6 mulf,
    StableHlo.TRef.unary (.of main_c : StableHlo.TRef sig ⟨S_, .i32⟩) main_call2.v7 (sitofp .f32),
    StableHlo.TRef.nullary main_call2.cst_1 (constant S_ .f32 0x46400000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S12288x16_S16_d0 h_S_),
    StableHlo.TRef.unary main_call2.v8 main_call2.v10 (broadcastInDim S16 ![] bcast_S_S16),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S16 ![] bcast_S_S16),
    StableHlo.TRef.ternary main_call2.v12 main_call2.v11 main_call2.call0.v1 main_call2.call0.v2 (fun p a b => select (broadcastInDim S16 ![] bcast_S_S16 p) a b),
    StableHlo.unary main_v22 main_v24 (broadcastInDim S1x16 ![1] bcast_S16_S1x16_1 : (⟨S16, .f32⟩ : BufTy).Contents (Elt F) → (⟨S1x16, .f32⟩ : BufTy).Contents (Elt F)),
    StableHlo.unary main_v24 main_v25 (broadcastInDim S12288x16 ![0, 1] bcast_S1x16_S12288x16_0_1 : (⟨S1x16, .f32⟩ : BufTy).Contents (Elt F) → (⟨S12288x16, .f32⟩ : BufTy).Contents (Elt F)),
    StableHlo.binary main_v19 main_v25 main_v26 (subf : (⟨S12288x16, .f32⟩ : BufTy).Contents (Elt F) → (⟨S12288x16, .f32⟩ : BufTy).Contents (Elt F) → (⟨S12288x16, .f32⟩ : BufTy).Contents (Elt F)),
    StableHlo.unary main_arg11 main_v27 (broadcastInDim S1x16 ![1] bcast_S16_S1x16_1 : (⟨S16, .f32⟩ : BufTy).Contents (Elt F) → (⟨S1x16, .f32⟩ : BufTy).Contents (Elt F)),
    StableHlo.unary main_v27 main_v28 (broadcastInDim S12288x16 ![0, 1] bcast_S1x16_S12288x16_0_1 : (⟨S1x16, .f32⟩ : BufTy).Contents (Elt F) → (⟨S12288x16, .f32⟩ : BufTy).Contents (Elt F)),
    StableHlo.binary main_v28 main_v26 main_v29 (mulf : (⟨S12288x16, .f32⟩ : BufTy).Contents (Elt F) → (⟨S12288x16, .f32⟩ : BufTy).Contents (Elt F) → (⟨S12288x16, .f32⟩ : BufTy).Contents (Elt F)),
    StableHlo.nullary main_cst_1 (constant S_ .f32 0x3727C5AC#32),
    StableHlo.unary main_cst_1 main_v30 (broadcastInDim S16 ![] bcast_S_S16 : (⟨S_, .f32⟩ : BufTy).Contents (Elt F) → (⟨S16, .f32⟩ : BufTy).Contents (Elt F)),
    StableHlo.binary main_v23 main_v30 main_v31 (addf : (⟨S16, .f32⟩ : BufTy).Contents (Elt F) → (⟨S16, .f32⟩ : BufTy).Contents (Elt F) → (⟨S16, .f32⟩ : BufTy).Contents (Elt F)),
    StableHlo.unary main_v31 main_v32 (Host.rsqrt : (⟨S16, .f32⟩ : BufTy).Contents (Elt F) → (⟨S16, .f32⟩ : BufTy).Contents (Elt F)),
    StableHlo.unary main_v32 main_v33 (broadcastInDim S1x16 ![1] bcast_S16_S1x16_1 : (⟨S16, .f32⟩ : BufTy).Contents (Elt F) → (⟨S1x16, .f32⟩ : BufTy).Contents (Elt F)),
    StableHlo.unary main_v33 main_v34 (broadcastInDim S12288x16 ![0, 1] bcast_S1x16_S12288x16_0_1 : (⟨S1x16, .f32⟩ : BufTy).Contents (Elt F) → (⟨S12288x16, .f32⟩ : BufTy).Contents (Elt F)),
    StableHlo.binary main_v29 main_v34 main_v35 (mulf : (⟨S12288x16, .f32⟩ : BufTy).Contents (Elt F) → (⟨S12288x16, .f32⟩ : BufTy).Contents (Elt F) → (⟨S12288x16, .f32⟩ : BufTy).Contents (Elt F)),
    StableHlo.unary main_arg12 main_v36 (broadcastInDim S1x16 ![1] bcast_S16_S1x16_1 : (⟨S16, .f32⟩ : BufTy).Contents (Elt F) → (⟨S1x16, .f32⟩ : BufTy).Contents (Elt F)),
    StableHlo.unary main_v36 main_v37 (broadcastInDim S12288x16 ![0, 1] bcast_S1x16_S12288x16_0_1 : (⟨S1x16, .f32⟩ : BufTy).Contents (Elt F) → (⟨S12288x16, .f32⟩ : BufTy).Contents (Elt F)),
    StableHlo.binary main_v35 main_v37 main_v38 (addf : (⟨S12288x16, .f32⟩ : BufTy).Contents (Elt F) → (⟨S12288x16, .f32⟩ : BufTy).Contents (Elt F) → (⟨S12288x16, .f32⟩ : BufTy).Contents (Elt F)),
    StableHlo.TRef.nullary main_call3.cst (constant S_ .f32 0x00000000#32),
    StableHlo.TRef.unary main_call3.cst main_call3.v0 (broadcastInDim S12288x16 ![] bcast_S_S12288x16),
    StableHlo.TRef.binary (.of main_v38 : StableHlo.TRef sig ⟨S12288x16, .f32⟩) main_call3.v0 main_call3.v1 maximumf,
    StableHlo.nullary main_cst_2 (constant S_ .f32 0xFF800000#32),
    StableHlo.binary main_v39 main_cst_2 main_v40 ((fun x v => Host.reduce FloatOps.maximumf x v reducesTo_S12288x16_S12288_d1 h_S_) : (⟨S12288x16, .f32⟩ : BufTy).Contents (Elt F) → (⟨S_, .f32⟩ : BufTy).Contents (Elt F) → (⟨S12288, .f32⟩ : BufTy).Contents (Elt F)),
    StableHlo.unary main_v40 main_v41 (broadcastInDim S12288x1 ![0] bcast_S12288_S12288x1_0 : (⟨S12288, .f32⟩ : BufTy).Contents (Elt F) → (⟨S12288x1, .f32⟩ : BufTy).Contents (Elt F)),
    StableHlo.unary main_arg13 main_v42 ((transpose S1x16 [1, 0] · transposes_S16x1_S1x16_1_0) : (⟨S16x1, .f32⟩ : BufTy).Contents (Elt F) → (⟨S1x16, .f32⟩ : BufTy).Contents (Elt F)),
    StableHlo.binary main_v41 main_v42 main_v43 ((fun l r => Host.dotGeneral dot_S12288x1_S1x16_S12288x16_1_0_0_1_n_n none l r) : (⟨S12288x1, .f32⟩ : BufTy).Contents (Elt F) → (⟨S1x16, .f32⟩ : BufTy).Contents (Elt F) → (⟨S12288x16, .f32⟩ : BufTy).Contents (Elt F)),
    StableHlo.unary main_arg14 main_v44 (broadcastInDim S1x16 ![1] bcast_S16_S1x16_1 : (⟨S16, .f32⟩ : BufTy).Contents (Elt F) → (⟨S1x16, .f32⟩ : BufTy).Contents (Elt F)),
    StableHlo.unary main_v44 main_v45 (broadcastInDim S12288x16 ![0, 1] bcast_S1x16_S12288x16_0_1 : (⟨S1x16, .f32⟩ : BufTy).Contents (Elt F) → (⟨S12288x16, .f32⟩ : BufTy).Contents (Elt F)),
    StableHlo.binary main_v43 main_v45 main_v46 (addf : (⟨S12288x16, .f32⟩ : BufTy).Contents (Elt F) → (⟨S12288x16, .f32⟩ : BufTy).Contents (Elt F) → (⟨S12288x16, .f32⟩ : BufTy).Contents (Elt F)),
    StableHlo.binary main_arg3 main_v46 main_v47 ((fun l r => Host.dotGeneral dot_S12288x12288_S12288x16_S12288x16_1_0_0_1_n_n none l r) : (⟨S12288x12288, .f32⟩ : BufTy).Contents (Elt F) → (⟨S12288x16, .f32⟩ : BufTy).Contents (Elt F) → (⟨S12288x16, .f32⟩ : BufTy).Contents (Elt F)),
    StableHlo.nullary main_cst_3 (constant S_ .f32 0x00000000#32),
    StableHlo.binary main_v47 main_cst_3 main_v48 ((fun x v => Host.reduceAdd x v reducesTo_S12288x16_S16_d0 h_S_) : (⟨S12288x16, .f32⟩ : BufTy).Contents (Elt F) → (⟨S_, .f32⟩ : BufTy).Contents (Elt F) → (⟨S16, .f32⟩ : BufTy).Contents (Elt F)),
    StableHlo.nullary main_cst_4 (constant S_ .f32 0x46400000#32),
    StableHlo.unary main_cst_4 main_v49 (broadcastInDim S16 ![] bcast_S_S16 : (⟨S_, .f32⟩ : BufTy).Contents (Elt F) → (⟨S16, .f32⟩ : BufTy).Contents (Elt F)),
    StableHlo.binary main_v48 main_v49 main_v50 (Host.divf : (⟨S16, .f32⟩ : BufTy).Contents (Elt F) → (⟨S16, .f32⟩ : BufTy).Contents (Elt F) → (⟨S16, .f32⟩ : BufTy).Contents (Elt F)),
    StableHlo.nullary main_c_5 (constantI S_ 32 0#32),
    StableHlo.TRef.nullary main_call4.cst (constant S_ .f32 0x00000000#32),
    StableHlo.TRef.binary (.of main_v47 : StableHlo.TRef sig ⟨S12288x16, .f32⟩) main_call4.cst main_call4.v0 (fun x v => Host.reduceAdd x v reducesTo_S12288x16_S16_d0 h_S_),
    StableHlo.TRef.unary main_call4.v0 main_call4.v1 (broadcastInDim S1x16 ![1] bcast_S16_S1x16_1),
    StableHlo.TRef.nullary main_call4.cst_0 (constant S_ .f32 0x46400000#32),
    StableHlo.TRef.unary main_call4.cst_0 main_call4.v2 (broadcastInDim S1x16 ![] bcast_S_S1x16),
    StableHlo.TRef.binary main_call4.v1 main_call4.v2 main_call4.v3 Host.divf,
    StableHlo.TRef.unary main_call4.v3 main_call4.v4 (broadcastInDim S12288x16 ![0, 1] bcast_S1x16_S12288x16_0_1),
    StableHlo.TRef.binary (.of main_v47 : StableHlo.TRef sig ⟨S12288x16, .f32⟩) main_call4.v4 main_call4.v5 subf,
    StableHlo.TRef.binary main_call4.v5 main_call4.v5 main_call4.v6 mulf,
    StableHlo.TRef.unary (.of main_c_5 : StableHlo.TRef sig ⟨S_, .i32⟩) main_call4.v7 (sitofp .f32),
    StableHlo.TRef.nullary main_call4.cst_1 (constant S_ .f32 0x46400000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S12288x16_S16_d0 h_S_),
    StableHlo.TRef.unary main_call4.v8 main_call4.v10 (broadcastInDim S16 ![] bcast_S_S16),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S16 ![] bcast_S_S16),
    StableHlo.TRef.ternary main_call4.v12 main_call4.v11 main_call4.call0.v1 main_call4.call0.v2 (fun p a b => select (broadcastInDim S16 ![] bcast_S_S16 p) a b) ]

/-- The operations of @main's second window (47), in order. -/
abbrev ops1 : List (HloOp τ sig (Elt F)) :=
  [ StableHlo.unary main_v50 main_v52 (broadcastInDim S1x16 ![1] bcast_S16_S1x16_1 : (⟨S16, .f32⟩ : BufTy).Contents (Elt F) → (⟨S1x16, .f32⟩ : BufTy).Contents (Elt F)),
    StableHlo.unary main_v52 main_v53 (broadcastInDim S12288x16 ![0, 1] bcast_S1x16_S12288x16_0_1 : (⟨S1x16, .f32⟩ : BufTy).Contents (Elt F) → (⟨S12288x16, .f32⟩ : BufTy).Contents (Elt F)),
    StableHlo.binary main_v47 main_v53 main_v54 (subf : (⟨S12288x16, .f32⟩ : BufTy).Contents (Elt F) → (⟨S12288x16, .f32⟩ : BufTy).Contents (Elt F) → (⟨S12288x16, .f32⟩ : BufTy).Contents (Elt F)),
    StableHlo.unary main_arg15 main_v55 (broadcastInDim S1x16 ![1] bcast_S16_S1x16_1 : (⟨S16, .f32⟩ : BufTy).Contents (Elt F) → (⟨S1x16, .f32⟩ : BufTy).Contents (Elt F)),
    StableHlo.unary main_v55 main_v56 (broadcastInDim S12288x16 ![0, 1] bcast_S1x16_S12288x16_0_1 : (⟨S1x16, .f32⟩ : BufTy).Contents (Elt F) → (⟨S12288x16, .f32⟩ : BufTy).Contents (Elt F)),
    StableHlo.binary main_v56 main_v54 main_v57 (mulf : (⟨S12288x16, .f32⟩ : BufTy).Contents (Elt F) → (⟨S12288x16, .f32⟩ : BufTy).Contents (Elt F) → (⟨S12288x16, .f32⟩ : BufTy).Contents (Elt F)),
    StableHlo.nullary main_cst_6 (constant S_ .f32 0x3727C5AC#32),
    StableHlo.unary main_cst_6 main_v58 (broadcastInDim S16 ![] bcast_S_S16 : (⟨S_, .f32⟩ : BufTy).Contents (Elt F) → (⟨S16, .f32⟩ : BufTy).Contents (Elt F)),
    StableHlo.binary main_v51 main_v58 main_v59 (addf : (⟨S16, .f32⟩ : BufTy).Contents (Elt F) → (⟨S16, .f32⟩ : BufTy).Contents (Elt F) → (⟨S16, .f32⟩ : BufTy).Contents (Elt F)),
    StableHlo.unary main_v59 main_v60 (Host.rsqrt : (⟨S16, .f32⟩ : BufTy).Contents (Elt F) → (⟨S16, .f32⟩ : BufTy).Contents (Elt F)),
    StableHlo.unary main_v60 main_v61 (broadcastInDim S1x16 ![1] bcast_S16_S1x16_1 : (⟨S16, .f32⟩ : BufTy).Contents (Elt F) → (⟨S1x16, .f32⟩ : BufTy).Contents (Elt F)),
    StableHlo.unary main_v61 main_v62 (broadcastInDim S12288x16 ![0, 1] bcast_S1x16_S12288x16_0_1 : (⟨S1x16, .f32⟩ : BufTy).Contents (Elt F) → (⟨S12288x16, .f32⟩ : BufTy).Contents (Elt F)),
    StableHlo.binary main_v57 main_v62 main_v63 (mulf : (⟨S12288x16, .f32⟩ : BufTy).Contents (Elt F) → (⟨S12288x16, .f32⟩ : BufTy).Contents (Elt F) → (⟨S12288x16, .f32⟩ : BufTy).Contents (Elt F)),
    StableHlo.unary main_arg16 main_v64 (broadcastInDim S1x16 ![1] bcast_S16_S1x16_1 : (⟨S16, .f32⟩ : BufTy).Contents (Elt F) → (⟨S1x16, .f32⟩ : BufTy).Contents (Elt F)),
    StableHlo.unary main_v64 main_v65 (broadcastInDim S12288x16 ![0, 1] bcast_S1x16_S12288x16_0_1 : (⟨S1x16, .f32⟩ : BufTy).Contents (Elt F) → (⟨S12288x16, .f32⟩ : BufTy).Contents (Elt F)),
    StableHlo.binary main_v63 main_v65 main_v66 (addf : (⟨S12288x16, .f32⟩ : BufTy).Contents (Elt F) → (⟨S12288x16, .f32⟩ : BufTy).Contents (Elt F) → (⟨S12288x16, .f32⟩ : BufTy).Contents (Elt F)),
    StableHlo.TRef.nullary main_call5.cst (constant S_ .f32 0x00000000#32),
    StableHlo.TRef.unary main_call5.cst main_call5.v0 (broadcastInDim S12288x16 ![] bcast_S_S12288x16),
    StableHlo.TRef.binary (.of main_v66 : StableHlo.TRef sig ⟨S12288x16, .f32⟩) main_call5.v0 main_call5.v1 maximumf,
    StableHlo.nullary main_cst_7 (constant S_ .f32 0xFF800000#32),
    StableHlo.binary main_v67 main_cst_7 main_v68 ((fun x v => Host.reduce FloatOps.maximumf x v reducesTo_S12288x16_S12288_d1 h_S_) : (⟨S12288x16, .f32⟩ : BufTy).Contents (Elt F) → (⟨S_, .f32⟩ : BufTy).Contents (Elt F) → (⟨S12288, .f32⟩ : BufTy).Contents (Elt F)),
    StableHlo.unary main_v68 main_v69 (broadcastInDim S12288x1 ![0] bcast_S12288_S12288x1_0 : (⟨S12288, .f32⟩ : BufTy).Contents (Elt F) → (⟨S12288x1, .f32⟩ : BufTy).Contents (Elt F)),
    StableHlo.binary main_v41 main_v69 main_v70 ((fun a b => concatenate S12288x2 1 [⟨S12288x1, a⟩, ⟨S12288x1, b⟩] concatenates_S12288x1_S12288x1_S12288x2_d1) : (⟨S12288x1, .f32⟩ : BufTy).Contents (Elt F) → (⟨S12288x1, .f32⟩ : BufTy).Contents (Elt F) → (⟨S12288x2, .f32⟩ : BufTy).Contents (Elt F)),
    StableHlo.binary main_arg4 main_v70 main_v71 ((fun l r => Host.dotGeneral dot_S6144x12288_S12288x2_S6144x2_1_0_0_1_n_n none l r) : (⟨S6144x12288, .f32⟩ : BufTy).Contents (Elt F) → (⟨S12288x2, .f32⟩ : BufTy).Contents (Elt F) → (⟨S6144x2, .f32⟩ : BufTy).Contents (Elt F)),
    StableHlo.binary main_v13 main_v71 main_v72 ((fun a b => concatenate S6144x34 1 [⟨S6144x32, a⟩, ⟨S6144x2, b⟩] concatenates_S6144x32_S6144x2_S6144x34_d1) : (⟨S6144x32, .f32⟩ : BufTy).Contents (Elt F) → (⟨S6144x2, .f32⟩ : BufTy).Contents (Elt F) → (⟨S6144x34, .f32⟩ : BufTy).Contents (Elt F)),
    StableHlo.unary main_arg17 main_v73 ((transpose S34x12288 [1, 0] · transposes_S12288x34_S34x12288_1_0) : (⟨S12288x34, .f32⟩ : BufTy).Contents (Elt F) → (⟨S34x12288, .f32⟩ : BufTy).Contents (Elt F)),
    StableHlo.binary main_v72 main_v73 main_v74 ((fun l r => Host.dotGeneral dot_S6144x34_S34x12288_S6144x12288_1_0_0_1_n_n none l r) : (⟨S6144x34, .f32⟩ : BufTy).Contents (Elt F) → (⟨S34x12288, .f32⟩ : BufTy).Contents (Elt F) → (⟨S6144x12288, .f32⟩ : BufTy).Contents (Elt F)),
    StableHlo.unary main_arg18 main_v75 (broadcastInDim S1x12288 ![1] bcast_S12288_S1x12288_1 : (⟨S12288, .f32⟩ : BufTy).Contents (Elt F) → (⟨S1x12288, .f32⟩ : BufTy).Contents (Elt F)),
    StableHlo.unary main_v75 main_v76 (broadcastInDim S6144x12288 ![0, 1] bcast_S1x12288_S6144x12288_0_1 : (⟨S1x12288, .f32⟩ : BufTy).Contents (Elt F) → (⟨S6144x12288, .f32⟩ : BufTy).Contents (Elt F)),
    StableHlo.binary main_v74 main_v76 main_v77 (addf : (⟨S6144x12288, .f32⟩ : BufTy).Contents (Elt F) → (⟨S6144x12288, .f32⟩ : BufTy).Contents (Elt F) → (⟨S6144x12288, .f32⟩ : BufTy).Contents (Elt F)),
    StableHlo.TRef.nullary main_call6.cst (constant S_ .f32 0x00000000#32),
    StableHlo.TRef.unary main_call6.cst main_call6.v0 (broadcastInDim S6144x12288 ![] bcast_S_S6144x12288),
    StableHlo.TRef.binary (.of main_v77 : StableHlo.TRef sig ⟨S6144x12288, .f32⟩) main_call6.v0 main_call6.v1 maximumf,
    StableHlo.unary main_arg19 main_v79 ((transpose S12288x1 [1, 0] · transposes_S1x12288_S12288x1_1_0) : (⟨S1x12288, .f32⟩ : BufTy).Contents (Elt F) → (⟨S12288x1, .f32⟩ : BufTy).Contents (Elt F)),
    StableHlo.binary main_v78 main_v79 main_v80 ((fun l r => Host.dotGeneral dot_S6144x12288_S12288x1_S6144x1_1_0_0_1_n_n none l r) : (⟨S6144x12288, .f32⟩ : BufTy).Contents (Elt F) → (⟨S12288x1, .f32⟩ : BufTy).Contents (Elt F) → (⟨S6144x1, .f32⟩ : BufTy).Contents (Elt F)),
    StableHlo.unary main_arg20 main_v81 (broadcastInDim S1x1 ![1] bcast_S1_S1x1_1 : (⟨S1, .f32⟩ : BufTy).Contents (Elt F) → (⟨S1x1, .f32⟩ : BufTy).Contents (Elt F)),
    StableHlo.unary main_v81 main_v82 (broadcastInDim S6144x1 ![0, 1] bcast_S1x1_S6144x1_0_1 : (⟨S1x1, .f32⟩ : BufTy).Contents (Elt F) → (⟨S6144x1, .f32⟩ : BufTy).Contents (Elt F)),
    StableHlo.binary main_v80 main_v82 main_v83 (addf : (⟨S6144x1, .f32⟩ : BufTy).Contents (Elt F) → (⟨S6144x1, .f32⟩ : BufTy).Contents (Elt F) → (⟨S6144x1, .f32⟩ : BufTy).Contents (Elt F)),
    StableHlo.unary main_v83 main_v84 (Host.negf : (⟨S6144x1, .f32⟩ : BufTy).Contents (Elt F) → (⟨S6144x1, .f32⟩ : BufTy).Contents (Elt F)),
    StableHlo.unary main_v84 main_v85 (Host.exp : (⟨S6144x1, .f32⟩ : BufTy).Contents (Elt F) → (⟨S6144x1, .f32⟩ : BufTy).Contents (Elt F)),
    StableHlo.nullary main_cst_8 (constant S_ .f32 0x3F800000#32),
    StableHlo.unary main_cst_8 main_v86 (broadcastInDim S6144x1 ![] bcast_S_S6144x1 : (⟨S_, .f32⟩ : BufTy).Contents (Elt F) → (⟨S6144x1, .f32⟩ : BufTy).Contents (Elt F)),
    StableHlo.binary main_v86 main_v85 main_v87 (addf : (⟨S6144x1, .f32⟩ : BufTy).Contents (Elt F) → (⟨S6144x1, .f32⟩ : BufTy).Contents (Elt F) → (⟨S6144x1, .f32⟩ : BufTy).Contents (Elt F)),
    StableHlo.nullary main_cst_9 (constant S_ .f32 0x3F800000#32),
    StableHlo.unary main_cst_9 main_v88 (broadcastInDim S6144x1 ![] bcast_S_S6144x1 : (⟨S_, .f32⟩ : BufTy).Contents (Elt F) → (⟨S6144x1, .f32⟩ : BufTy).Contents (Elt F)),
    StableHlo.binary main_v88 main_v87 main_v89 (Host.divf : (⟨S6144x1, .f32⟩ : BufTy).Contents (Elt F) → (⟨S6144x1, .f32⟩ : BufTy).Contents (Elt F) → (⟨S6144x1, .f32⟩ : BufTy).Contents (Elt F)),
    StableHlo.reshape main_v89 main_v90 rfl shapeCasts_S6144x1_S6144 ]

/-- Statements 1 to 7: the first node layer (9 operations). -/
def seg1 : List (HloOp τ sig (Elt F)) :=
  [ StableHlo.binary main_arg2 main_arg0 main_v0 ((fun l r => Host.dotGeneral dot_S6144x6144_S6144x32_S6144x32_1_0_0_1_n_n none l r) : (⟨S6144x6144, .f32⟩ : BufTy).Contents (Elt F) → (⟨S6144x32, .f32⟩ : BufTy).Contents (Elt F) → (⟨S6144x32, .f32⟩ : BufTy).Contents (Elt F)),
    StableHlo.unary main_arg5 main_v1 ((transpose S32x32 [1, 0] · transposes_S32x32_S32x32_1_0) : (⟨S32x32, .f32⟩ : BufTy).Contents (Elt F) → (⟨S32x32, .f32⟩ : BufTy).Contents (Elt F)),
    StableHlo.binary main_v0 main_v1 main_v2 ((fun l r => Host.dotGeneral dot_S6144x32_S32x32_S6144x32_1_0_0_1_n_n none l r) : (⟨S6144x32, .f32⟩ : BufTy).Contents (Elt F) → (⟨S32x32, .f32⟩ : BufTy).Contents (Elt F) → (⟨S6144x32, .f32⟩ : BufTy).Contents (Elt F)),
    StableHlo.unary main_arg6 main_v3 (broadcastInDim S1x32 ![1] bcast_S32_S1x32_1 : (⟨S32, .f32⟩ : BufTy).Contents (Elt F) → (⟨S1x32, .f32⟩ : BufTy).Contents (Elt F)),
    StableHlo.unary main_v3 main_v4 (broadcastInDim S6144x32 ![0, 1] bcast_S1x32_S6144x32_0_1 : (⟨S1x32, .f32⟩ : BufTy).Contents (Elt F) → (⟨S6144x32, .f32⟩ : BufTy).Contents (Elt F)),
    StableHlo.binary main_v2 main_v4 main_v5 (addf : (⟨S6144x32, .f32⟩ : BufTy).Contents (Elt F) → (⟨S6144x32, .f32⟩ : BufTy).Contents (Elt F) → (⟨S6144x32, .f32⟩ : BufTy).Contents (Elt F)),
    StableHlo.TRef.nullary main_call0.cst (constant S_ .f32 0x00000000#32),
    StableHlo.TRef.unary main_call0.cst main_call0.v0 (broadcastInDim S6144x32 ![] bcast_S_S6144x32),
    StableHlo.TRef.binary (.of main_v5 : StableHlo.TRef sig ⟨S6144x32, .f32⟩) main_call0.v0 main_call0.v1 maximumf ]

/-- The references seg1 writes. -/
abbrev seg1_W : List (Ref sig .tc) :=
  [main_v0, main_v1, main_v2, main_v3, main_v4, main_v5, main_call0.cst.ref, main_call0.v0.ref, main_call0.v1.ref]

/-- Statements 8 to 14: the second node layer (9 operations). -/
def seg2 : List (HloOp τ sig (Elt F)) :=
  [ StableHlo.binary main_arg2 main_v6 main_v7 ((fun l r => Host.dotGeneral dot_S6144x6144_S6144x32_S6144x32_1_0_0_1_n_n none l r) : (⟨S6144x6144, .f32⟩ : BufTy).Contents (Elt F) → (⟨S6144x32, .f32⟩ : BufTy).Contents (Elt F) → (⟨S6144x32, .f32⟩ : BufTy).Contents (Elt F)),
    StableHlo.unary main_arg7 main_v8 ((transpose S32x32 [1, 0] · transposes_S32x32_S32x32_1_0) : (⟨S32x32, .f32⟩ : BufTy).Contents (Elt F) → (⟨S32x32, .f32⟩ : BufTy).Contents (Elt F)),
    StableHlo.binary main_v7 main_v8 main_v9 ((fun l r => Host.dotGeneral dot_S6144x32_S32x32_S6144x32_1_0_0_1_n_n none l r) : (⟨S6144x32, .f32⟩ : BufTy).Contents (Elt F) → (⟨S32x32, .f32⟩ : BufTy).Contents (Elt F) → (⟨S6144x32, .f32⟩ : BufTy).Contents (Elt F)),
    StableHlo.unary main_arg8 main_v10 (broadcastInDim S1x32 ![1] bcast_S32_S1x32_1 : (⟨S32, .f32⟩ : BufTy).Contents (Elt F) → (⟨S1x32, .f32⟩ : BufTy).Contents (Elt F)),
    StableHlo.unary main_v10 main_v11 (broadcastInDim S6144x32 ![0, 1] bcast_S1x32_S6144x32_0_1 : (⟨S1x32, .f32⟩ : BufTy).Contents (Elt F) → (⟨S6144x32, .f32⟩ : BufTy).Contents (Elt F)),
    StableHlo.binary main_v9 main_v11 main_v12 (addf : (⟨S6144x32, .f32⟩ : BufTy).Contents (Elt F) → (⟨S6144x32, .f32⟩ : BufTy).Contents (Elt F) → (⟨S6144x32, .f32⟩ : BufTy).Contents (Elt F)),
    StableHlo.TRef.nullary main_call1.cst (constant S_ .f32 0x00000000#32),
    StableHlo.TRef.unary main_call1.cst main_call1.v0 (broadcastInDim S6144x32 ![] bcast_S_S6144x32),
    StableHlo.TRef.binary (.of main_v12 : StableHlo.TRef sig ⟨S6144x32, .f32⟩) main_call1.v0 main_call1.v1 maximumf ]

/-- The references seg2 writes. -/
abbrev seg2_W : List (Ref sig .tc) :=
  [main_v7, main_v8, main_v9, main_v10, main_v11, main_v12, main_call1.cst.ref, main_call1.v0.ref, main_call1.v1.ref]

/-- Statements 15 to 19: the first edge layer's linear map (5 operations). -/
def seg3 : List (HloOp τ sig (Elt F)) :=
  [ StableHlo.unary main_arg9 main_v14 ((transpose S16x16 [1, 0] · transposes_S16x16_S16x16_1_0) : (⟨S16x16, .f32⟩ : BufTy).Contents (Elt F) → (⟨S16x16, .f32⟩ : BufTy).Contents (Elt F)),
    StableHlo.binary main_arg1 main_v14 main_v15 ((fun l r => Host.dotGeneral dot_S12288x16_S16x16_S12288x16_1_0_0_1_n_n none l r) : (⟨S12288x16, .f32⟩ : BufTy).Contents (Elt F) → (⟨S16x16, .f32⟩ : BufTy).Contents (Elt F) → (⟨S12288x16, .f32⟩ : BufTy).Contents (Elt F)),
    StableHlo.unary main_arg10 main_v16 (broadcastInDim S1x16 ![1] bcast_S16_S1x16_1 : (⟨S16, .f32⟩ : BufTy).Contents (Elt F) → (⟨S1x16, .f32⟩ : BufTy).Contents (Elt F)),
    StableHlo.unary main_v16 main_v17 (broadcastInDim S12288x16 ![0, 1] bcast_S1x16_S12288x16_0_1 : (⟨S1x16, .f32⟩ : BufTy).Contents (Elt F) → (⟨S12288x16, .f32⟩ : BufTy).Contents (Elt F)),
    StableHlo.binary main_v15 main_v17 main_v18 (addf : (⟨S12288x16, .f32⟩ : BufTy).Contents (Elt F) → (⟨S12288x16, .f32⟩ : BufTy).Contents (Elt F) → (⟨S12288x16, .f32⟩ : BufTy).Contents (Elt F)) ]

/-- The references seg3 writes. -/
abbrev seg3_W : List (Ref sig .tc) :=
  [main_v14, main_v15, main_v16, main_v17, main_v18]

/-- Statements 20 to 20: its product with the Laplacian (1 operations). -/
def seg4 : List (HloOp τ sig (Elt F)) :=
  [ StableHlo.binary main_arg3 main_v18 main_v19 ((fun l r => Host.dotGeneral dot_S12288x12288_S12288x16_S12288x16_1_0_0_1_n_n none l r) : (⟨S12288x12288, .f32⟩ : BufTy).Contents (Elt F) → (⟨S12288x16, .f32⟩ : BufTy).Contents (Elt F) → (⟨S12288x16, .f32⟩ : BufTy).Contents (Elt F)) ]

/-- The references seg4 writes. -/
abbrev seg4_W : List (Ref sig .tc) :=
  [main_v19]

/-- Statements 21 to 25: the first normalisation: the columns' mean (5 operations). -/
def seg5a : List (HloOp τ sig (Elt F)) :=
  [ StableHlo.nullary main_cst (constant S_ .f32 0x00000000#32),
    StableHlo.binary main_v19 main_cst main_v20 ((fun x v => Host.reduceAdd x v reducesTo_S12288x16_S16_d0 h_S_) : (⟨S12288x16, .f32⟩ : BufTy).Contents (Elt F) → (⟨S_, .f32⟩ : BufTy).Contents (Elt F) → (⟨S16, .f32⟩ : BufTy).Contents (Elt F)),
    StableHlo.nullary main_cst_0 (constant S_ .f32 0x46400000#32),
    StableHlo.unary main_cst_0 main_v21 (broadcastInDim S16 ![] bcast_S_S16 : (⟨S_, .f32⟩ : BufTy).Contents (Elt F) → (⟨S16, .f32⟩ : BufTy).Contents (Elt F)),
    StableHlo.binary main_v20 main_v21 main_v22 (Host.divf : (⟨S16, .f32⟩ : BufTy).Contents (Elt F) → (⟨S16, .f32⟩ : BufTy).Contents (Elt F) → (⟨S16, .f32⟩ : BufTy).Contents (Elt F)) ]

/-- The references seg5a writes. -/
abbrev seg5a_W : List (Ref sig .tc) :=
  [main_cst, main_v20, main_cst_0, main_v21, main_v22]

/-- Statements 26 to 27: the first normalisation: the columns' variance (23 operations). -/
def seg5b : List (HloOp τ sig (Elt F)) :=
  [ StableHlo.nullary main_c (constantI S_ 32 0#32),
    StableHlo.TRef.nullary main_call2.cst (constant S_ .f32 0x00000000#32),
    StableHlo.TRef.binary (.of main_v19 : StableHlo.TRef sig ⟨S12288x16, .f32⟩) main_call2.cst main_call2.v0 (fun x v => Host.reduceAdd x v reducesTo_S12288x16_S16_d0 h_S_),
    StableHlo.TRef.unary main_call2.v0 main_call2.v1 (broadcastInDim S1x16 ![1] bcast_S16_S1x16_1),
    StableHlo.TRef.nullary main_call2.cst_0 (constant S_ .f32 0x46400000#32),
    StableHlo.TRef.unary main_call2.cst_0 main_call2.v2 (broadcastInDim S1x16 ![] bcast_S_S1x16),
    StableHlo.TRef.binary main_call2.v1 main_call2.v2 main_call2.v3 Host.divf,
    StableHlo.TRef.unary main_call2.v3 main_call2.v4 (broadcastInDim S12288x16 ![0, 1] bcast_S1x16_S12288x16_0_1),
    StableHlo.TRef.binary (.of main_v19 : StableHlo.TRef sig ⟨S12288x16, .f32⟩) main_call2.v4 main_call2.v5 subf,
    StableHlo.TRef.binary main_call2.v5 main_call2.v5 main_call2.v6 mulf,
    StableHlo.TRef.unary (.of main_c : StableHlo.TRef sig ⟨S_, .i32⟩) main_call2.v7 (sitofp .f32),
    StableHlo.TRef.nullary main_call2.cst_1 (constant S_ .f32 0x46400000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S12288x16_S16_d0 h_S_),
    StableHlo.TRef.unary main_call2.v8 main_call2.v10 (broadcastInDim S16 ![] bcast_S_S16),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S16 ![] bcast_S_S16),
    StableHlo.TRef.ternary main_call2.v12 main_call2.v11 main_call2.call0.v1 main_call2.call0.v2 (fun p a b => select (broadcastInDim S16 ![] bcast_S_S16 p) a b) ]

/-- The references seg5b writes. -/
abbrev seg5b_W : List (Ref sig .tc) :=
  [main_c, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]

/-- Statements 28 to 47: the first normalisation: scale, shift, relu and the maximum over the channels (22 operations). -/
def seg5c : List (HloOp τ sig (Elt F)) :=
  [ StableHlo.unary main_v22 main_v24 (broadcastInDim S1x16 ![1] bcast_S16_S1x16_1 : (⟨S16, .f32⟩ : BufTy).Contents (Elt F) → (⟨S1x16, .f32⟩ : BufTy).Contents (Elt F)),
    StableHlo.unary main_v24 main_v25 (broadcastInDim S12288x16 ![0, 1] bcast_S1x16_S12288x16_0_1 : (⟨S1x16, .f32⟩ : BufTy).Contents (Elt F) → (⟨S12288x16, .f32⟩ : BufTy).Contents (Elt F)),
    StableHlo.binary main_v19 main_v25 main_v26 (subf : (⟨S12288x16, .f32⟩ : BufTy).Contents (Elt F) → (⟨S12288x16, .f32⟩ : BufTy).Contents (Elt F) → (⟨S12288x16, .f32⟩ : BufTy).Contents (Elt F)),
    StableHlo.unary main_arg11 main_v27 (broadcastInDim S1x16 ![1] bcast_S16_S1x16_1 : (⟨S16, .f32⟩ : BufTy).Contents (Elt F) → (⟨S1x16, .f32⟩ : BufTy).Contents (Elt F)),
    StableHlo.unary main_v27 main_v28 (broadcastInDim S12288x16 ![0, 1] bcast_S1x16_S12288x16_0_1 : (⟨S1x16, .f32⟩ : BufTy).Contents (Elt F) → (⟨S12288x16, .f32⟩ : BufTy).Contents (Elt F)),
    StableHlo.binary main_v28 main_v26 main_v29 (mulf : (⟨S12288x16, .f32⟩ : BufTy).Contents (Elt F) → (⟨S12288x16, .f32⟩ : BufTy).Contents (Elt F) → (⟨S12288x16, .f32⟩ : BufTy).Contents (Elt F)),
    StableHlo.nullary main_cst_1 (constant S_ .f32 0x3727C5AC#32),
    StableHlo.unary main_cst_1 main_v30 (broadcastInDim S16 ![] bcast_S_S16 : (⟨S_, .f32⟩ : BufTy).Contents (Elt F) → (⟨S16, .f32⟩ : BufTy).Contents (Elt F)),
    StableHlo.binary main_v23 main_v30 main_v31 (addf : (⟨S16, .f32⟩ : BufTy).Contents (Elt F) → (⟨S16, .f32⟩ : BufTy).Contents (Elt F) → (⟨S16, .f32⟩ : BufTy).Contents (Elt F)),
    StableHlo.unary main_v31 main_v32 (Host.rsqrt : (⟨S16, .f32⟩ : BufTy).Contents (Elt F) → (⟨S16, .f32⟩ : BufTy).Contents (Elt F)),
    StableHlo.unary main_v32 main_v33 (broadcastInDim S1x16 ![1] bcast_S16_S1x16_1 : (⟨S16, .f32⟩ : BufTy).Contents (Elt F) → (⟨S1x16, .f32⟩ : BufTy).Contents (Elt F)),
    StableHlo.unary main_v33 main_v34 (broadcastInDim S12288x16 ![0, 1] bcast_S1x16_S12288x16_0_1 : (⟨S1x16, .f32⟩ : BufTy).Contents (Elt F) → (⟨S12288x16, .f32⟩ : BufTy).Contents (Elt F)),
    StableHlo.binary main_v29 main_v34 main_v35 (mulf : (⟨S12288x16, .f32⟩ : BufTy).Contents (Elt F) → (⟨S12288x16, .f32⟩ : BufTy).Contents (Elt F) → (⟨S12288x16, .f32⟩ : BufTy).Contents (Elt F)),
    StableHlo.unary main_arg12 main_v36 (broadcastInDim S1x16 ![1] bcast_S16_S1x16_1 : (⟨S16, .f32⟩ : BufTy).Contents (Elt F) → (⟨S1x16, .f32⟩ : BufTy).Contents (Elt F)),
    StableHlo.unary main_v36 main_v37 (broadcastInDim S12288x16 ![0, 1] bcast_S1x16_S12288x16_0_1 : (⟨S1x16, .f32⟩ : BufTy).Contents (Elt F) → (⟨S12288x16, .f32⟩ : BufTy).Contents (Elt F)),
    StableHlo.binary main_v35 main_v37 main_v38 (addf : (⟨S12288x16, .f32⟩ : BufTy).Contents (Elt F) → (⟨S12288x16, .f32⟩ : BufTy).Contents (Elt F) → (⟨S12288x16, .f32⟩ : BufTy).Contents (Elt F)),
    StableHlo.TRef.nullary main_call3.cst (constant S_ .f32 0x00000000#32),
    StableHlo.TRef.unary main_call3.cst main_call3.v0 (broadcastInDim S12288x16 ![] bcast_S_S12288x16),
    StableHlo.TRef.binary (.of main_v38 : StableHlo.TRef sig ⟨S12288x16, .f32⟩) main_call3.v0 main_call3.v1 maximumf,
    StableHlo.nullary main_cst_2 (constant S_ .f32 0xFF800000#32),
    StableHlo.binary main_v39 main_cst_2 main_v40 ((fun x v => Host.reduce FloatOps.maximumf x v reducesTo_S12288x16_S12288_d1 h_S_) : (⟨S12288x16, .f32⟩ : BufTy).Contents (Elt F) → (⟨S_, .f32⟩ : BufTy).Contents (Elt F) → (⟨S12288, .f32⟩ : BufTy).Contents (Elt F)),
    StableHlo.unary main_v40 main_v41 (broadcastInDim S12288x1 ![0] bcast_S12288_S12288x1_0 : (⟨S12288, .f32⟩ : BufTy).Contents (Elt F) → (⟨S12288x1, .f32⟩ : BufTy).Contents (Elt F)) ]

/-- The references seg5c writes. -/
abbrev seg5c_W : List (Ref sig .tc) :=
  [main_v24, main_v25, main_v26, main_v27, main_v28, main_v29, main_cst_1, main_v30, main_v31, main_v32, main_v33, main_v34, main_v35, main_v36, main_v37, main_v38, main_call3.cst.ref, main_call3.v0.ref, main_call3.v1.ref, main_cst_2, main_v40, main_v41]

/-- Statements 48 to 52: the second edge layer's linear map (5 operations). -/
def seg6 : List (HloOp τ sig (Elt F)) :=
  [ StableHlo.unary main_arg13 main_v42 ((transpose S1x16 [1, 0] · transposes_S16x1_S1x16_1_0) : (⟨S16x1, .f32⟩ : BufTy).Contents (Elt F) → (⟨S1x16, .f32⟩ : BufTy).Contents (Elt F)),
    StableHlo.binary main_v41 main_v42 main_v43 ((fun l r => Host.dotGeneral dot_S12288x1_S1x16_S12288x16_1_0_0_1_n_n none l r) : (⟨S12288x1, .f32⟩ : BufTy).Contents (Elt F) → (⟨S1x16, .f32⟩ : BufTy).Contents (Elt F) → (⟨S12288x16, .f32⟩ : BufTy).Contents (Elt F)),
    StableHlo.unary main_arg14 main_v44 (broadcastInDim S1x16 ![1] bcast_S16_S1x16_1 : (⟨S16, .f32⟩ : BufTy).Contents (Elt F) → (⟨S1x16, .f32⟩ : BufTy).Contents (Elt F)),
    StableHlo.unary main_v44 main_v45 (broadcastInDim S12288x16 ![0, 1] bcast_S1x16_S12288x16_0_1 : (⟨S1x16, .f32⟩ : BufTy).Contents (Elt F) → (⟨S12288x16, .f32⟩ : BufTy).Contents (Elt F)),
    StableHlo.binary main_v43 main_v45 main_v46 (addf : (⟨S12288x16, .f32⟩ : BufTy).Contents (Elt F) → (⟨S12288x16, .f32⟩ : BufTy).Contents (Elt F) → (⟨S12288x16, .f32⟩ : BufTy).Contents (Elt F)) ]

/-- The references seg6 writes. -/
abbrev seg6_W : List (Ref sig .tc) :=
  [main_v42, main_v43, main_v44, main_v45, main_v46]

/-- Statements 53 to 53: its product with the Laplacian (1 operations). -/
def seg7 : List (HloOp τ sig (Elt F)) :=
  [ StableHlo.binary main_arg3 main_v46 main_v47 ((fun l r => Host.dotGeneral dot_S12288x12288_S12288x16_S12288x16_1_0_0_1_n_n none l r) : (⟨S12288x12288, .f32⟩ : BufTy).Contents (Elt F) → (⟨S12288x16, .f32⟩ : BufTy).Contents (Elt F) → (⟨S12288x16, .f32⟩ : BufTy).Contents (Elt F)) ]

/-- The references seg7 writes. -/
abbrev seg7_W : List (Ref sig .tc) :=
  [main_v47]

/-- Statements 54 to 58: the second normalisation: the columns' mean (5 operations). -/
def seg8a : List (HloOp τ sig (Elt F)) :=
  [ StableHlo.nullary main_cst_3 (constant S_ .f32 0x00000000#32),
    StableHlo.binary main_v47 main_cst_3 main_v48 ((fun x v => Host.reduceAdd x v reducesTo_S12288x16_S16_d0 h_S_) : (⟨S12288x16, .f32⟩ : BufTy).Contents (Elt F) → (⟨S_, .f32⟩ : BufTy).Contents (Elt F) → (⟨S16, .f32⟩ : BufTy).Contents (Elt F)),
    StableHlo.nullary main_cst_4 (constant S_ .f32 0x46400000#32),
    StableHlo.unary main_cst_4 main_v49 (broadcastInDim S16 ![] bcast_S_S16 : (⟨S_, .f32⟩ : BufTy).Contents (Elt F) → (⟨S16, .f32⟩ : BufTy).Contents (Elt F)),
    StableHlo.binary main_v48 main_v49 main_v50 (Host.divf : (⟨S16, .f32⟩ : BufTy).Contents (Elt F) → (⟨S16, .f32⟩ : BufTy).Contents (Elt F) → (⟨S16, .f32⟩ : BufTy).Contents (Elt F)) ]

/-- The references seg8a writes. -/
abbrev seg8a_W : List (Ref sig .tc) :=
  [main_cst_3, main_v48, main_cst_4, main_v49, main_v50]

/-- Statements 59 to 60: the second normalisation: the columns' variance (23 operations). -/
def seg8b : List (HloOp τ sig (Elt F)) :=
  [ StableHlo.nullary main_c_5 (constantI S_ 32 0#32),
    StableHlo.TRef.nullary main_call4.cst (constant S_ .f32 0x00000000#32),
    StableHlo.TRef.binary (.of main_v47 : StableHlo.TRef sig ⟨S12288x16, .f32⟩) main_call4.cst main_call4.v0 (fun x v => Host.reduceAdd x v reducesTo_S12288x16_S16_d0 h_S_),
    StableHlo.TRef.unary main_call4.v0 main_call4.v1 (broadcastInDim S1x16 ![1] bcast_S16_S1x16_1),
    StableHlo.TRef.nullary main_call4.cst_0 (constant S_ .f32 0x46400000#32),
    StableHlo.TRef.unary main_call4.cst_0 main_call4.v2 (broadcastInDim S1x16 ![] bcast_S_S1x16),
    StableHlo.TRef.binary main_call4.v1 main_call4.v2 main_call4.v3 Host.divf,
    StableHlo.TRef.unary main_call4.v3 main_call4.v4 (broadcastInDim S12288x16 ![0, 1] bcast_S1x16_S12288x16_0_1),
    StableHlo.TRef.binary (.of main_v47 : StableHlo.TRef sig ⟨S12288x16, .f32⟩) main_call4.v4 main_call4.v5 subf,
    StableHlo.TRef.binary main_call4.v5 main_call4.v5 main_call4.v6 mulf,
    StableHlo.TRef.unary (.of main_c_5 : StableHlo.TRef sig ⟨S_, .i32⟩) main_call4.v7 (sitofp .f32),
    StableHlo.TRef.nullary main_call4.cst_1 (constant S_ .f32 0x46400000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S12288x16_S16_d0 h_S_),
    StableHlo.TRef.unary main_call4.v8 main_call4.v10 (broadcastInDim S16 ![] bcast_S_S16),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S16 ![] bcast_S_S16),
    StableHlo.TRef.ternary main_call4.v12 main_call4.v11 main_call4.call0.v1 main_call4.call0.v2 (fun p a b => select (broadcastInDim S16 ![] bcast_S_S16 p) a b) ]

/-- The references seg8b writes. -/
abbrev seg8b_W : List (Ref sig .tc) :=
  [main_c_5, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref]

/-- Statements 61 to 80: the second normalisation: scale, shift, relu and the maximum over the channels (22 operations). -/
def seg8c : List (HloOp τ sig (Elt F)) :=
  [ StableHlo.unary main_v50 main_v52 (broadcastInDim S1x16 ![1] bcast_S16_S1x16_1 : (⟨S16, .f32⟩ : BufTy).Contents (Elt F) → (⟨S1x16, .f32⟩ : BufTy).Contents (Elt F)),
    StableHlo.unary main_v52 main_v53 (broadcastInDim S12288x16 ![0, 1] bcast_S1x16_S12288x16_0_1 : (⟨S1x16, .f32⟩ : BufTy).Contents (Elt F) → (⟨S12288x16, .f32⟩ : BufTy).Contents (Elt F)),
    StableHlo.binary main_v47 main_v53 main_v54 (subf : (⟨S12288x16, .f32⟩ : BufTy).Contents (Elt F) → (⟨S12288x16, .f32⟩ : BufTy).Contents (Elt F) → (⟨S12288x16, .f32⟩ : BufTy).Contents (Elt F)),
    StableHlo.unary main_arg15 main_v55 (broadcastInDim S1x16 ![1] bcast_S16_S1x16_1 : (⟨S16, .f32⟩ : BufTy).Contents (Elt F) → (⟨S1x16, .f32⟩ : BufTy).Contents (Elt F)),
    StableHlo.unary main_v55 main_v56 (broadcastInDim S12288x16 ![0, 1] bcast_S1x16_S12288x16_0_1 : (⟨S1x16, .f32⟩ : BufTy).Contents (Elt F) → (⟨S12288x16, .f32⟩ : BufTy).Contents (Elt F)),
    StableHlo.binary main_v56 main_v54 main_v57 (mulf : (⟨S12288x16, .f32⟩ : BufTy).Contents (Elt F) → (⟨S12288x16, .f32⟩ : BufTy).Contents (Elt F) → (⟨S12288x16, .f32⟩ : BufTy).Contents (Elt F)),
    StableHlo.nullary main_cst_6 (constant S_ .f32 0x3727C5AC#32),
    StableHlo.unary main_cst_6 main_v58 (broadcastInDim S16 ![] bcast_S_S16 : (⟨S_, .f32⟩ : BufTy).Contents (Elt F) → (⟨S16, .f32⟩ : BufTy).Contents (Elt F)),
    StableHlo.binary main_v51 main_v58 main_v59 (addf : (⟨S16, .f32⟩ : BufTy).Contents (Elt F) → (⟨S16, .f32⟩ : BufTy).Contents (Elt F) → (⟨S16, .f32⟩ : BufTy).Contents (Elt F)),
    StableHlo.unary main_v59 main_v60 (Host.rsqrt : (⟨S16, .f32⟩ : BufTy).Contents (Elt F) → (⟨S16, .f32⟩ : BufTy).Contents (Elt F)),
    StableHlo.unary main_v60 main_v61 (broadcastInDim S1x16 ![1] bcast_S16_S1x16_1 : (⟨S16, .f32⟩ : BufTy).Contents (Elt F) → (⟨S1x16, .f32⟩ : BufTy).Contents (Elt F)),
    StableHlo.unary main_v61 main_v62 (broadcastInDim S12288x16 ![0, 1] bcast_S1x16_S12288x16_0_1 : (⟨S1x16, .f32⟩ : BufTy).Contents (Elt F) → (⟨S12288x16, .f32⟩ : BufTy).Contents (Elt F)),
    StableHlo.binary main_v57 main_v62 main_v63 (mulf : (⟨S12288x16, .f32⟩ : BufTy).Contents (Elt F) → (⟨S12288x16, .f32⟩ : BufTy).Contents (Elt F) → (⟨S12288x16, .f32⟩ : BufTy).Contents (Elt F)),
    StableHlo.unary main_arg16 main_v64 (broadcastInDim S1x16 ![1] bcast_S16_S1x16_1 : (⟨S16, .f32⟩ : BufTy).Contents (Elt F) → (⟨S1x16, .f32⟩ : BufTy).Contents (Elt F)),
    StableHlo.unary main_v64 main_v65 (broadcastInDim S12288x16 ![0, 1] bcast_S1x16_S12288x16_0_1 : (⟨S1x16, .f32⟩ : BufTy).Contents (Elt F) → (⟨S12288x16, .f32⟩ : BufTy).Contents (Elt F)),
    StableHlo.binary main_v63 main_v65 main_v66 (addf : (⟨S12288x16, .f32⟩ : BufTy).Contents (Elt F) → (⟨S12288x16, .f32⟩ : BufTy).Contents (Elt F) → (⟨S12288x16, .f32⟩ : BufTy).Contents (Elt F)),
    StableHlo.TRef.nullary main_call5.cst (constant S_ .f32 0x00000000#32),
    StableHlo.TRef.unary main_call5.cst main_call5.v0 (broadcastInDim S12288x16 ![] bcast_S_S12288x16),
    StableHlo.TRef.binary (.of main_v66 : StableHlo.TRef sig ⟨S12288x16, .f32⟩) main_call5.v0 main_call5.v1 maximumf,
    StableHlo.nullary main_cst_7 (constant S_ .f32 0xFF800000#32),
    StableHlo.binary main_v67 main_cst_7 main_v68 ((fun x v => Host.reduce FloatOps.maximumf x v reducesTo_S12288x16_S12288_d1 h_S_) : (⟨S12288x16, .f32⟩ : BufTy).Contents (Elt F) → (⟨S_, .f32⟩ : BufTy).Contents (Elt F) → (⟨S12288, .f32⟩ : BufTy).Contents (Elt F)),
    StableHlo.unary main_v68 main_v69 (broadcastInDim S12288x1 ![0] bcast_S12288_S12288x1_0 : (⟨S12288, .f32⟩ : BufTy).Contents (Elt F) → (⟨S12288x1, .f32⟩ : BufTy).Contents (Elt F)) ]

/-- The references seg8c writes. -/
abbrev seg8c_W : List (Ref sig .tc) :=
  [main_v52, main_v53, main_v54, main_v55, main_v56, main_v57, main_cst_6, main_v58, main_v59, main_v60, main_v61, main_v62, main_v63, main_v64, main_v65, main_v66, main_call5.cst.ref, main_call5.v0.ref, main_call5.v1.ref, main_cst_7, main_v68, main_v69]

/-- Statements 81 to 103: the head and the final reshape (25 operations). -/
def seg9 : List (HloOp τ sig (Elt F)) :=
  [ StableHlo.binary main_v41 main_v69 main_v70 ((fun a b => concatenate S12288x2 1 [⟨S12288x1, a⟩, ⟨S12288x1, b⟩] concatenates_S12288x1_S12288x1_S12288x2_d1) : (⟨S12288x1, .f32⟩ : BufTy).Contents (Elt F) → (⟨S12288x1, .f32⟩ : BufTy).Contents (Elt F) → (⟨S12288x2, .f32⟩ : BufTy).Contents (Elt F)),
    StableHlo.binary main_arg4 main_v70 main_v71 ((fun l r => Host.dotGeneral dot_S6144x12288_S12288x2_S6144x2_1_0_0_1_n_n none l r) : (⟨S6144x12288, .f32⟩ : BufTy).Contents (Elt F) → (⟨S12288x2, .f32⟩ : BufTy).Contents (Elt F) → (⟨S6144x2, .f32⟩ : BufTy).Contents (Elt F)),
    StableHlo.binary main_v13 main_v71 main_v72 ((fun a b => concatenate S6144x34 1 [⟨S6144x32, a⟩, ⟨S6144x2, b⟩] concatenates_S6144x32_S6144x2_S6144x34_d1) : (⟨S6144x32, .f32⟩ : BufTy).Contents (Elt F) → (⟨S6144x2, .f32⟩ : BufTy).Contents (Elt F) → (⟨S6144x34, .f32⟩ : BufTy).Contents (Elt F)),
    StableHlo.unary main_arg17 main_v73 ((transpose S34x12288 [1, 0] · transposes_S12288x34_S34x12288_1_0) : (⟨S12288x34, .f32⟩ : BufTy).Contents (Elt F) → (⟨S34x12288, .f32⟩ : BufTy).Contents (Elt F)),
    StableHlo.binary main_v72 main_v73 main_v74 ((fun l r => Host.dotGeneral dot_S6144x34_S34x12288_S6144x12288_1_0_0_1_n_n none l r) : (⟨S6144x34, .f32⟩ : BufTy).Contents (Elt F) → (⟨S34x12288, .f32⟩ : BufTy).Contents (Elt F) → (⟨S6144x12288, .f32⟩ : BufTy).Contents (Elt F)),
    StableHlo.unary main_arg18 main_v75 (broadcastInDim S1x12288 ![1] bcast_S12288_S1x12288_1 : (⟨S12288, .f32⟩ : BufTy).Contents (Elt F) → (⟨S1x12288, .f32⟩ : BufTy).Contents (Elt F)),
    StableHlo.unary main_v75 main_v76 (broadcastInDim S6144x12288 ![0, 1] bcast_S1x12288_S6144x12288_0_1 : (⟨S1x12288, .f32⟩ : BufTy).Contents (Elt F) → (⟨S6144x12288, .f32⟩ : BufTy).Contents (Elt F)),
    StableHlo.binary main_v74 main_v76 main_v77 (addf : (⟨S6144x12288, .f32⟩ : BufTy).Contents (Elt F) → (⟨S6144x12288, .f32⟩ : BufTy).Contents (Elt F) → (⟨S6144x12288, .f32⟩ : BufTy).Contents (Elt F)),
    StableHlo.TRef.nullary main_call6.cst (constant S_ .f32 0x00000000#32),
    StableHlo.TRef.unary main_call6.cst main_call6.v0 (broadcastInDim S6144x12288 ![] bcast_S_S6144x12288),
    StableHlo.TRef.binary (.of main_v77 : StableHlo.TRef sig ⟨S6144x12288, .f32⟩) main_call6.v0 main_call6.v1 maximumf,
    StableHlo.unary main_arg19 main_v79 ((transpose S12288x1 [1, 0] · transposes_S1x12288_S12288x1_1_0) : (⟨S1x12288, .f32⟩ : BufTy).Contents (Elt F) → (⟨S12288x1, .f32⟩ : BufTy).Contents (Elt F)),
    StableHlo.binary main_v78 main_v79 main_v80 ((fun l r => Host.dotGeneral dot_S6144x12288_S12288x1_S6144x1_1_0_0_1_n_n none l r) : (⟨S6144x12288, .f32⟩ : BufTy).Contents (Elt F) → (⟨S12288x1, .f32⟩ : BufTy).Contents (Elt F) → (⟨S6144x1, .f32⟩ : BufTy).Contents (Elt F)),
    StableHlo.unary main_arg20 main_v81 (broadcastInDim S1x1 ![1] bcast_S1_S1x1_1 : (⟨S1, .f32⟩ : BufTy).Contents (Elt F) → (⟨S1x1, .f32⟩ : BufTy).Contents (Elt F)),
    StableHlo.unary main_v81 main_v82 (broadcastInDim S6144x1 ![0, 1] bcast_S1x1_S6144x1_0_1 : (⟨S1x1, .f32⟩ : BufTy).Contents (Elt F) → (⟨S6144x1, .f32⟩ : BufTy).Contents (Elt F)),
    StableHlo.binary main_v80 main_v82 main_v83 (addf : (⟨S6144x1, .f32⟩ : BufTy).Contents (Elt F) → (⟨S6144x1, .f32⟩ : BufTy).Contents (Elt F) → (⟨S6144x1, .f32⟩ : BufTy).Contents (Elt F)),
    StableHlo.unary main_v83 main_v84 (Host.negf : (⟨S6144x1, .f32⟩ : BufTy).Contents (Elt F) → (⟨S6144x1, .f32⟩ : BufTy).Contents (Elt F)),
    StableHlo.unary main_v84 main_v85 (Host.exp : (⟨S6144x1, .f32⟩ : BufTy).Contents (Elt F) → (⟨S6144x1, .f32⟩ : BufTy).Contents (Elt F)),
    StableHlo.nullary main_cst_8 (constant S_ .f32 0x3F800000#32),
    StableHlo.unary main_cst_8 main_v86 (broadcastInDim S6144x1 ![] bcast_S_S6144x1 : (⟨S_, .f32⟩ : BufTy).Contents (Elt F) → (⟨S6144x1, .f32⟩ : BufTy).Contents (Elt F)),
    StableHlo.binary main_v86 main_v85 main_v87 (addf : (⟨S6144x1, .f32⟩ : BufTy).Contents (Elt F) → (⟨S6144x1, .f32⟩ : BufTy).Contents (Elt F) → (⟨S6144x1, .f32⟩ : BufTy).Contents (Elt F)),
    StableHlo.nullary main_cst_9 (constant S_ .f32 0x3F800000#32),
    StableHlo.unary main_cst_9 main_v88 (broadcastInDim S6144x1 ![] bcast_S_S6144x1 : (⟨S_, .f32⟩ : BufTy).Contents (Elt F) → (⟨S6144x1, .f32⟩ : BufTy).Contents (Elt F)),
    StableHlo.binary main_v88 main_v87 main_v89 (Host.divf : (⟨S6144x1, .f32⟩ : BufTy).Contents (Elt F) → (⟨S6144x1, .f32⟩ : BufTy).Contents (Elt F) → (⟨S6144x1, .f32⟩ : BufTy).Contents (Elt F)),
    StableHlo.reshape main_v89 main_v90 rfl shapeCasts_S6144x1_S6144 ]

/-- The references seg9 writes. -/
abbrev seg9_W : List (Ref sig .tc) :=
  [main_v70, main_v71, main_v72, main_v73, main_v74, main_v75, main_v76, main_v77, main_call6.cst.ref, main_call6.v0.ref, main_call6.v1.ref, main_v79, main_v80, main_v81, main_v82, main_v83, main_v84, main_v85, main_cst_8, main_v86, main_v87, main_cst_9, main_v88, main_v89, main_v90]

end Cert.ReferenceIdeal.RefRun

end
-- ==== Proof.RefRun.lean ====
/-
  The reference program's run, read back as the network of Spec.lean.

  The reference is a straight line of host operations once each call is replaced by its callee's operations over
  that call's buffers: 155 operations, listed in RefOps.lean as the program's two windows and again as thirteen
  consecutive stretches. A straight line run from any memory with zero counters terminates, and each buffer ends at
  the fold of the operations' results over the launch contents. That fold is computed stretch by stretch: over ANY
  contents X, a stretch leaves at its result buffer one function of Spec.lean applied to X at the buffers the
  stretch reads (each operation's result at its own buffer is its function's value, at any other buffer what was
  there), and leaves every buffer it does not write as it was. Chaining the thirteen: the two node layers give
  `nodes`; each edge layer's linear map, product with the Laplacian, and normalisation (the columns' mean, their
  variance, then scale, shift, relu and the maximum over the channels) give `edge0` and `edge1`; the head and the
  final reshape give `model` of the twenty-one arguments, none of which any operation writes.
-/
import proofs.«180717_j87385404604873_2_alg».proof.Proof.Spec
import proofs.«180717_j87385404604873_2_alg».proof.ReferenceIdeal
import Idealize.ShloMosaic.Lib.StableHlo.Run
import proofs.«180717_j87385404604873_2_alg».proof.Proof.RefOps

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- @main's operations, in order: its two windows'. -/
abbrev ops : List (HloOp τ sig (Elt F)) := ops0 ++ ops1

set_option maxRecDepth 8192 in
set_option maxHeartbeats 4000000 in
/-- The first window is the straight line of its operations: the called functions' definitions unfolded at their
    calls, sequencing reassociated. -/
theorem part0_eq (c : Dev nD) : main_part0 (F := F) c = seq ops0 := by
  simp only [main_part0, fn_relu.body, fn_where.body, fn_var.body, fn_relu_0.body, seq, bind_assoc, pure_bind]

set_option maxRecDepth 8192 in
set_option maxHeartbeats 4000000 in
/-- The second window likewise. -/
theorem part1_eq (c : Dev nD) : main_part1 (F := F) c = seq ops1 := by
  simp only [main_part1, fn_relu_0.body, fn_relu_1.body, seq, bind_assoc, pure_bind]

/-- @main is the straight line of all its operations. -/
theorem main_eq (c : Dev nD) : main (F := F) c = seq ops := by
  show main (F := F) c = seq (ops0 ++ ops1)
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]

/-- Every operation touches TensorCore references only. -/
theorem ops_sub : (ops : List (HloOp τ sig (Elt F))).Forall fun op => op.bufs ⊆ tcRefs τ sig :=
  List.forall_iff_forall_mem.mpr fun op h =>
    (List.mem_append.mp h).elim (List.forall_iff_forall_mem.mp ops0_sub op) (List.forall_iff_forall_mem.mp ops1_sub op)

set_option maxRecDepth 8192 in
theorem ops0_fresh : (ops0 : List (HloOp τ sig (Elt F))).Forall fun op => op.fresh = ∅ := by
  simp only [List.Forall]
  repeat' apply And.intro
  all_goals rfl

set_option maxRecDepth 8192 in
theorem ops1_fresh : (ops1 : List (HloOp τ sig (Elt F))).Forall fun op => op.fresh = ∅ := by
  simp only [List.Forall]
  repeat' apply And.intro
  all_goals rfl

/-- Every operation determines what it writes. -/
theorem ops_fresh : ∀ op ∈ (ops : List (HloOp τ sig (Elt F))), op.fresh = ∅ := fun op h =>
  (List.mem_append.mp h).elim (List.forall_iff_forall_mem.mp ops0_fresh op) (List.forall_iff_forall_mem.mp ops1_fresh op)

set_option maxRecDepth 8192 in
/-- The same operations, cut into the thirteen stretches. -/
theorem ops_split : (ops : List (HloOp τ sig (Elt F)))
    = seg1 ++ (seg2 ++ (seg3 ++ (seg4 ++ (seg5a ++ (seg5b ++ (seg5c ++ (seg6 ++ (seg7 ++ (seg8a ++ (seg8b ++ (seg8c ++ seg9))))))))))) := rfl

/-- The fold over two lines in a row is the second's over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation's one written reference is among a list's. -/
local macro "writes_mem" : tactic =>
  `(tactic| exact Finset.singleton_subset_iff.mpr (List.mem_toFinset.mpr (List.mem_map_of_mem (by decide))))

/-- The normalisation's tail from the columns' mean and variance. -/
def bnCore (Zc : FVec F S12288x16 .f32) (mu var g beta : FVec F S16 .f32) : FVec F S12288x1 .f32 :=
  broadcastInDim S12288x1 ![0] bcast_S12288_S12288x1_0
    (Host.reduce FloatOps.maximumf
      (maximumf
        (addf
          (mulf (mulf (Spec.rows16 g) (subf Zc (Spec.rows16 mu)))
            (Spec.rows16 (Host.rsqrt (addf var (broadcastInDim S16 ![] bcast_S_S16 (constant S_ .f32 0x3727C5AC#32))))))
          (Spec.rows16 beta))
        (broadcastInDim S12288x16 ![] bcast_S_S12288x16 (constant S_ .f32 0x00000000#32)))
      (constant S_ .f32 0xFF800000#32) reducesTo_S12288x16_S12288_d1 h_S_)

theorem bnTail_eq (Zc : FVec F S12288x16 .f32) (g beta : FVec F S16 .f32) :
    Spec.bnTail Zc g beta = bnCore Zc (Spec.mean16 Zc) (Spec.var16 Zc) g beta := rfl

theorem seg1_writes : (seg1 : List (HloOp τ sig (Elt F))).Forall fun op => op.writes ⊆ (seg1_W.map (Proc.devRef (τ := τ) .tc)).toFinset := by
  unfold seg1
  simp only [List.Forall]
  repeat' apply And.intro
  all_goals writes_mem

theorem seg1_keep (X : Valuation τ sig (Elt F)) (r : Ref sig .tc) (h : r ∉ seg1_W) :
    after (seg1 (F := F)) X (no_index (Proc.devRef .tc r)) = X (Proc.devRef .tc r) :=
  after_of_writes_sub seg1 X seg1_writes h

attribute [local irreducible] Host.reduce Host.reduceAdd in
set_option maxRecDepth 8192 in
set_option maxHeartbeats 2000000 in
theorem seg1_val (X : Valuation τ sig (Elt F)) :
    after (seg1 (F := F)) X (no_index (Proc.devRef .tc main_v6)) = Spec.gnnCore (X (Proc.devRef .tc main_arg2)) (X (Proc.devRef .tc main_arg0)) (Spec.wT32 (X (Proc.devRef .tc main_arg5))) (X (Proc.devRef .tc main_arg6)) := by
  unfold seg1
  after_results_simp
  rfl

theorem seg2_writes : (seg2 : List (HloOp τ sig (Elt F))).Forall fun op => op.writes ⊆ (seg2_W.map (Proc.devRef (τ := τ) .tc)).toFinset := by
  unfold seg2
  simp only [List.Forall]
  repeat' apply And.intro
  all_goals writes_mem

theorem seg2_keep (X : Valuation τ sig (Elt F)) (r : Ref sig .tc) (h : r ∉ seg2_W) :
    after (seg2 (F := F)) X (no_index (Proc.devRef .tc r)) = X (Proc.devRef .tc r) :=
  after_of_writes_sub seg2 X seg2_writes h

attribute [local irreducible] Host.reduce Host.reduceAdd in
set_option maxRecDepth 8192 in
set_option maxHeartbeats 2000000 in
theorem seg2_val (X : Valuation τ sig (Elt F)) :
    after (seg2 (F := F)) X (no_index (Proc.devRef .tc main_v13)) = Spec.gnnCore (X (Proc.devRef .tc main_arg2)) (X (Proc.devRef .tc main_v6)) (Spec.wT32 (X (Proc.devRef .tc main_arg7))) (X (Proc.devRef .tc main_arg8)) := by
  unfold seg2
  after_results_simp
  rfl

theorem seg3_writes : (seg3 : List (HloOp τ sig (Elt F))).Forall fun op => op.writes ⊆ (seg3_W.map (Proc.devRef (τ := τ) .tc)).toFinset := by
  unfold seg3
  simp only [List.Forall]
  repeat' apply And.intro
  all_goals writes_mem

theorem seg3_keep (X : Valuation τ sig (Elt F)) (r : Ref sig .tc) (h : r ∉ seg3_W) :
    after (seg3 (F := F)) X (no_index (Proc.devRef .tc r)) = X (Proc.devRef .tc r) :=
  after_of_writes_sub seg3 X seg3_writes h

attribute [local irreducible] Host.reduce Host.reduceAdd in
set_option maxRecDepth 8192 in
set_option maxHeartbeats 2000000 in
theorem seg3_val (X : Valuation τ sig (Elt F)) :
    after (seg3 (F := F)) X (no_index (Proc.devRef .tc main_v18)) = Spec.theta0 (X (Proc.devRef .tc main_arg1)) (X (Proc.devRef .tc main_arg9)) (X (Proc.devRef .tc main_arg10)) := by
  unfold seg3
  after_results_simp
  rfl

theorem seg4_writes : (seg4 : List (HloOp τ sig (Elt F))).Forall fun op => op.writes ⊆ (seg4_W.map (Proc.devRef (τ := τ) .tc)).toFinset := by
  unfold seg4
  simp only [List.Forall]
  repeat' apply And.intro
  all_goals writes_mem

theorem seg4_keep (X : Valuation τ sig (Elt F)) (r : Ref sig .tc) (h : r ∉ seg4_W) :
    after (seg4 (F := F)) X (no_index (Proc.devRef .tc r)) = X (Proc.devRef .tc r) :=
  after_of_writes_sub seg4 X seg4_writes h

attribute [local irreducible] Host.reduce Host.reduceAdd in
set_option maxRecDepth 8192 in
set_option maxHeartbeats 2000000 in
theorem seg4_val (X : Valuation τ sig (Elt F)) :
    after (seg4 (F := F)) X (no_index (Proc.devRef .tc main_v19)) = Spec.lconv (X (Proc.devRef .tc main_arg3)) (X (Proc.devRef .tc main_v18)) := by
  unfold seg4
  after_results_simp
  rfl

theorem seg5a_writes : (seg5a : List (HloOp τ sig (Elt F))).Forall fun op => op.writes ⊆ (seg5a_W.map (Proc.devRef (τ := τ) .tc)).toFinset := by
  unfold seg5a
  simp only [List.Forall]
  repeat' apply And.intro
  all_goals writes_mem

theorem seg5a_keep (X : Valuation τ sig (Elt F)) (r : Ref sig .tc) (h : r ∉ seg5a_W) :
    after (seg5a (F := F)) X (no_index (Proc.devRef .tc r)) = X (Proc.devRef .tc r) :=
  after_of_writes_sub seg5a X seg5a_writes h

attribute [local irreducible] Host.reduce Host.reduceAdd in
set_option maxRecDepth 8192 in
set_option maxHeartbeats 2000000 in
theorem seg5a_val (X : Valuation τ sig (Elt F)) :
    after (seg5a (F := F)) X (no_index (Proc.devRef .tc main_v22)) = Spec.mean16 (X (Proc.devRef .tc main_v19)) := by
  unfold seg5a
  after_results_simp
  rfl

theorem seg5b_writes : (seg5b : List (HloOp τ sig (Elt F))).Forall fun op => op.writes ⊆ (seg5b_W.map (Proc.devRef (τ := τ) .tc)).toFinset := by
  unfold seg5b
  simp only [List.Forall]
  repeat' apply And.intro
  all_goals writes_mem

theorem seg5b_keep (X : Valuation τ sig (Elt F)) (r : Ref sig .tc) (h : r ∉ seg5b_W) :
    after (seg5b (F := F)) X (no_index (Proc.devRef .tc r)) = X (Proc.devRef .tc r) :=
  after_of_writes_sub seg5b X seg5b_writes h

attribute [local irreducible] Host.reduce Host.reduceAdd in
set_option maxRecDepth 8192 in
set_option maxHeartbeats 2000000 in
theorem seg5b_val (X : Valuation τ sig (Elt F)) :
    after (seg5b (F := F)) X (no_index (Proc.devRef .tc main_v23)) = Spec.var16 (X (Proc.devRef .tc main_v19)) := by
  unfold seg5b
  after_results_simp
  rfl

theorem seg5c_writes : (seg5c : List (HloOp τ sig (Elt F))).Forall fun op => op.writes ⊆ (seg5c_W.map (Proc.devRef (τ := τ) .tc)).toFinset := by
  unfold seg5c
  simp only [List.Forall]
  repeat' apply And.intro
  all_goals writes_mem

theorem seg5c_keep (X : Valuation τ sig (Elt F)) (r : Ref sig .tc) (h : r ∉ seg5c_W) :
    after (seg5c (F := F)) X (no_index (Proc.devRef .tc r)) = X (Proc.devRef .tc r) :=
  after_of_writes_sub seg5c X seg5c_writes h

attribute [local irreducible] Host.reduce Host.reduceAdd in
set_option maxRecDepth 8192 in
set_option maxHeartbeats 2000000 in
theorem seg5c_val (X : Valuation τ sig (Elt F)) :
    after (seg5c (F := F)) X (no_index (Proc.devRef .tc main_v41)) = bnCore (X (Proc.devRef .tc main_v19)) (X (Proc.devRef .tc main_v22)) (X (Proc.devRef .tc main_v23)) (X (Proc.devRef .tc main_arg11)) (X (Proc.devRef .tc main_arg12)) := by
  unfold seg5c
  after_results_simp
  rfl

theorem seg6_writes : (seg6 : List (HloOp τ sig (Elt F))).Forall fun op => op.writes ⊆ (seg6_W.map (Proc.devRef (τ := τ) .tc)).toFinset := by
  unfold seg6
  simp only [List.Forall]
  repeat' apply And.intro
  all_goals writes_mem

theorem seg6_keep (X : Valuation τ sig (Elt F)) (r : Ref sig .tc) (h : r ∉ seg6_W) :
    after (seg6 (F := F)) X (no_index (Proc.devRef .tc r)) = X (Proc.devRef .tc r) :=
  after_of_writes_sub seg6 X seg6_writes h

attribute [local irreducible] Host.reduce Host.reduceAdd in
set_option maxRecDepth 8192 in
set_option maxHeartbeats 2000000 in
theorem seg6_val (X : Valuation τ sig (Elt F)) :
    after (seg6 (F := F)) X (no_index (Proc.devRef .tc main_v46)) = Spec.theta1 (X (Proc.devRef .tc main_v41)) (X (Proc.devRef .tc main_arg13)) (X (Proc.devRef .tc main_arg14)) := by
  unfold seg6
  after_results_simp
  rfl

theorem seg7_writes : (seg7 : List (HloOp τ sig (Elt F))).Forall fun op => op.writes ⊆ (seg7_W.map (Proc.devRef (τ := τ) .tc)).toFinset := by
  unfold seg7
  simp only [List.Forall]
  repeat' apply And.intro
  all_goals writes_mem

theorem seg7_keep (X : Valuation τ sig (Elt F)) (r : Ref sig .tc) (h : r ∉ seg7_W) :
    after (seg7 (F := F)) X (no_index (Proc.devRef .tc r)) = X (Proc.devRef .tc r) :=
  after_of_writes_sub seg7 X seg7_writes h

attribute [local irreducible] Host.reduce Host.reduceAdd in
set_option maxRecDepth 8192 in
set_option maxHeartbeats 2000000 in
theorem seg7_val (X : Valuation τ sig (Elt F)) :
    after (seg7 (F := F)) X (no_index (Proc.devRef .tc main_v47)) = Spec.lconv (X (Proc.devRef .tc main_arg3)) (X (Proc.devRef .tc main_v46)) := by
  unfold seg7
  after_results_simp
  rfl

theorem seg8a_writes : (seg8a : List (HloOp τ sig (Elt F))).Forall fun op => op.writes ⊆ (seg8a_W.map (Proc.devRef (τ := τ) .tc)).toFinset := by
  unfold seg8a
  simp only [List.Forall]
  repeat' apply And.intro
  all_goals writes_mem

theorem seg8a_keep (X : Valuation τ sig (Elt F)) (r : Ref sig .tc) (h : r ∉ seg8a_W) :
    after (seg8a (F := F)) X (no_index (Proc.devRef .tc r)) = X (Proc.devRef .tc r) :=
  after_of_writes_sub seg8a X seg8a_writes h

attribute [local irreducible] Host.reduce Host.reduceAdd in
set_option maxRecDepth 8192 in
set_option maxHeartbeats 2000000 in
theorem seg8a_val (X : Valuation τ sig (Elt F)) :
    after (seg8a (F := F)) X (no_index (Proc.devRef .tc main_v50)) = Spec.mean16 (X (Proc.devRef .tc main_v47)) := by
  unfold seg8a
  after_results_simp
  rfl

theorem seg8b_writes : (seg8b : List (HloOp τ sig (Elt F))).Forall fun op => op.writes ⊆ (seg8b_W.map (Proc.devRef (τ := τ) .tc)).toFinset := by
  unfold seg8b
  simp only [List.Forall]
  repeat' apply And.intro
  all_goals writes_mem

theorem seg8b_keep (X : Valuation τ sig (Elt F)) (r : Ref sig .tc) (h : r ∉ seg8b_W) :
    after (seg8b (F := F)) X (no_index (Proc.devRef .tc r)) = X (Proc.devRef .tc r) :=
  after_of_writes_sub seg8b X seg8b_writes h

attribute [local irreducible] Host.reduce Host.reduceAdd in
set_option maxRecDepth 8192 in
set_option maxHeartbeats 2000000 in
theorem seg8b_val (X : Valuation τ sig (Elt F)) :
    after (seg8b (F := F)) X (no_index (Proc.devRef .tc main_v51)) = Spec.var16 (X (Proc.devRef .tc main_v47)) := by
  unfold seg8b
  after_results_simp
  rfl

theorem seg8c_writes : (seg8c : List (HloOp τ sig (Elt F))).Forall fun op => op.writes ⊆ (seg8c_W.map (Proc.devRef (τ := τ) .tc)).toFinset := by
  unfold seg8c
  simp only [List.Forall]
  repeat' apply And.intro
  all_goals writes_mem

theorem seg8c_keep (X : Valuation τ sig (Elt F)) (r : Ref sig .tc) (h : r ∉ seg8c_W) :
    after (seg8c (F := F)) X (no_index (Proc.devRef .tc r)) = X (Proc.devRef .tc r) :=
  after_of_writes_sub seg8c X seg8c_writes h

attribute [local irreducible] Host.reduce Host.reduceAdd in
set_option maxRecDepth 8192 in
set_option maxHeartbeats 2000000 in
theorem seg8c_val (X : Valuation τ sig (Elt F)) :
    after (seg8c (F := F)) X (no_index (Proc.devRef .tc main_v69)) = bnCore (X (Proc.devRef .tc main_v47)) (X (Proc.devRef .tc main_v50)) (X (Proc.devRef .tc main_v51)) (X (Proc.devRef .tc main_arg15)) (X (Proc.devRef .tc main_arg16)) := by
  unfold seg8c
  after_results_simp
  rfl

theorem seg9_writes : (seg9 : List (HloOp τ sig (Elt F))).Forall fun op => op.writes ⊆ (seg9_W.map (Proc.devRef (τ := τ) .tc)).toFinset := by
  unfold seg9
  simp only [List.Forall]
  repeat' apply And.intro
  all_goals writes_mem

theorem seg9_keep (X : Valuation τ sig (Elt F)) (r : Ref sig .tc) (h : r ∉ seg9_W) :
    after (seg9 (F := F)) X (no_index (Proc.devRef .tc r)) = X (Proc.devRef .tc r) :=
  after_of_writes_sub seg9 X seg9_writes h

attribute [local irreducible] Host.reduce Host.reduceAdd in
set_option maxRecDepth 8192 in
set_option maxHeartbeats 2000000 in
theorem seg9_val (X : Valuation τ sig (Elt F)) :
    after (seg9 (F := F)) X (no_index (Proc.devRef .tc main_v90)) = Spec.flat (Spec.headCore (X (Proc.devRef .tc main_arg4)) (Spec.zcat (X (Proc.devRef .tc main_v41)) (X (Proc.devRef .tc main_v69))) (X (Proc.devRef .tc main_v13)) (Spec.w1T (X (Proc.devRef .tc main_arg17))) (X (Proc.devRef .tc main_arg18)) (Spec.w2T (X (Proc.devRef .tc main_arg19))) (X (Proc.devRef .tc main_arg20))) := by
  unfold seg9
  after_results_simp
  rfl

/-- A reference no stretch writes keeps its contents through the whole line. -/
theorem ops_keep (V : Valuation τ sig (Elt F)) (r : Ref sig .tc)
    (h1 : r ∉ seg1_W)
    (h2 : r ∉ seg2_W)
    (h3 : r ∉ seg3_W)
    (h4 : r ∉ seg4_W)
    (h5 : r ∉ seg5a_W)
    (h6 : r ∉ seg5b_W)
    (h7 : r ∉ seg5c_W)
    (h8 : r ∉ seg6_W)
    (h9 : r ∉ seg7_W)
    (h10 : r ∉ seg8a_W)
    (h11 : r ∉ seg8b_W)
    (h12 : r ∉ seg8c_W)
    (h13 : r ∉ seg9_W) :
    after (ops (F := F)) V (Proc.devRef .tc r) = V (Proc.devRef .tc r) := by
  rw [ops_split]
  simp only [after_app]
  rw [seg9_keep _ r h13, seg8c_keep _ r h12, seg8b_keep _ r h11, seg8a_keep _ r h10, seg7_keep _ r h9, seg6_keep _ r h8, seg5c_keep _ r h7, seg5b_keep _ r h6, seg5a_keep _ r h5, seg4_keep _ r h4, seg3_keep _ r h3, seg2_keep _ r h2, seg1_keep _ r h1]

set_option maxRecDepth 8192 in
set_option maxHeartbeats 4000000 in
/-- The result buffer after the whole line is the network of the arguments' contents: each stretch's result is its
    function of what the earlier stretches left, and what a stretch does not write it leaves. -/
theorem out_eq (V : Valuation τ sig (Elt F)) :
    after (ops (F := F)) V (Proc.devRef .tc main_v90)
      = Spec.model (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  rw [ops_split]
  simp only [after_app]
  simp (disch := decide) only [seg1_val, seg2_val, seg3_val, seg4_val, seg5a_val, seg5b_val, seg5c_val, seg6_val, seg7_val, seg8a_val, seg8b_val, seg8c_val, seg9_val,
    seg1_keep, seg2_keep, seg3_keep, seg4_keep, seg5a_keep, seg5b_keep, seg5c_keep, seg6_keep, seg7_keep, seg8a_keep, seg8b_keep, seg8c_keep, seg9_keep]
  rfl

/-- On the device, for any float values, from any memory with zero counters: every weakly fair execution of @main
    terminates with the result buffer at the network of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v90)
          = Spec.model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c main_v90).trans (out_eq _),
      (h c main_arg0).trans (ops_keep _ main_arg0 (by decide) (by decide) (by decide) (by decide) (by decide) (by decide) (by decide) (by decide) (by decide) (by decide) (by decide) (by decide) (by decide)),
      (h c main_arg1).trans (ops_keep _ main_arg1 (by decide) (by decide) (by decide) (by decide) (by decide) (by decide) (by decide) (by decide) (by decide) (by decide) (by decide) (by decide) (by decide)),
      (h c main_arg2).trans (ops_keep _ main_arg2 (by decide) (by decide) (by decide) (by decide) (by decide) (by decide) (by decide) (by decide) (by decide) (by decide) (by decide) (by decide) (by decide)),
      (h c main_arg3).trans (ops_keep _ main_arg3 (by decide) (by decide) (by decide) (by decide) (by decide) (by decide) (by decide) (by decide) (by decide) (by decide) (by decide) (by decide) (by decide)),
      (h c main_arg4).trans (ops_keep _ main_arg4 (by decide) (by decide) (by decide) (by decide) (by decide) (by decide) (by decide) (by decide) (by decide) (by decide) (by decide) (by decide) (by decide)),
      (h c main_arg5).trans (ops_keep _ main_arg5 (by decide) (by decide) (by decide) (by decide) (by decide) (by decide) (by decide) (by decide) (by decide) (by decide) (by decide) (by decide) (by decide)),
      (h c main_arg6).trans (ops_keep _ main_arg6 (by decide) (by decide) (by decide) (by decide) (by decide) (by decide) (by decide) (by decide) (by decide) (by decide) (by decide) (by decide) (by decide)),
      (h c main_arg7).trans (ops_keep _ main_arg7 (by decide) (by decide) (by decide) (by decide) (by decide) (by decide) (by decide) (by decide) (by decide) (by decide) (by decide) (by decide) (by decide)),
      (h c main_arg8).trans (ops_keep _ main_arg8 (by decide) (by decide) (by decide) (by decide) (by decide) (by decide) (by decide) (by decide) (by decide) (by decide) (by decide) (by decide) (by decide)),
      (h c main_arg9).trans (ops_keep _ main_arg9 (by decide) (by decide) (by decide) (by decide) (by decide) (by decide) (by decide) (by decide) (by decide) (by decide) (by decide) (by decide) (by decide)),
      (h c main_arg10).trans (ops_keep _ main_arg10 (by decide) (by decide) (by decide) (by decide) (by decide) (by decide) (by decide) (by decide) (by decide) (by decide) (by decide) (by decide) (by decide)),
      (h c main_arg11).trans (ops_keep _ main_arg11 (by decide) (by decide) (by decide) (by decide) (by decide) (by decide) (by decide) (by decide) (by decide) (by decide) (by decide) (by decide) (by decide)),
      (h c main_arg12).trans (ops_keep _ main_arg12 (by decide) (by decide) (by decide) (by decide) (by decide) (by decide) (by decide) (by decide) (by decide) (by decide) (by decide) (by decide) (by decide)),
      (h c main_arg13).trans (ops_keep _ main_arg13 (by decide) (by decide) (by decide) (by decide) (by decide) (by decide) (by decide) (by decide) (by decide) (by decide) (by decide) (by decide) (by decide)),
      (h c main_arg14).trans (ops_keep _ main_arg14 (by decide) (by decide) (by decide) (by decide) (by decide) (by decide) (by decide) (by decide) (by decide) (by decide) (by decide) (by decide) (by decide)),
      (h c main_arg15).trans (ops_keep _ main_arg15 (by decide) (by decide) (by decide) (by decide) (by decide) (by decide) (by decide) (by decide) (by decide) (by decide) (by decide) (by decide) (by decide)),
      (h c main_arg16).trans (ops_keep _ main_arg16 (by decide) (by decide) (by decide) (by decide) (by decide) (by decide) (by decide) (by decide) (by decide) (by decide) (by decide) (by decide) (by decide)),
      (h c main_arg17).trans (ops_keep _ main_arg17 (by decide) (by decide) (by decide) (by decide) (by decide) (by decide) (by decide) (by decide) (by decide) (by decide) (by decide) (by decide) (by decide)),
      (h c main_arg18).trans (ops_keep _ main_arg18 (by decide) (by decide) (by decide) (by decide) (by decide) (by decide) (by decide) (by decide) (by decide) (by decide) (by decide) (by decide) (by decide)),
      (h c main_arg19).trans (ops_keep _ main_arg19 (by decide) (by decide) (by decide) (by decide) (by decide) (by decide) (by decide) (by decide) (by decide) (by decide) (by decide) (by decide) (by decide)),
      (h c main_arg20).trans (ops_keep _ main_arg20 (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ (hfresh := fun _ => ops_fresh))

end Cert.ReferenceIdeal.RefRun

end
-- ==== Proof.lean ====
/-
  The certificate's five claims.

  Both programs compute one network: two graph-convolution layers over the nodes, two normalised edge layers, and
  a two-layer head. The kernel program tiles each large matrix product by rows of its left operand and fuses the
  head into the last product; at exact arithmetic a row tile of a product is the same rows of the whole product,
  the fused head is row-wise, and the kernel's logistic is the reference's 1 / (1 + exp(-x)). So both runs end with
  the result buffer at one function of the arguments (the shared specification's model), and equal arguments give
  equal results. No law of the extended reals beyond that is used, and the precondition is never opened.
  The frames of the two kernel programs are the generated ones; the reference's frame is its run with the result
  dropped; the idealization rewrote nothing.
-/
import proofs.«180717_j87385404604873_2_alg».proof.Defs
import proofs.«180717_j87385404604873_2_alg».proof.Proof.Gen.Kernel
import proofs.«180717_j87385404604873_2_alg».proof.Proof.Gen.Kernel.Frame
import proofs.«180717_j87385404604873_2_alg».proof.Proof.Gen.KernelIdeal
import proofs.«180717_j87385404604873_2_alg».proof.Proof.Gen.KernelIdeal.Frame
import proofs.«180717_j87385404604873_2_alg».proof.Proof.Gen.ReferenceIdeal
import proofs.«180717_j87385404604873_2_alg».proof.Proof.Gen.Pre_finite_inputs
import proofs.«180717_j87385404604873_2_alg».proof.Proof.Spec
import proofs.«180717_j87385404604873_2_alg».proof.Proof.KRun
import proofs.«180717_j87385404604873_2_alg».proof.Proof.KValue
import proofs.«180717_j87385404604873_2_alg».proof.Proof.RefRun
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both programs end with the result at the network's output of the
    arguments. -/
theorem algebraic : Cert.algebraic_KernelIdeal_ReferenceIdeal := by
  intro m ρ m' ρ' _ hagree
  refine ⟨fun c => Cert.Spec.model (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20)), ?_, ?_⟩
  · exact (θ_run Cert.KernelIdeal.defs _ _).mono
      (fun r h c => ⟨(h c).1.trans (Cert.KernelIdeal.KValue.out m ρ c), (h c).2⟩)
      (Cert.KernelIdeal.KRun.run_named m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8, h9, h10, h11, h12, h13, h14, h15, h16, h17, h18, h19, h20⟩ := hagree c
    rw [h0, h1, h2, h3, h4, h5, h6, h7, h8, h9, h10, h11, h12, h13, h14, h15, h16, h17, h18, h19, h20]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
